-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S16384 : Shape := ⟨1, ![16384]⟩
abbrev S16384x9 : Shape := ⟨2, ![16384, 9]⟩
abbrev S100000x32 : Shape := ⟨2, ![100000, 32]⟩
abbrev S32x64 : Shape := ⟨2, ![32, 64]⟩
abbrev S64 : Shape := ⟨1, ![64]⟩
abbrev S64x64 : Shape := ⟨2, ![64, 64]⟩
abbrev S9x32 : Shape := ⟨2, ![9, 32]⟩
abbrev S32 : Shape := ⟨1, ![32]⟩
abbrev S32x32 : Shape := ⟨2, ![32, 32]⟩
abbrev S96x64 : Shape := ⟨2, ![96, 64]⟩
abbrev S64x1 : Shape := ⟨2, ![64, 1]⟩
abbrev S1 : Shape := ⟨1, ![1]⟩
abbrev S_ : Shape := ⟨0, ![]⟩

class Facts : Prop where
  bcast_S_S16384x9 : S_.BroadcastsInDim S16384x9 (![] : Fin 0 → Fin S16384x9.rank)
  reducesTo_S16384x9_S_d0_1 : S16384x9.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S9x32 : S_.BroadcastsInDim S9x32 (![] : Fin 0 → Fin S9x32.rank)
  reducesTo_S9x32_S_d0_1 : S9x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S96x64 : S_.BroadcastsInDim S96x64 (![] : Fin 0 → Fin S96x64.rank)
  reducesTo_S96x64_S_d0_1 : S96x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x1 .f32) (main_arg15 : FVec F S1 .f32) (main_v48 : IVec S_ 1) (main_v49 : FVec F S96x64 .f32) (main_v50 : FVec F S96x64 .f32) : IVec S_ 1 :=
  let main_v51 : IVec S96x64 1 := cmpf .olt main_v49 main_v50
  let main_c_19 : IVec S_ 1 := constantI S_ 1 1#1
  let main_v52 : IVec S_ 1 := (fun x v => Host.reduce IntOp.andi x v reducesTo_S96x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S32 .f32) (main_arg10 : FVec F S32x32 .f32) (main_arg11 : FVec F S32 .f32) (main_arg12 : FVec F S96x64 .f32) (main_arg13 : FVec F S64 .f32) (main_arg14 : FVec F S64x1 .f32) (main_arg15 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S96x64 .f32 := Host.absf main_arg12
  let main_cst_18 : FVec F S_ .f32 := constant S_ .f32 0x7F800000#32
  let main_v50 : FVec F S96x64 .f32 := broadcastInDim S96x64 ![] bcast_S_S96x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S9x32 .f32) (main_arg9 : FVec F S32 .f32) (main_arg10 : FVec F S32x32 .f32) (main_arg11 : FVec F S32 .f32) (main_arg12 : FVec F S96x64 .f32) (main_arg13 : FVec F S64 .f32) (main_arg14 : FVec F S64x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S9x32 .f32 := Host.absf main_arg8
  let main_cst_10 : FVec F S_ .f32 := constant S_ .f32 0x7F800000#32
  let main_v30 : FVec F S9x32 .f32 := broadcastInDim S9x32 ![] bcast_S_S9x32 main_cst_10
  let main_v31 : IVec S9x32 1 := cmpf .olt main_v29 main_v30
  let main_c_11 : IVec S_ 1 := constantI S_ 1 1#1
  let main_v32 : IVec S_ 1 := (fun x v => Host.reduce IntOp.andi x v reducesTo_S9x32_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : IVec S2x3200000 32) (main_arg1 : IVec S16384 32) (main_arg2 : FVec F S16384x9 .f32) (main_arg3 : FVec F S100000x32 .f32) (main_arg4 : FVec F S32x64 .f32) (main_arg5 : FVec F S64 .f32) (main_arg6 : FVec F S64x64 .f32) (main_arg7 : FVec F S64 .f32) (main_arg8 : FVec F S9x32 .f32) (main_arg9 : FVec F S32 .f32) (main_arg10 : FVec F S32x32 .f32) (main_arg11 : FVec F S32 .f32) (main_arg12 : FVec F S96x64 .f32) (main_arg13 : FVec F S64 .f32) (main_arg14 : FVec F S64x1 .f32) (main_arg15 : FVec F S1 .f32) : IVec S_ 1 :=
  let main_v0 : FVec F S16384x9 .f32 := Host.absf main_arg2
  let main_cst : FVec F S_ .f32 := constant S_ .f32 0x7F800000#32
  let main_v1 : FVec F S16384x9 .f32 := broadcastInDim S16384x9 ![] bcast_S_S16384x9 main_cst
  let main_v2 : IVec S16384x9 1 := cmpf .olt main_v0 main_v1
  let main_c : IVec S_ 1 := constantI S_ 1 1#1
  let main_v3 : IVec S_ 1 := (fun x v => Host.reduce IntOp.andi x v reducesTo_S16384x9_S_d0_1 h_S_) main_v2 main_c
  let main_v4 : FVec F S100000x32 .f32 := Host.absf main_arg3
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S2x3200000 : Shape := ⟨2, ![2, 3200000]⟩
abbrev S16384 : Shape := ⟨1, ![16384]⟩
abbrev S16384x9 : Shape := ⟨2, ![16384, 9]⟩
abbrev S100000x32 : Shape := ⟨2, ![100000, 32]⟩
abbrev S32x64 : Shape := ⟨2, ![32, 64]⟩
abbrev S64 : Shape := ⟨1, ![64]⟩
abbrev S64x64 : Shape := ⟨2, ![64, 64]⟩
abbrev S9x32 : Shape := ⟨2, ![9, 32]⟩
abbrev S32 : Shape := ⟨1, ![32]⟩
abbrev S32x32 : Shape := ⟨2, ![32, 32]⟩
abbrev S96x64 : Shape := ⟨2, ![96, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x32 : Shape := ⟨2, ![5000, 32]⟩
abbrev S5000x1 : Shape := ⟨2, ![5000, 1]⟩
abbrev S5000x64 : Shape := ⟨2, ![5000, 64]⟩
abbrev S3300000x64 : Shape := ⟨2, ![3300000, 64]⟩
abbrev S1x64 : Shape := ⟨2, ![1, 64]⟩
abbrev S16384x1 : Shape := ⟨2, ![16384, 1]⟩
abbrev S16384x64 : Shape := ⟨2, ![16384, 64]⟩
abbrev S1x32 : Shape := ⟨2, ![1, 32]⟩
abbrev S1x1 : Shape := ⟨2, ![1, 1]⟩
abbrev S2048x64 : Shape := ⟨2, ![2048, 64]⟩
abbrev S2048x1 : Shape := ⟨2, ![2048, 1]⟩
abbrev S2048x9 : Shape := ⟨2, ![2048, 9]⟩
abbrev S2048x32 : Shape := ⟨2, ![2048, 32]⟩

abbrev nBuf : Space → Nat
  | .hbm => 97
  | .vmem => 33
  | .smem => 0
  | _ => 0

abbrev bufTy : (tb : Table) → Fin (tcTables nBuf tb) → BufTy
  | .hbm, ⟨0, _⟩ => ⟨S2x3200000, .i32⟩
  | .hbm, ⟨1, _⟩ => ⟨S16384, .i32⟩
  | .hbm, ⟨2, _⟩ => ⟨S16384x9, .f32⟩
  | .hbm, ⟨3, _⟩ => ⟨S100000x32, .f32⟩
  | .hbm, ⟨4, _⟩ => ⟨S32x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S9x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S96x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x3200000, .i32⟩
  | .hbm, ⟨17, _⟩ => ⟨S3200000, .i32⟩
  | .hbm, ⟨18, _⟩ => ⟨S1x3200000, .i32⟩
  | .hbm, ⟨19, _⟩ => ⟨S3200000, .i32⟩
  | .hbm, ⟨20, _⟩ => ⟨S100000, .i32⟩
  | .hbm, ⟨21, _⟩ => ⟨S3300000, .i32⟩
  | .hbm, ⟨22, _⟩ => ⟨S3300000, .i32⟩
  | .hbm, ⟨23, _⟩ => ⟨S_, .f32⟩
  | .hbm, ⟨24, _⟩ => ⟨S3300000, .f32⟩
  | .hbm, ⟨25, _⟩ => ⟨S_, .f32⟩
  | .hbm, ⟨26, _⟩ => ⟨S100000, .f32⟩
  | .hbm, ⟨27, _⟩ => ⟨S3300000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x64, .f32⟩
  | .hbm, ⟨51, _⟩ => ⟨S_, .f32⟩
  | .hbm, ⟨52, _⟩ => ⟨S100000x64, .f32⟩
  | .hbm, ⟨53, _⟩ => ⟨S3300000x1, .i32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S_, .i32⟩
  | .hbm, ⟨58, _⟩ => ⟨S3300000, .i32⟩
  | .hbm, ⟨59, _⟩ => ⟨S3300000, .i1⟩
  | .hbm, ⟨60, _⟩ => ⟨S_, .i32⟩
  | .hbm, ⟨61, _⟩ => ⟨S3300000, .i32⟩
  | .hbm, ⟨62, _⟩ => ⟨S3300000, .i32⟩
  | .hbm, ⟨63, _⟩ => ⟨S3300000, .i32⟩
  | .hbm, ⟨64, _⟩ => ⟨S3300000x1, .i32⟩
  | .hbm, ⟨65, _⟩ => ⟨S3300000x64, .f32⟩
  | .hbm, ⟨66, _⟩ => ⟨S_, .f32⟩
  | .hbm, ⟨67, _⟩ => ⟨S100000x64, .f32⟩
  | .hbm, ⟨68, _⟩ => ⟨S3300000x1, .i32⟩
  | .hbm, ⟨69, _⟩ => ⟨S100000x64, .f32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S16384x1, .i32⟩
  | .hbm, ⟨78, _⟩ => ⟨S16384x64, .f32⟩
  | .hbm, ⟨79, _⟩ => ⟨S_, .i32⟩
  | .hbm, ⟨80, _⟩ => ⟨S16384, .i32⟩
  | .hbm, ⟨81, _⟩ => ⟨S16384, .i1⟩
  | .hbm, ⟨82, _⟩ => ⟨S_, .i32⟩
  | .hbm, ⟨83, _⟩ => ⟨S16384, .i32⟩
  | .hbm, ⟨84, _⟩ => ⟨S16384, .i32⟩
  | .hbm, ⟨85, _⟩ => ⟨S16384, .i32⟩
  | .hbm, ⟨86, _⟩ => ⟨S16384x1, .i32⟩
  | .hbm, ⟨87, _⟩ => ⟨S16384x1, .f32⟩
  | .hbm, ⟨88, _⟩ => ⟨S64x64, .f32⟩
  | .hbm, ⟨89, _⟩ => ⟨S32x64, .f32⟩
  | .hbm, ⟨90, _⟩ => ⟨S1x64, .f32⟩
  | .hbm, ⟨91, _⟩ => ⟨S1x32, .f32⟩
  | .hbm, ⟨92, _⟩ => ⟨S1x32, .f32⟩
  | .hbm, ⟨93, _⟩ => ⟨S1x64, .f32⟩
  | .hbm, ⟨94, _⟩ => ⟨S1x1, .f32⟩
  | .hbm, ⟨95, _⟩ => ⟨S16384x1, .f32⟩
  | .hbm, ⟨96, _⟩ => ⟨S16384, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S2048x64, .f32⟩
  | .local _ .vmem, ⟨16, _⟩ => ⟨S2048x64, .f32⟩
  | .local _ .vmem, ⟨17, _⟩ => ⟨S2048x1, .f32⟩
  | .local _ .vmem, ⟨18, _⟩ => ⟨S2048x1, .f32⟩
  | .local _ .vmem, ⟨19, _⟩ => ⟨S1x64, .f32⟩
  | .local _ .vmem, ⟨20, _⟩ => ⟨S2048x9, .f32⟩
  | .local _ .vmem, ⟨21, _⟩ => ⟨S2048x9, .f32⟩
  | .local _ .vmem, ⟨22, _⟩ => ⟨S9x32, .f32⟩
  | .local _ .vmem, ⟨23, _⟩ => ⟨S1x32, .f32⟩
  | .local _ .vmem, ⟨24, _⟩ => ⟨S32x32, .f32⟩
  | .local _ .vmem, ⟨25, _⟩ => ⟨S1x32, .f32⟩
  | .local _ .vmem, ⟨26, _⟩ => ⟨S64x64, .f32⟩
  | .local _ .vmem, ⟨27, _⟩ => ⟨S32x64, .f32⟩
  | .local _ .vmem, ⟨28, _⟩ => ⟨S1x64, .f32⟩
  | .local _ .vmem, ⟨29, _⟩ => ⟨S64x1, .f32⟩
  | .local _ .vmem, ⟨30, _⟩ => ⟨S1x1, .f32⟩
  | .local _ .vmem, ⟨31, _⟩ => ⟨S2048x1, .f32⟩
  | .local _ .vmem, ⟨32, _⟩ => ⟨S2048x1, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_9 : Ref sig .tc := ⟨.hbm, 70, rfl⟩
abbrev main_v41 : Ref sig .tc := ⟨.hbm, 71, rfl⟩
abbrev main_v42 : Ref sig .tc := ⟨.hbm, 72, rfl⟩
abbrev main_c_10 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_11 : Ref sig .tc := ⟨.hbm, 79, rfl⟩
abbrev main_v48 : Ref sig .tc := ⟨.hbm, 80, rfl⟩
abbrev main_v49 : Ref sig .tc := ⟨.hbm, 81, rfl⟩
abbrev main_c_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg13_0 : Ref sig .tc := ⟨.vmem, 31, rfl⟩
abbrev cc2_stg13_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem13_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x9 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S9x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S32x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S2048x1 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S16384 : S_.BroadcastsInDim S16384 (![] : Fin 0 → Fin S16384.rank)
  bcast_S16384_S16384x1_0 : S16384.BroadcastsInDim S16384x1 (![0] : Fin 1 → Fin S16384x1.rank)
  slices_S96x64_S64x64_0_0 : S96x64.Slices ![0, 0] S64x64
  slices_S96x64_S32x64_64_0 : S96x64.Slices ![64, 0] S32x64
  shapeCasts_S32_S1x32 : S32.ShapeCasts S1x32
  shapeCasts_S1_S1x1 : S1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  broadcasts_S1x64_S2048x64 : S1x64.Broadcasts S2048x64
  inb_S2048x9_S2048x9_0_0 : ∀ a, (![0, 0] : Fin 2 → Nat) a + S2048x9.size a ≤ S2048x9.size a
  h_S2048x9 : 0 < S2048x9.numel
  inb_S9x32_S9x32_0_0 : ∀ a, (![0, 0] : Fin 2 → Nat) a + S9x32.size a ≤ S9x32.size a
  h_S9x32 : 0 < S9x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x32_S32x32_0_0 : ∀ a, (![0, 0] : Fin 2 → Nat) a + S32x32.size a ≤ S32x32.size a
  h_S32x32 : 0 < S32x32.numel
  shapeCasts_S64x64_S64x64 : S64x64.ShapeCasts S64x64
  shapeCasts_S32x64_S32x64 : S32x64.ShapeCasts S32x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S16384x1_S16384 : S16384x1.ShapeCasts S16384
  scatter_S100000_S3300000x1_S3300000_n_0_0_1_wf : ScatterDims.WF S100000 S3300000x1 S3300000 [] [0] [0] 1
  dot_S5000x32_S32x64_S5000x64_1_0_0_1_n_n_wf : DotDims.WF S5000x32 S32x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  gather_S100000x64_S16384x1_S16384x64_1_0_n_n_0_1_164_wf : GatherDims.WF S100000x64 S16384x1 S16384x64 [1] [0] [] [0] [] 1 ![1, 64]
  gather_S100000x1_S16384x1_S16384x1_1_0_n_n_0_1_11_wf : GatherDims.WF S100000x1 S16384x1 S16384x1 [1] [0] [] [0] [] 1 ![1, 1]
  dot_S2048x9_S9x32_S2048x32_1_0_0_1_n_n_wf : DotDims.WF S2048x9 S9x32 S2048x32 [1] [0] [0] [1] [] []
  dot_S2048x32_S32x32_S2048x32_1_0_0_1_n_n_wf : DotDims.WF S2048x32 S32x32 S2048x32 [1] [0] [0] [1] [] []
  dot_S2048x64_S64x64_S2048x64_1_0_0_1_n_n_wf : DotDims.WF S2048x64 S64x64 S2048x64 [1] [0] [0] [1] [] []
  dot_S2048x32_S32x64_S2048x64_1_0_0_1_n_n_wf : DotDims.WF S2048x32 S32x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .f32 = 32 ∨ (Rect.block (s := S16384x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S16384x1.size a
  hwx2_1 : ∀ i : grid2.Coords, EltTy.bits .f32 = 32 ∨ (Rect.block (s := S16384x1) S2048x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x9.size a ≤ S16384x9.size a
  hwx2_3 : ∀ i : grid2.Coords, EltTy.bits .f32 = 32 ∨ (Rect.block (s := S16384x9) S2048x9.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S9x32.size a ≤ S9x32.size a
  hwx2_4 : ∀ i : grid2.Coords, EltTy.bits .f32 = 32 ∨ (Rect.block (s := S9x32) S9x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S32x64.size a ≤ S32x64.size a
  hwx2_9 : ∀ i : grid2.Coords, EltTy.bits .f32 = 32 ∨ (Rect.block (s := S32x64) S32x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x1.size a ≤ S64x1.size a
  hwx2_11 : ∀ i : grid2.Coords, EltTy.bits .f32 = 32 ∨ (Rect.block (s := S64x1) S64x1.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x1.size a ≤ S1x1.size a
  hwx2_12 : ∀ i : grid2.Coords, EltTy.bits .f32 = 32 ∨ (Rect.block (s := S1x1) S1x1.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2048x1.size a ≤ S16384x1.size a
  hwx2_13 : ∀ i : grid2.Coords, EltTy.bits .f32 = 32 ∨ (Rect.block (s := S16384x1) S2048x1.size (cc2_transform_13 i) (hinb2_13 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000x1_S16384x1_S16384x1_1_0_n_n_0_1_11 : GatherDims S100000x1 S16384x1 S16384x1 where
  offsetDims := [1]
  collapsedSliceDims := [0]
  operandBatchingDims := []
  startIndicesBatchingDims := []
  startIndexMap := [0]
  indexVectorDim := 1
  sliceSizes := ![1, 1]
  wf := gather_S100000x1_S16384x1_S16384x1_1_0_n_n_0_1_11_wf
def dot_S2048x9_S9x32_S2048x32_1_0_0_1_n_n : DotDims S2048x9 S9x32 S2048x32 where
  lhsContracting := [1]
  rhsContracting := [0]
  lhsNonContracting := [0]
  rhsNonContracting := [1]
  lhsBatch := []
  rhsBatch := []
  wf := dot_S2048x9_S9x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg3) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S2048x9.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S9x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S32x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v55) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v56) S32x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v60) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg14) S64x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v61) S1x1.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v62) S2048x1.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S2x3200000 : Shape := ⟨2, ![2, 3200000]⟩
abbrev S16384 : Shape := ⟨1, ![16384]⟩
abbrev S16384x9 : Shape := ⟨2, ![16384, 9]⟩
abbrev S100000x32 : Shape := ⟨2, ![100000, 32]⟩
abbrev S32x64 : Shape := ⟨2, ![32, 64]⟩
abbrev S64 : Shape := ⟨1, ![64]⟩
abbrev S64x64 : Shape := ⟨2, ![64, 64]⟩
abbrev S9x32 : Shape := ⟨2, ![9, 32]⟩
abbrev S32 : Shape := ⟨1, ![32]⟩
abbrev S32x32 : Shape := ⟨2, ![32, 32]⟩
abbrev S96x64 : Shape := ⟨2, ![96, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S16384x1 : Shape := ⟨2, ![16384, 1]⟩
abbrev S16384x64 : Shape := ⟨2, ![16384, 64]⟩
abbrev S16384x32 : Shape := ⟨2, ![16384, 32]⟩
abbrev S1x32 : Shape := ⟨2, ![1, 32]⟩
abbrev S16384x96 : Shape := ⟨2, ![16384, 96]⟩
abbrev S1x1 : Shape := ⟨2, ![1, 1]⟩

abbrev nBuf : Space → Nat
  | .hbm => 182
  | .vmem => 0
  | .smem => 0
  | _ => 0

abbrev hbmTy0_0 (i : Nat) : BufTy := match i % 128 with
  | 0 => ⟨S2x3200000, .i32⟩
  | 1 => ⟨S16384, .i32⟩
  | 2 => ⟨S16384x9, .f32⟩
  | 3 => ⟨S100000x32, .f32⟩
  | 4 => ⟨S32x64, .f32⟩
  | 5 => ⟨S64, .f32⟩
  | 6 => ⟨S64x64, .f32⟩
  | 7 => ⟨S64, .f32⟩
  | 8 => ⟨S9x32, .f32⟩
  | 9 => ⟨S32, .f32⟩
  | 10 => ⟨S32x32, .f32⟩
  | 11 => ⟨S32, .f32⟩
  | 12 => ⟨S96x64, .f32⟩
  | 13 => ⟨S64, .f32⟩
  | 14 => ⟨S64x1, .f32⟩
  | 15 => ⟨S1, .f32⟩
  | 16 => ⟨S1x3200000, .i32⟩
  | 17 => ⟨S3200000, .i32⟩
  | 18 => ⟨S1x3200000, .i32⟩
  | 19 => ⟨S3200000, .i32⟩
  | 20 => ⟨S100000, .i32⟩
  | 21 => ⟨S3300000, .i32⟩
  | 22 => ⟨S3300000, .i32⟩
  | 23 => ⟨S_, .f32⟩
  | 24 => ⟨S3300000, .f32⟩
  | 25 => ⟨S_, .f32⟩
  | 26 => ⟨S100000, .f32⟩
  | 27 => ⟨S3300000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S100000x64, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000x64, .f32⟩
  | 69 => ⟨S3300000x1, .f32⟩
  | 70 => ⟨S3300000x64, .f32⟩
  | 71 => ⟨S3300000x64, .f32⟩
  | 72 => ⟨S_, .f32⟩
  | 73 => ⟨S100000x64, .f32⟩
  | 74 => ⟨S3300000x1, .i32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000, .i32⟩
  | 83 => ⟨S3300000, .i32⟩
  | 84 => ⟨S3300000, .i32⟩
  | 85 => ⟨S_, .f32⟩
  | 86 => ⟨S3300000, .f32⟩
  | 87 => ⟨S_, .f32⟩
  | 88 => ⟨S100000, .f32⟩
  | 89 => ⟨S3300000x1, .i32⟩
  | 90 => ⟨S100000, .f32⟩
  | 91 => ⟨S_, .f32⟩
  | 92 => ⟨S100000, .f32⟩
  | 93 => ⟨S100000, .i1⟩
  | 94 => ⟨S_, .f32⟩
  | 95 => ⟨S100000, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000, .f32⟩
  | 120 => ⟨S3300000, .f32⟩
  | 121 => ⟨S100000x64, .f32⟩
  | 122 => ⟨S_, .i32⟩
  | 123 => ⟨S3300000, .i32⟩
  | 124 => ⟨S3300000, .i1⟩
  | 125 => ⟨S_, .i32⟩
  | 126 => ⟨S3300000, .i32⟩
  | 127 => ⟨S3300000, .i32⟩
  | _ => ⟨S2x3200000, .i32⟩

abbrev hbmTy0_1 (i : Nat) : BufTy := match i % 128 with
  | 0 => ⟨S3300000, .i32⟩
  | 1 => ⟨S3300000x1, .i32⟩
  | 2 => ⟨S3300000x64, .f32⟩
  | 3 => ⟨S3300000x1, .f32⟩
  | 4 => ⟨S3300000x64, .f32⟩
  | 5 => ⟨S3300000x64, .f32⟩
  | 6 => ⟨S_, .f32⟩
  | 7 => ⟨S100000x64, .f32⟩
  | 8 => ⟨S3300000x1, .i32⟩
  | 9 => ⟨S100000x64, .f32⟩
  | 10 => ⟨S1x64, .f32⟩
  | 11 => ⟨S100000x64, .f32⟩
  | 12 => ⟨S100000x64, .f32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S16384x64, .f32⟩
  | 22 => ⟨S16384x32, .f32⟩
  | 23 => ⟨S1x32, .f32⟩
  | 24 => ⟨S16384x32, .f32⟩
  | 25 => ⟨S16384x32, .f32⟩
  | 26 => ⟨S_, .f32⟩
  | 27 => ⟨S16384x32, .f32⟩
  | 28 => ⟨S16384x32, .f32⟩
  | 29 => ⟨S16384x32, .f32⟩
  | 30 => ⟨S1x32, .f32⟩
  | 31 => ⟨S16384x32, .f32⟩
  | 32 => ⟨S16384x32, .f32⟩
  | 33 => ⟨S16384x96, .f32⟩
  | 34 => ⟨S16384x64, .f32⟩
  | 35 => ⟨S1x64, .f32⟩
  | 36 => ⟨S16384x64, .f32⟩
  | 37 => ⟨S16384x64, .f32⟩
  | 38 => ⟨S_, .f32⟩
  | 39 => ⟨S16384x64, .f32⟩
  | 40 => ⟨S16384x64, .f32⟩
  | 41 => ⟨S16384x1, .f32⟩
  | 42 => ⟨S1x1, .f32⟩
  | 43 => ⟨S16384x1, .f32⟩
  | 44 => ⟨S16384x1, .f32⟩
  | 45 => ⟨S16384x1, .f32⟩
  | 46 => ⟨S16384x1, .f32⟩
  | 47 => ⟨S_, .f32⟩
  | 48 => ⟨S16384x1, .f32⟩
  | 49 => ⟨S16384x1, .f32⟩
  | 50 => ⟨S_, .f32⟩
  | 51 => ⟨S16384x1, .f32⟩
  | 52 => ⟨S16384x1, .f32⟩
  | 53 => ⟨S16384, .f32⟩
  | _ => ⟨S2x3200000, .i32⟩

abbrev hbmTy (i : Nat) : BufTy := match i / 128 with
  | 0 => hbmTy0_0 i
  | 1 => hbmTy0_1 i
  | _ => ⟨S2x3200000, .i32⟩

abbrev bufTy : (tb : Table) → Fin (tcTables nBuf tb) → BufTy
  | .hbm, ⟨i, _⟩ => hbmTy i
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_12 : Ref sig .tc := ⟨.hbm, 91, rfl⟩
abbrev main_v57 : Ref sig .tc := ⟨.hbm, 92, rfl⟩
abbrev main_v58 : Ref sig .tc := ⟨.hbm, 93, rfl⟩
abbrev main_cst_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_v62 : Ref sig .tc := ⟨.hbm, 101, rfl⟩
abbrev main_c_15 : Ref sig .tc := ⟨.hbm, 102, rfl⟩
abbrev main_v63 : Ref sig .tc := ⟨.hbm, 103, rfl⟩
abbrev main_v64 : Ref sig .tc := ⟨.hbm, 104, rfl⟩
abbrev main_c_16 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_17 : Ref sig .tc := ⟨.hbm, 111, rfl⟩
abbrev main_v70 : Ref sig .tc := ⟨.hbm, 112, rfl⟩
abbrev main_v71 : Ref sig .tc := ⟨.hbm, 113, rfl⟩
abbrev main_c_18 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_19 : Ref sig .tc := ⟨.hbm, 122, rfl⟩
abbrev main_v79 : Ref sig .tc := ⟨.hbm, 123, rfl⟩
abbrev main_v80 : Ref sig .tc := ⟨.hbm, 124, rfl⟩
abbrev main_c_20 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_c_22 : Ref sig .tc := ⟨.hbm, 141, rfl⟩
abbrev main_v95 : Ref sig .tc := ⟨.hbm, 142, rfl⟩
abbrev main_v96 : Ref sig .tc := ⟨.hbm, 143, rfl⟩
abbrev main_c_23 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_call3_cst : Ref sig .tc := ⟨.hbm, 154, rfl⟩
abbrev main_call3_v0 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_call4_cst : Ref sig .tc := ⟨.hbm, 166, rfl⟩
abbrev main_call4_v0 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_24 : Ref sig .tc := ⟨.hbm, 175, rfl⟩
abbrev main_v123 : Ref sig .tc := ⟨.hbm, 176, rfl⟩
abbrev main_v124 : Ref sig .tc := ⟨.hbm, 177, rfl⟩
abbrev main_cst_25 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S16384 : S_.BroadcastsInDim S16384 (![] : Fin 0 → Fin S16384.rank)
  bcast_S16384_S16384x1_0 : S16384.BroadcastsInDim S16384x1 (![0] : Fin 1 → Fin S16384x1.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x64_S16384x32_S16384x96_d1 : Shape.Concatenates [S16384x64, S16384x32] S16384x96 1
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  shapeCasts_S16384x1_S16384 : S16384x1.ShapeCasts S16384
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x32_S32x64_S100000x64_1_0_0_1_n_n_wf : DotDims.WF S100000x32 S32x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  gather_S100000x64_S16384x1_S16384x64_1_0_n_n_0_1_164_wf : GatherDims.WF S100000x64 S16384x1 S16384x64 [1] [0] [] [0] [] 1 ![1, 64]
  dot_S16384x9_S9x32_S16384x32_1_0_0_1_n_n_wf : DotDims.WF S16384x9 S9x32 S16384x32 [1] [0] [0] [1] [] []
  dot_S16384x32_S32x32_S16384x32_1_0_0_1_n_n_wf : DotDims.WF S16384x32 S32x32 S16384x32 [1] [0] [0] [1] [] []
  dot_S16384x96_S96x64_S16384x64_1_0_0_1_n_n_wf : DotDims.WF S16384x96 S96x64 S16384x64 [1] [0] [0] [1] [] []
  dot_S16384x64_S64x1_S16384x1_1_0_0_1_n_n_wf : DotDims.WF S16384x64 S64x1 S16384x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S16384x9_S9x32_S16384x32_1_0_0_1_n_n : DotDims S16384x9 S9x32 S16384x32 where
  lhsContracting := [1]
  rhsContracting := [0]
  lhsNonContracting := [0]
  rhsNonContracting := [1]
  lhsBatch := []
  rhsBatch := []
  wf := dot_S16384x9_S9x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x96_S96x64_S16384x64_1_0_0_1_n_n : DotDims S16384x96 S96x64 S16384x64 where
  lhsContracting := [1]
  rhsContracting := [0]
  lhsNonContracting := [0]
  rhsNonContracting := [1]
  lhsBatch := []
  rhsBatch := []
  wf := dot_S16384x96_S96x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.KernelRun.lean ====
/- The run of the idealized kernel's @main with its result named: from any launch memory with zero counters every
   weakly fair execution on the TensorCores terminates, nothing faulting, and in every final state the result buffer
   holds the last boundary's contents at it (the fold of the host stretches and the three regions from the launch
   memory), while every argument array ends as launched. -/
import proofs.«115143_j65317862637944_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the final memory at the result buffer `main_v63` is the last boundary's contents
    `Gen.W9 m ρ c` there, and each of the sixteen argument arrays is as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨(h c _ (mem_uc main_v63 (by decide))),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.KernelIdeal.KRun

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.LibConcatPair.lean ====
/-
  A concatenation of two arrays is written over a list of (shape, array) pairs, where each array sits as the second
  component of a dependent pair. `pairCat` is the same concatenation with the two arrays as plain arguments, so that a
  rewrite of either array goes through like a rewrite of any operand.
-/
import Idealize.ShloMosaic.PureOps.ShapeOps

noncomputable section

namespace Idealize.ShloMosaic

variable {α : Type}

/-- The concatenation of two arrays along axis `a`. -/
def pairCat (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- A concatenation of a two-element list is `pairCat` of its two arrays. -/
theorem concatenate_pair_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = pairCat t a s₁ s₂ x₁ x₂ h := rfl

end Idealize.ShloMosaic

end
-- ==== Proof.RefStages.lean ====
/-
  The reference program's stages, each the composition of the program's own host operations, at the extended reals.

  The reference computes: the message lists row / col (the two rows of edge_index, each followed by 0 … 99999 for the
  self loops); the degree of every node as a scatter-add of ones at col; dis = where (deg > 0) (rsqrt (max deg 1)) 0;
  per message the weight norm = dis[row] · dis[col]; a graph convolution conv h b = scatter-add at col of
  (h[row] · norm) + b; x1 = max (conv (emb · W1) b1) 0; x2 = conv (x1 · W2) b2; the rows of x2 at drug_ids; beside them
  the laboratory network; the two concatenated along the feature axis and sent through the fusion layer; and
  1 / (1 + exp (−logits)).
-/
import proofs.«115143_j65317862637944_2_alg».proof.Proof.Gen.ReferenceIdeal
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem

/-! ## The stages, at the extended reals -/

/-- A launch memory of the reference program at the extended reals. -/
abbrev Mem : Type := (ℓ : Loc nD τ sig) → Buf (Elt Ideal) ℓ

/-- The message targets: edge_index's second row, then every node once (the self loops). -/
def colW (m : Mem) (c : Dev nD) : IVec S3300000 32 :=
  (concatenate S3300000 0 [⟨S3200000, (shapeCast _ (extractStridedSlice S1x3200000 ![1, 0] (m ((c.tc : Thread nD τ).loc main_arg0)) slices_S2x3200000_S1x3200000_1_0) shapeCasts_S1x3200000_S3200000)⟩, ⟨S100000, (iotaInDim S100000 32 0)⟩] concatenates_S3200000_S100000_S3300000_d0)

/-- The message sources: edge_index's first row, then every node once. -/
def rowW (m : Mem) (c : Dev nD) : IVec S3300000 32 :=
  (concatenate S3300000 0 [⟨S3200000, (shapeCast _ (extractStridedSlice S1x3200000 ![0, 0] (m ((c.tc : Thread nD τ).loc main_arg0)) slices_S2x3200000_S1x3200000_0_0) shapeCasts_S1x3200000_S3200000)⟩, ⟨S100000, (iotaInDim S100000 32 0)⟩] concatenates_S3200000_S100000_S3300000_d0)

/-- An index word made ready for a gather: a negative word is moved up by the table's height. -/
def nrm (w : IVec S3300000 32) : IVec S3300000 32 :=
  (select (cmpi .slt w (broadcastInDim S3300000 ![] bcast_S_S3300000 (constantI S_ 32 0#32))) (addi w (broadcastInDim S3300000 ![] bcast_S_S3300000 (constantI S_ 32 100000#32))) w)

/-- The same for the batch's node ids. -/
def nrmB (w : IVec S16384 32) : IVec S16384 32 :=
  (select (cmpi .slt w (broadcastInDim S16384 ![] bcast_S_S16384 (constantI S_ 32 0#32))) (addi w (broadcastInDim S16384 ![] bcast_S_S16384 (constantI S_ 32 100000#32))) w)

/-- The degree of every node: ones added at the message targets. -/
def deg (m : Mem) (c : Dev nD) : FVec Ideal S100000 .f32 :=
  (Host.scatterAdd scatter_S100000_S3300000x1_S3300000_n_0_0_1 (broadcastInDim S100000 ![] bcast_S_S100000 (constant S_ .f32 0x00000000#32)) (broadcastInDim S3300000x1 ![0] bcast_S3300000_S3300000x1_0 (colW m c)) (broadcastInDim S3300000 ![] bcast_S_S3300000 (constant S_ .f32 0x3F800000#32)))

/-- The node weights: the inverse square root of the degree (of at least one), zero where the degree is not positive. -/
def dis (m : Mem) (c : Dev nD) : FVec Ideal S100000 .f32 :=
  (select (cmpf (F := Ideal) .ogt (deg m c) (broadcastInDim S100000 ![] bcast_S_S100000 (constant S_ .f32 0x00000000#32))) (Host.rsqrt (maximumf (deg m c) (broadcastInDim S100000 ![] bcast_S_S100000 (constant S_ .f32 0x3F800000#32)))) (broadcastInDim S100000 ![] bcast_S_S100000 (id (constant S_ .f32 0x00000000#32))))

/-- The message weights: the source's node weight times the target's. -/
def norm (m : Mem) (c : Dev nD) : FVec Ideal S3300000 .f32 :=
  (mulf (Host.gather gather_S100000_S3300000x1_S3300000_n_0_n_n_0_1_1 (dis m c) (broadcastInDim S3300000x1 ![0] bcast_S3300000_S3300000x1_0 (nrm (rowW m c)))) (Host.gather gather_S100000_S3300000x1_S3300000_n_0_n_n_0_1_1 (dis m c) (broadcastInDim S3300000x1 ![0] bcast_S3300000_S3300000x1_0 (nrm (colW m c)))))

/-- The weighted aggregation of a node table: each message carries its source's row times its weight to its target. -/
def agg (m : Mem) (c : Dev nD) (h : FVec Ideal S100000x64 .f32) : FVec Ideal S100000x64 .f32 :=
  (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 (colW m c)) (mulf (Host.gather gather_S100000x64_S3300000x1_S3300000x64_1_0_n_n_0_1_164 h (broadcastInDim S3300000x1 ![0] bcast_S3300000_S3300000x1_0 (nrm (rowW m c)))) (broadcastInDim S3300000x64 ![0, 1] bcast_S3300000x1_S3300000x64_0_1 (broadcastInDim S3300000x1 ![0] bcast_S3300000_S3300000x1_0 (norm m c)))))

/-- Layer 1's node features before aggregation. -/
def h1 (m : Mem) (c : Dev nD) : FVec Ideal S100000x64 .f32 :=
  (Host.dotGeneral (φ₁ := .f32) (φ₂ := .f32) dot_S100000x32_S32x64_S100000x64_1_0_0_1_n_n none (m ((c.tc : Thread nD τ).loc main_arg3)) (m ((c.tc : Thread nD τ).loc main_arg4)))

/-- Layer 1's output. -/
def x1 (m : Mem) (c : Dev nD) : FVec Ideal S100000x64 .f32 :=
  (maximumf (addf (agg m c (h1 m c)) (broadcastInDim S100000x64 ![0, 1] bcast_S1x64_S100000x64_0_1 (broadcastInDim S1x64 ![1] bcast_S64_S1x64_1 (m ((c.tc : Thread nD τ).loc main_arg5))))) (broadcastInDim S100000x64 ![] bcast_S_S100000x64 (constant S_ .f32 0x00000000#32)))

/-- Layer 2's node features before aggregation. -/
def h2 (m : Mem) (c : Dev nD) : FVec Ideal S100000x64 .f32 :=
  (Host.dotGeneral (φ₁ := .f32) (φ₂ := .f32) dot_S100000x64_S64x64_S100000x64_1_0_0_1_n_n none (x1 m c) (m ((c.tc : Thread nD τ).loc main_arg6)))

/-- Layer 2's output. -/
def x2 (m : Mem) (c : Dev nD) : FVec Ideal S100000x64 .f32 :=
  (addf (agg m c (h2 m c)) (broadcastInDim S100000x64 ![0, 1] bcast_S1x64_S100000x64_0_1 (broadcastInDim S1x64 ![1] bcast_S64_S1x64_1 (m ((c.tc : Thread nD τ).loc main_arg7)))))

/-- The batch's node embeddings. -/
def drug (m : Mem) (c : Dev nD) : FVec Ideal S16384x64 .f32 :=
  (Host.gather gather_S100000x64_S16384x1_S16384x64_1_0_n_n_0_1_164 (x2 m c) (broadcastInDim S16384x1 ![0] bcast_S16384_S16384x1_0 (nrmB (m ((c.tc : Thread nD τ).loc main_arg1)))))

/-- The laboratory network's hidden layer. -/
def labh (m : Mem) (c : Dev nD) : FVec Ideal S16384x32 .f32 :=
  (maximumf (addf (Host.dotGeneral (φ₁ := .f32) (φ₂ := .f32) dot_S16384x9_S9x32_S16384x32_1_0_0_1_n_n none (m ((c.tc : Thread nD τ).loc main_arg2)) (m ((c.tc : Thread nD τ).loc main_arg8))) (broadcastInDim S16384x32 ![0, 1] bcast_S1x32_S16384x32_0_1 (broadcastInDim S1x32 ![1] bcast_S32_S1x32_1 (m ((c.tc : Thread nD τ).loc main_arg9))))) (broadcastInDim S16384x32 ![] bcast_S_S16384x32 (constant S_ .f32 0x00000000#32)))

/-- The laboratory network's output. -/
def labe (m : Mem) (c : Dev nD) : FVec Ideal S16384x32 .f32 :=
  (addf (Host.dotGeneral (φ₁ := .f32) (φ₂ := .f32) dot_S16384x32_S32x32_S16384x32_1_0_0_1_n_n none (labh m c) (m ((c.tc : Thread nD τ).loc main_arg10))) (broadcastInDim S16384x32 ![0, 1] bcast_S1x32_S16384x32_0_1 (broadcastInDim S1x32 ![1] bcast_S32_S1x32_1 (m ((c.tc : Thread nD τ).loc main_arg11)))))

/-- Node embedding and laboratory embedding side by side. -/
def cat (m : Mem) (c : Dev nD) : FVec Ideal S16384x96 .f32 :=
  (concatenate S16384x96 1 [⟨S16384x64, (drug m c)⟩, ⟨S16384x32, (labe m c)⟩] concatenates_S16384x64_S16384x32_S16384x96_d1)

/-- The fusion layer's hidden units. -/
def fh (m : Mem) (c : Dev nD) : FVec Ideal S16384x64 .f32 :=
  (maximumf (addf (Host.dotGeneral (φ₁ := .f32) (φ₂ := .f32) dot_S16384x96_S96x64_S16384x64_1_0_0_1_n_n none (cat m c) (m ((c.tc : Thread nD τ).loc main_arg12))) (broadcastInDim S16384x64 ![0, 1] bcast_S1x64_S16384x64_0_1 (broadcastInDim S1x64 ![1] bcast_S64_S1x64_1 (m ((c.tc : Thread nD τ).loc main_arg13))))) (broadcastInDim S16384x64 ![] bcast_S_S16384x64 (constant S_ .f32 0x00000000#32)))

/-- The logits. -/
def logits (m : Mem) (c : Dev nD) : FVec Ideal S16384x1 .f32 :=
  (addf (Host.dotGeneral (φ₁ := .f32) (φ₂ := .f32) dot_S16384x64_S64x1_S16384x1_1_0_0_1_n_n none (fh m c) (m ((c.tc : Thread nD τ).loc main_arg14))) (broadcastInDim S16384x1 ![0, 1] bcast_S1x1_S16384x1_0_1 (broadcastInDim S1x1 ![1] bcast_S1_S1x1_1 (m ((c.tc : Thread nD τ).loc main_arg15)))))

/-- The result: the logistic function of the logits, spelt 1 / (1 + exp (−x)), as a vector. -/
def res (m : Mem) (c : Dev nD) : Buf (Elt Ideal) ((c.tc : Thread nD τ).loc main_v127) :=
  shapeCast _ (Host.divf (broadcastInDim S16384x1 ![] bcast_S_S16384x1 (constant S_ .f32 0x3F800000#32)) (addf (broadcastInDim S16384x1 ![] bcast_S_S16384x1 (constant S_ .f32 0x3F800000#32)) (Host.exp (Host.negf (logits m c))))) shapeCasts_S16384x1_S16384

end Cert.ReferenceIdeal.RefRun

end
-- ==== Proof.RefRun.lean ====
/-
  The reference program's run, read back: its @main is a sequence of host operations, and every weakly fair execution
  of it terminates with the result buffer at the stages' last term and the
  arguments unchanged.
-/
import proofs.«115143_j65317862637944_2_alg».proof.Proof.Gen.ReferenceIdeal
import proofs.«115143_j65317862637944_2_alg».proof.Proof.LibTypedRefs
import proofs.«115143_j65317862637944_2_alg».proof.Proof.LibConcatPair
import proofs.«115143_j65317862637944_2_alg».proof.Proof.RefStages
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

section Ops
variable {F : FTy → Type} [FloatOps F]

/-- @main's 166 operations, in order (a called function's operations stand in its call's place). -/
abbrev ops : List (HloOp τ sig (Elt F)) :=
  [ unary main_arg0 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg0 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0),
    binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v5 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v5 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v5 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)),
    binary main_arg3 main_arg4 main_v32 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v5 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v5 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v5 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x64 ![0, 1] bcast_S3300000x1_S3300000x64_0_1 : (⟨S3300000x1, .f32⟩ : BufTy).Contents (Elt F) → (⟨S3300000x64, .f32⟩ : BufTy).Contents (Elt F)),
    binary main_v39 main_v41 main_v42 (mulf : (⟨S3300000x64, .f32⟩ : BufTy).Contents (Elt F) → (⟨S3300000x64, .f32⟩ : BufTy).Contents (Elt F) → (⟨S3300000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    nullary main_v50 (iotaInDim S100000 32 0),
    binary main_v1 main_v50 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v50 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_10 (constant S_ .f32 0x3F800000#32),
    unary main_cst_10 main_v53 (broadcastInDim S3300000 ![] bcast_S_S3300000 : (⟨S_, .f32⟩ : BufTy).Contents (Elt F) → (⟨S3300000, .f32⟩ : BufTy).Contents (Elt F)),
    nullary main_cst_11 (constant S_ .f32 0x00000000#32),
    unary main_cst_11 main_v54 (broadcastInDim S100000 ![] bcast_S_S100000 : (⟨S_, .f32⟩ : BufTy).Contents (Elt F) → (⟨S100000, .f32⟩ : BufTy).Contents (Elt F)),
    unary main_v52 main_v55 (broadcastInDim S3300000x1 ![0] bcast_S3300000_S3300000x1_0 : (⟨S3300000, .i32⟩ : BufTy).Contents (Elt F) → (⟨S3300000x1, .i32⟩ : BufTy).Contents (Elt F)),
    ternary main_v54 main_v55 main_v53 main_v56 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_12 (constant S_ .f32 0x00000000#32),
    unary main_cst_12 main_v57 (broadcastInDim S100000 ![] bcast_S_S100000 : (⟨S_, .f32⟩ : BufTy).Contents (Elt F) → (⟨S100000, .f32⟩ : BufTy).Contents (Elt F)),
    binary main_v56 main_v57 main_v58 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x3F800000#32),
    unary main_cst_13 main_v59 (broadcastInDim S100000 ![] bcast_S_S100000 : (⟨S_, .f32⟩ : BufTy).Contents (Elt F) → (⟨S100000, .f32⟩ : BufTy).Contents (Elt F)),
    binary main_v56 main_v59 main_v60 (maximumf : (⟨S100000, .f32⟩ : BufTy).Contents (Elt F) → (⟨S100000, .f32⟩ : BufTy).Contents (Elt F) → (⟨S100000, .f32⟩ : BufTy).Contents (Elt F)),
    unary main_v60 main_v61 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v58) (TRef.of (T := ⟨S100000, .f32⟩) main_v61) (TRef.of (T := ⟨S100000, .f32⟩) main_call2_v1) (TRef.of (T := ⟨S100000, .f32⟩) main_v62) select,
    nullary main_c_15 (constantI S_ 32 0#32),
    unary main_c_15 main_v63 (broadcastInDim S3300000 ![] bcast_S_S3300000 : (⟨S_, .i32⟩ : BufTy).Contents (Elt F) → (⟨S3300000, .i32⟩ : BufTy).Contents (Elt F)),
    binary main_v51 main_v63 main_v64 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v65 (broadcastInDim S3300000 ![] bcast_S_S3300000 : (⟨S_, .i32⟩ : BufTy).Contents (Elt F) → (⟨S3300000, .i32⟩ : BufTy).Contents (Elt F)),
    binary main_v51 main_v65 main_v66 (addi : (⟨S3300000, .i32⟩ : BufTy).Contents (Elt F) → (⟨S3300000, .i32⟩ : BufTy).Contents (Elt F) → (⟨S3300000, .i32⟩ : BufTy).Contents (Elt F)),
    ternary main_v64 main_v66 main_v51 main_v67 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v67 main_v68 (broadcastInDim S3300000x1 ![0] bcast_S3300000_S3300000x1_0 : (⟨S3300000, .i32⟩ : BufTy).Contents (Elt F) → (⟨S3300000x1, .i32⟩ : BufTy).Contents (Elt F)),
    binary main_v62 main_v68 main_v69 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_17 (constantI S_ 32 0#32),
    unary main_c_17 main_v70 (broadcastInDim S3300000 ![] bcast_S_S3300000 : (⟨S_, .i32⟩ : BufTy).Contents (Elt F) → (⟨S3300000, .i32⟩ : BufTy).Contents (Elt F)),
    binary main_v52 main_v70 main_v71 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v72 (broadcastInDim S3300000 ![] bcast_S_S3300000 : (⟨S_, .i32⟩ : BufTy).Contents (Elt F) → (⟨S3300000, .i32⟩ : BufTy).Contents (Elt F)),
    binary main_v52 main_v72 main_v73 (addi : (⟨S3300000, .i32⟩ : BufTy).Contents (Elt F) → (⟨S3300000, .i32⟩ : BufTy).Contents (Elt F) → (⟨S3300000, .i32⟩ : BufTy).Contents (Elt F)),
    ternary main_v71 main_v73 main_v52 main_v74 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v74 main_v75 (broadcastInDim S3300000x1 ![0] bcast_S3300000_S3300000x1_0 : (⟨S3300000, .i32⟩ : BufTy).Contents (Elt F) → (⟨S3300000x1, .i32⟩ : BufTy).Contents (Elt F)),
    binary main_v62 main_v75 main_v76 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v69 main_v76 main_v77 (mulf : (⟨S3300000, .f32⟩ : BufTy).Contents (Elt F) → (⟨S3300000, .f32⟩ : BufTy).Contents (Elt F) → (⟨S3300000, .f32⟩ : BufTy).Contents (Elt F)),
    binary main_v49 main_arg6 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_19 (constantI S_ 32 0#32),
    unary main_c_19 main_v79 (broadcastInDim S3300000 ![] bcast_S_S3300000 : (⟨S_, .i32⟩ : BufTy).Contents (Elt F) → (⟨S3300000, .i32⟩ : BufTy).Contents (Elt F)),
    binary main_v51 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v81 (broadcastInDim S3300000 ![] bcast_S_S3300000 : (⟨S_, .i32⟩ : BufTy).Contents (Elt F) → (⟨S3300000, .i32⟩ : BufTy).Contents (Elt F)),
    binary main_v51 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v51 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v78 main_v84 main_v85 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v77 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x64 ![0, 1] bcast_S3300000x1_S3300000x64_0_1 : (⟨S3300000x1, .f32⟩ : BufTy).Contents (Elt F) → (⟨S3300000x64, .f32⟩ : BufTy).Contents (Elt F)),
    binary main_v85 main_v87 main_v88 (mulf : (⟨S3300000x64, .f32⟩ : BufTy).Contents (Elt F) → (⟨S3300000x64, .f32⟩ : BufTy).Contents (Elt F) → (⟨S3300000x64, .f32⟩ : BufTy).Contents (Elt F)),
    nullary main_cst_21 (constant S_ .f32 0x00000000#32),
    unary main_cst_21 main_v89 (broadcastInDim S100000x64 ![] bcast_S_S100000x64 : (⟨S_, .f32⟩ : BufTy).Contents (Elt F) → (⟨S100000x64, .f32⟩ : BufTy).Contents (Elt F)),
    unary main_v52 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg7 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)),
    nullary main_c_22 (constantI S_ 32 0#32),
    unary main_c_22 main_v95 (broadcastInDim S16384 ![] bcast_S_S16384 : (⟨S_, .i32⟩ : BufTy).Contents (Elt F) → (⟨S16384, .i32⟩ : BufTy).Contents (Elt F)),
    binary main_arg1 main_v95 main_v96 (cmpi .slt : (⟨S16384, .i32⟩ : BufTy).Contents (Elt F) → (⟨S16384, .i32⟩ : BufTy).Contents (Elt F) → (⟨S16384, .i1⟩ : BufTy).Contents (Elt F)),
    nullary main_c_23 (constantI S_ 32 100000#32),
    unary main_c_23 main_v97 (broadcastInDim S16384 ![] bcast_S_S16384 : (⟨S_, .i32⟩ : BufTy).Contents (Elt F) → (⟨S16384, .i32⟩ : BufTy).Contents (Elt F)),
    binary main_arg1 main_v97 main_v98 (addi : (⟨S16384, .i32⟩ : BufTy).Contents (Elt F) → (⟨S16384, .i32⟩ : BufTy).Contents (Elt F) → (⟨S16384, .i32⟩ : BufTy).Contents (Elt F)),
    ternary main_v96 main_v98 main_arg1 main_v99 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v99 main_v100 (broadcastInDim S16384x1 ![0] bcast_S16384_S16384x1_0 : (⟨S16384, .i32⟩ : BufTy).Contents (Elt F) → (⟨S16384x1, .i32⟩ : BufTy).Contents (Elt F)),
    binary main_v94 main_v100 main_v101 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    binary main_arg2 main_arg8 main_v102 ((fun l r => Host.dotGeneral dot_S16384x9_S9x32_S16384x32_1_0_0_1_n_n none l r) : (⟨S16384x9, .f32⟩ : BufTy).Contents (Elt F) → (⟨S9x32, .f32⟩ : BufTy).Contents (Elt F) → (⟨S16384x32, .f32⟩ : BufTy).Contents (Elt F)),
    unary main_arg9 main_v103 (broadcastInDim S1x32 ![1] bcast_S32_S1x32_1 : (⟨S32, .f32⟩ : BufTy).Contents (Elt F) → (⟨S1x32, .f32⟩ : BufTy).Contents (Elt F)),
    unary main_v103 main_v104 (broadcastInDim S16384x32 ![0, 1] bcast_S1x32_S16384x32_0_1 : (⟨S1x32, .f32⟩ : BufTy).Contents (Elt F) → (⟨S16384x32, .f32⟩ : BufTy).Contents (Elt F)),
    binary main_v102 main_v104 main_v105 (addf : (⟨S16384x32, .f32⟩ : BufTy).Contents (Elt F) → (⟨S16384x32, .f32⟩ : BufTy).Contents (Elt F) → (⟨S16384x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16384x32, .f32⟩) main_call3_v0) (broadcastInDim S16384x32 ![] bcast_S_S16384x32),
    TRef.binary (TRef.of (T := ⟨S16384x32, .f32⟩) main_v105) (TRef.of (T := ⟨S16384x32, .f32⟩) main_call3_v0) (TRef.of (T := ⟨S16384x32, .f32⟩) main_v106) maximumf,
    binary main_v106 main_arg10 main_v107 ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)),
    unary main_arg11 main_v108 (broadcastInDim S1x32 ![1] bcast_S32_S1x32_1 : (⟨S32, .f32⟩ : BufTy).Contents (Elt F) → (⟨S1x32, .f32⟩ : BufTy).Contents (Elt F)),
    unary main_v108 main_v109 (broadcastInDim S16384x32 ![0, 1] bcast_S1x32_S16384x32_0_1 : (⟨S1x32, .f32⟩ : BufTy).Contents (Elt F) → (⟨S16384x32, .f32⟩ : BufTy).Contents (Elt F)),
    binary main_v107 main_v109 main_v110 (addf : (⟨S16384x32, .f32⟩ : BufTy).Contents (Elt F) → (⟨S16384x32, .f32⟩ : BufTy).Contents (Elt F) → (⟨S16384x32, .f32⟩ : BufTy).Contents (Elt F)),
    binary main_v101 main_v110 main_v111 ((fun a b => concatenate S16384x96 1 [⟨S16384x64, a⟩, ⟨S16384x32, b⟩] concatenates_S16384x64_S16384x32_S16384x96_d1) : (⟨S16384x64, .f32⟩ : BufTy).Contents (Elt F) → (⟨S16384x32, .f32⟩ : BufTy).Contents (Elt F) → (⟨S16384x96, .f32⟩ : BufTy).Contents (Elt F)),
    binary main_v111 main_arg12 main_v112 ((fun l r => Host.dotGeneral dot_S16384x96_S96x64_S16384x64_1_0_0_1_n_n none l r) : (⟨S16384x96, .f32⟩ : BufTy).Contents (Elt F) → (⟨S96x64, .f32⟩ : BufTy).Contents (Elt F) → (⟨S16384x64, .f32⟩ : BufTy).Contents (Elt F)),
    unary main_arg13 main_v113 (broadcastInDim S1x64 ![1] bcast_S64_S1x64_1 : (⟨S64, .f32⟩ : BufTy).Contents (Elt F) → (⟨S1x64, .f32⟩ : BufTy).Contents (Elt F)),
    unary main_v113 main_v114 (broadcastInDim S16384x64 ![0, 1] bcast_S1x64_S16384x64_0_1 : (⟨S1x64, .f32⟩ : BufTy).Contents (Elt F) → (⟨S16384x64, .f32⟩ : BufTy).Contents (Elt F)),
    binary main_v112 main_v114 main_v115 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16384x64, .f32⟩) main_call4_v0) (broadcastInDim S16384x64 ![] bcast_S_S16384x64),
    TRef.binary (TRef.of (T := ⟨S16384x64, .f32⟩) main_v115) (TRef.of (T := ⟨S16384x64, .f32⟩) main_call4_v0) (TRef.of (T := ⟨S16384x64, .f32⟩) main_v116) maximumf,
    binary main_v116 main_arg14 main_v117 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg15 main_v118 (broadcastInDim S1x1 ![1] bcast_S1_S1x1_1 : (⟨S1, .f32⟩ : BufTy).Contents (Elt F) → (⟨S1x1, .f32⟩ : BufTy).Contents (Elt F)),
    unary main_v118 main_v119 (broadcastInDim S16384x1 ![0, 1] bcast_S1x1_S16384x1_0_1 : (⟨S1x1, .f32⟩ : BufTy).Contents (Elt F) → (⟨S16384x1, .f32⟩ : BufTy).Contents (Elt F)),
    binary main_v117 main_v119 main_v120 (addf : (⟨S16384x1, .f32⟩ : BufTy).Contents (Elt F) → (⟨S16384x1, .f32⟩ : BufTy).Contents (Elt F) → (⟨S16384x1, .f32⟩ : BufTy).Contents (Elt F)),
    unary main_v120 main_v121 (Host.negf : (⟨S16384x1, .f32⟩ : BufTy).Contents (Elt F) → (⟨S16384x1, .f32⟩ : BufTy).Contents (Elt F)),
    unary main_v121 main_v122 (Host.exp : (⟨S16384x1, .f32⟩ : BufTy).Contents (Elt F) → (⟨S16384x1, .f32⟩ : BufTy).Contents (Elt F)),
    nullary main_cst_24 (constant S_ .f32 0x3F800000#32),
    unary main_cst_24 main_v123 (broadcastInDim S16384x1 ![] bcast_S_S16384x1 : (⟨S_, .f32⟩ : BufTy).Contents (Elt F) → (⟨S16384x1, .f32⟩ : BufTy).Contents (Elt F)),
    binary main_v123 main_v122 main_v124 (addf : (⟨S16384x1, .f32⟩ : BufTy).Contents (Elt F) → (⟨S16384x1, .f32⟩ : BufTy).Contents (Elt F) → (⟨S16384x1, .f32⟩ : BufTy).Contents (Elt F)),
    nullary main_cst_25 (constant S_ .f32 0x3F800000#32),
    unary main_cst_25 main_v125 (broadcastInDim S16384x1 ![] bcast_S_S16384x1 : (⟨S_, .f32⟩ : BufTy).Contents (Elt F) → (⟨S16384x1, .f32⟩ : BufTy).Contents (Elt F)),
    binary main_v125 main_v124 main_v126 (Host.divf : (⟨S16384x1, .f32⟩ : BufTy).Contents (Elt F) → (⟨S16384x1, .f32⟩ : BufTy).Contents (Elt F) → (⟨S16384x1, .f32⟩ : BufTy).Contents (Elt F)),
    reshape main_v126 main_v127 rfl shapeCasts_S16384x1_S16384 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

end Ops

/-! ## Typed references to this program's buffers

A called function reads and writes its values through references that carry the tensor type; each of the buffers below
has exactly that type, so writing through the reference, or reading through it, changes nothing. -/

theorem toBuf_main_cst_3 (h1 : main_cst_3.ty = (⟨S_, .f32⟩ : BufTy)) (h2 : main_cst_3.space ≠ .host) (h3 : main_cst_3.isScoped = false) (v : (⟨S_, .f32⟩ : BufTy).Contents (Elt Ideal)) :
    (TRef.of (sig := sig) (T := (⟨S_, .f32⟩ : BufTy)) main_cst_3 h1 h2 h3).toBuf v = v := cast_eq _ v
theorem ofBuf_main_cst_3 (h1 : main_cst_3.ty = (⟨S_, .f32⟩ : BufTy)) (h2 : main_cst_3.space ≠ .host) (h3 : main_cst_3.isScoped = false) (v : (⟨S_, .f32⟩ : BufTy).Contents (Elt Ideal)) :
    (TRef.of (sig := sig) (T := (⟨S_, .f32⟩ : BufTy)) main_cst_3 h1 h2 h3).ofBuf v = v := cast_eq _ v
theorem toBuf_main_call0_v0 (h1 : main_call0_v0.ty = (⟨S_, .f32⟩ : BufTy)) (h2 : main_call0_v0.space ≠ .host) (h3 : main_call0_v0.isScoped = false) (v : (⟨S_, .f32⟩ : BufTy).Contents (Elt Ideal)) :
    (TRef.of (sig := sig) (T := (⟨S_, .f32⟩ : BufTy)) main_call0_v0 h1 h2 h3).toBuf v = v := cast_eq _ v
theorem ofBuf_main_call0_v0 (h1 : main_call0_v0.ty = (⟨S_, .f32⟩ : BufTy)) (h2 : main_call0_v0.space ≠ .host) (h3 : main_call0_v0.isScoped = false) (v : (⟨S_, .f32⟩ : BufTy).Contents (Elt Ideal)) :
    (TRef.of (sig := sig) (T := (⟨S_, .f32⟩ : BufTy)) main_call0_v0 h1 h2 h3).ofBuf v = v := cast_eq _ v
theorem toBuf_main_call0_v1 (h1 : main_call0_v1.ty = (⟨S100000, .f32⟩ : BufTy)) (h2 : main_call0_v1.space ≠ .host) (h3 : main_call0_v1.isScoped = false) (v : (⟨S100000, .f32⟩ : BufTy).Contents (Elt Ideal)) :
    (TRef.of (sig := sig) (T := (⟨S100000, .f32⟩ : BufTy)) main_call0_v1 h1 h2 h3).toBuf v = v := cast_eq _ v
theorem ofBuf_main_call0_v1 (h1 : main_call0_v1.ty = (⟨S100000, .f32⟩ : BufTy)) (h2 : main_call0_v1.space ≠ .host) (h3 : main_call0_v1.isScoped = false) (v : (⟨S100000, .f32⟩ : BufTy).Contents (Elt Ideal)) :
    (TRef.of (sig := sig) (T := (⟨S100000, .f32⟩ : BufTy)) main_call0_v1 h1 h2 h3).ofBuf v = v := cast_eq _ v
theorem toBuf_main_v12 (h1 : main_v12.ty = (⟨S100000, .i1⟩ : BufTy)) (h2 : main_v12.space ≠ .host) (h3 : main_v12.isScoped = false) (v : (⟨S100000, .i1⟩ : BufTy).Contents (Elt Ideal)) :
    (TRef.of (sig := sig) (T := (⟨S100000, .i1⟩ : BufTy)) main_v12 h1 h2 h3).toBuf v = v := cast_eq _ v
theorem ofBuf_main_v12 (h1 : main_v12.ty = (⟨S100000, .i1⟩ : BufTy)) (h2 : main_v12.space ≠ .host) (h3 : main_v12.isScoped = false) (v : (⟨S100000, .i1⟩ : BufTy).Contents (Elt Ideal)) :
    (TRef.of (sig := sig) (T := (⟨S100000, .i1⟩ : BufTy)) main_v12 h1 h2 h3).ofBuf v = v := cast_eq _ v
theorem toBuf_main_v15 (h1 : main_v15.ty = (⟨S100000, .f32⟩ : BufTy)) (h2 : main_v15.space ≠ .host) (h3 : main_v15.isScoped = false) (v : (⟨S100000, .f32⟩ : BufTy).Contents (Elt Ideal)) :
    (TRef.of (sig := sig) (T := (⟨S100000, .f32⟩ : BufTy)) main_v15 h1 h2 h3).toBuf v = v := cast_eq _ v
theorem ofBuf_main_v15 (h1 : main_v15.ty = (⟨S100000, .f32⟩ : BufTy)) (h2 : main_v15.space ≠ .host) (h3 : main_v15.isScoped = false) (v : (⟨S100000, .f32⟩ : BufTy).Contents (Elt Ideal)) :
    (TRef.of (sig := sig) (T := (⟨S100000, .f32⟩ : BufTy)) main_v15 h1 h2 h3).ofBuf v = v := cast_eq _ v
theorem toBuf_main_v16 (h1 : main_v16.ty = (⟨S100000, .f32⟩ : BufTy)) (h2 : main_v16.space ≠ .host) (h3 : main_v16.isScoped = false) (v : (⟨S100000, .f32⟩ : BufTy).Contents (Elt Ideal)) :
    (TRef.of (sig := sig) (T := (⟨S100000, .f32⟩ : BufTy)) main_v16 h1 h2 h3).toBuf v = v := cast_eq _ v
theorem ofBuf_main_v16 (h1 : main_v16.ty = (⟨S100000, .f32⟩ : BufTy)) (h2 : main_v16.space ≠ .host) (h3 : main_v16.isScoped = false) (v : (⟨S100000, .f32⟩ : BufTy).Contents (Elt Ideal)) :
    (TRef.of (sig := sig) (T := (⟨S100000, .f32⟩ : BufTy)) main_v16 h1 h2 h3).ofBuf v = v := cast_eq _ v
theorem toBuf_main_call1_cst (h1 : main_call1_cst.ty = (⟨S_, .f32⟩ : BufTy)) (h2 : main_call1_cst.space ≠ .host) (h3 : main_call1_cst.isScoped = false) (v : (⟨S_, .f32⟩ : BufTy).Contents (Elt Ideal)) :
    (TRef.of (sig := sig) (T := (⟨S_, .f32⟩ : BufTy)) main_call1_cst h1 h2 h3).toBuf v = v := cast_eq _ v
theorem ofBuf_main_call1_cst (h1 : main_call1_cst.ty = (⟨S_, .f32⟩ : BufTy)) (h2 : main_call1_cst.space ≠ .host) (h3 : main_call1_cst.isScoped = false) (v : (⟨S_, .f32⟩ : BufTy).Contents (Elt Ideal)) :
    (TRef.of (sig := sig) (T := (⟨S_, .f32⟩ : BufTy)) main_call1_cst h1 h2 h3).ofBuf v = v := cast_eq _ v
theorem toBuf_main_call1_v0 (h1 : main_call1_v0.ty = (⟨S100000x64, .f32⟩ : BufTy)) (h2 : main_call1_v0.space ≠ .host) (h3 : main_call1_v0.isScoped = false) (v : (⟨S100000x64, .f32⟩ : BufTy).Contents (Elt Ideal)) :
    (TRef.of (sig := sig) (T := (⟨S100000x64, .f32⟩ : BufTy)) main_call1_v0 h1 h2 h3).toBuf v = v := cast_eq _ v
theorem ofBuf_main_call1_v0 (h1 : main_call1_v0.ty = (⟨S100000x64, .f32⟩ : BufTy)) (h2 : main_call1_v0.space ≠ .host) (h3 : main_call1_v0.isScoped = false) (v : (⟨S100000x64, .f32⟩ : BufTy).Contents (Elt Ideal)) :
    (TRef.of (sig := sig) (T := (⟨S100000x64, .f32⟩ : BufTy)) main_call1_v0 h1 h2 h3).ofBuf v = v := cast_eq _ v
theorem toBuf_main_v48 (h1 : main_v48.ty = (⟨S100000x64, .f32⟩ : BufTy)) (h2 : main_v48.space ≠ .host) (h3 : main_v48.isScoped = false) (v : (⟨S100000x64, .f32⟩ : BufTy).Contents (Elt Ideal)) :
    (TRef.of (sig := sig) (T := (⟨S100000x64, .f32⟩ : BufTy)) main_v48 h1 h2 h3).toBuf v = v := cast_eq _ v
theorem ofBuf_main_v48 (h1 : main_v48.ty = (⟨S100000x64, .f32⟩ : BufTy)) (h2 : main_v48.space ≠ .host) (h3 : main_v48.isScoped = false) (v : (⟨S100000x64, .f32⟩ : BufTy).Contents (Elt Ideal)) :
    (TRef.of (sig := sig) (T := (⟨S100000x64, .f32⟩ : BufTy)) main_v48 h1 h2 h3).ofBuf v = v := cast_eq _ v
theorem toBuf_main_v49 (h1 : main_v49.ty = (⟨S100000x64, .f32⟩ : BufTy)) (h2 : main_v49.space ≠ .host) (h3 : main_v49.isScoped = false) (v : (⟨S100000x64, .f32⟩ : BufTy).Contents (Elt Ideal)) :
    (TRef.of (sig := sig) (T := (⟨S100000x64, .f32⟩ : BufTy)) main_v49 h1 h2 h3).toBuf v = v := cast_eq _ v
theorem ofBuf_main_v49 (h1 : main_v49.ty = (⟨S100000x64, .f32⟩ : BufTy)) (h2 : main_v49.space ≠ .host) (h3 : main_v49.isScoped = false) (v : (⟨S100000x64, .f32⟩ : BufTy).Contents (Elt Ideal)) :
    (TRef.of (sig := sig) (T := (⟨S100000x64, .f32⟩ : BufTy)) main_v49 h1 h2 h3).ofBuf v = v := cast_eq _ v
theorem toBuf_main_cst_14 (h1 : main_cst_14.ty = (⟨S_, .f32⟩ : BufTy)) (h2 : main_cst_14.space ≠ .host) (h3 : main_cst_14.isScoped = false) (v : (⟨S_, .f32⟩ : BufTy).Contents (Elt Ideal)) :
    (TRef.of (sig := sig) (T := (⟨S_, .f32⟩ : BufTy)) main_cst_14 h1 h2 h3).toBuf v = v := cast_eq _ v
theorem ofBuf_main_cst_14 (h1 : main_cst_14.ty = (⟨S_, .f32⟩ : BufTy)) (h2 : main_cst_14.space ≠ .host) (h3 : main_cst_14.isScoped = false) (v : (⟨S_, .f32⟩ : BufTy).Contents (Elt Ideal)) :
    (TRef.of (sig := sig) (T := (⟨S_, .f32⟩ : BufTy)) main_cst_14 h1 h2 h3).ofBuf v = v := cast_eq _ v
theorem toBuf_main_call2_v0 (h1 : main_call2_v0.ty = (⟨S_, .f32⟩ : BufTy)) (h2 : main_call2_v0.space ≠ .host) (h3 : main_call2_v0.isScoped = false) (v : (⟨S_, .f32⟩ : BufTy).Contents (Elt Ideal)) :
    (TRef.of (sig := sig) (T := (⟨S_, .f32⟩ : BufTy)) main_call2_v0 h1 h2 h3).toBuf v = v := cast_eq _ v
theorem ofBuf_main_call2_v0 (h1 : main_call2_v0.ty = (⟨S_, .f32⟩ : BufTy)) (h2 : main_call2_v0.space ≠ .host) (h3 : main_call2_v0.isScoped = false) (v : (⟨S_, .f32⟩ : BufTy).Contents (Elt Ideal)) :
    (TRef.of (sig := sig) (T := (⟨S_, .f32⟩ : BufTy)) main_call2_v0 h1 h2 h3).ofBuf v = v := cast_eq _ v
theorem toBuf_main_call2_v1 (h1 : main_call2_v1.ty = (⟨S100000, .f32⟩ : BufTy)) (h2 : main_call2_v1.space ≠ .host) (h3 : main_call2_v1.isScoped = false) (v : (⟨S100000, .f32⟩ : BufTy).Contents (Elt Ideal)) :
    (TRef.of (sig := sig) (T := (⟨S100000, .f32⟩ : BufTy)) main_call2_v1 h1 h2 h3).toBuf v = v := cast_eq _ v
theorem ofBuf_main_call2_v1 (h1 : main_call2_v1.ty = (⟨S100000, .f32⟩ : BufTy)) (h2 : main_call2_v1.space ≠ .host) (h3 : main_call2_v1.isScoped = false) (v : (⟨S100000, .f32⟩ : BufTy).Contents (Elt Ideal)) :
    (TRef.of (sig := sig) (T := (⟨S100000, .f32⟩ : BufTy)) main_call2_v1 h1 h2 h3).ofBuf v = v := cast_eq _ v
theorem toBuf_main_v58 (h1 : main_v58.ty = (⟨S100000, .i1⟩ : BufTy)) (h2 : main_v58.space ≠ .host) (h3 : main_v58.isScoped = false) (v : (⟨S100000, .i1⟩ : BufTy).Contents (Elt Ideal)) :
    (TRef.of (sig := sig) (T := (⟨S100000, .i1⟩ : BufTy)) main_v58 h1 h2 h3).toBuf v = v := cast_eq _ v
theorem ofBuf_main_v58 (h1 : main_v58.ty = (⟨S100000, .i1⟩ : BufTy)) (h2 : main_v58.space ≠ .host) (h3 : main_v58.isScoped = false) (v : (⟨S100000, .i1⟩ : BufTy).Contents (Elt Ideal)) :
    (TRef.of (sig := sig) (T := (⟨S100000, .i1⟩ : BufTy)) main_v58 h1 h2 h3).ofBuf v = v := cast_eq _ v
theorem toBuf_main_v61 (h1 : main_v61.ty = (⟨S100000, .f32⟩ : BufTy)) (h2 : main_v61.space ≠ .host) (h3 : main_v61.isScoped = false) (v : (⟨S100000, .f32⟩ : BufTy).Contents (Elt Ideal)) :
    (TRef.of (sig := sig) (T := (⟨S100000, .f32⟩ : BufTy)) main_v61 h1 h2 h3).toBuf v = v := cast_eq _ v
theorem ofBuf_main_v61 (h1 : main_v61.ty = (⟨S100000, .f32⟩ : BufTy)) (h2 : main_v61.space ≠ .host) (h3 : main_v61.isScoped = false) (v : (⟨S100000, .f32⟩ : BufTy).Contents (Elt Ideal)) :
    (TRef.of (sig := sig) (T := (⟨S100000, .f32⟩ : BufTy)) main_v61 h1 h2 h3).ofBuf v = v := cast_eq _ v
theorem toBuf_main_v62 (h1 : main_v62.ty = (⟨S100000, .f32⟩ : BufTy)) (h2 : main_v62.space ≠ .host) (h3 : main_v62.isScoped = false) (v : (⟨S100000, .f32⟩ : BufTy).Contents (Elt Ideal)) :
    (TRef.of (sig := sig) (T := (⟨S100000, .f32⟩ : BufTy)) main_v62 h1 h2 h3).toBuf v = v := cast_eq _ v
theorem ofBuf_main_v62 (h1 : main_v62.ty = (⟨S100000, .f32⟩ : BufTy)) (h2 : main_v62.space ≠ .host) (h3 : main_v62.isScoped = false) (v : (⟨S100000, .f32⟩ : BufTy).Contents (Elt Ideal)) :
    (TRef.of (sig := sig) (T := (⟨S100000, .f32⟩ : BufTy)) main_v62 h1 h2 h3).ofBuf v = v := cast_eq _ v
theorem toBuf_main_call3_cst (h1 : main_call3_cst.ty = (⟨S_, .f32⟩ : BufTy)) (h2 : main_call3_cst.space ≠ .host) (h3 : main_call3_cst.isScoped = false) (v : (⟨S_, .f32⟩ : BufTy).Contents (Elt Ideal)) :
    (TRef.of (sig := sig) (T := (⟨S_, .f32⟩ : BufTy)) main_call3_cst h1 h2 h3).toBuf v = v := cast_eq _ v
theorem ofBuf_main_call3_cst (h1 : main_call3_cst.ty = (⟨S_, .f32⟩ : BufTy)) (h2 : main_call3_cst.space ≠ .host) (h3 : main_call3_cst.isScoped = false) (v : (⟨S_, .f32⟩ : BufTy).Contents (Elt Ideal)) :
    (TRef.of (sig := sig) (T := (⟨S_, .f32⟩ : BufTy)) main_call3_cst h1 h2 h3).ofBuf v = v := cast_eq _ v
theorem toBuf_main_call3_v0 (h1 : main_call3_v0.ty = (⟨S16384x32, .f32⟩ : BufTy)) (h2 : main_call3_v0.space ≠ .host) (h3 : main_call3_v0.isScoped = false) (v : (⟨S16384x32, .f32⟩ : BufTy).Contents (Elt Ideal)) :
    (TRef.of (sig := sig) (T := (⟨S16384x32, .f32⟩ : BufTy)) main_call3_v0 h1 h2 h3).toBuf v = v := cast_eq _ v
theorem ofBuf_main_call3_v0 (h1 : main_call3_v0.ty = (⟨S16384x32, .f32⟩ : BufTy)) (h2 : main_call3_v0.space ≠ .host) (h3 : main_call3_v0.isScoped = false) (v : (⟨S16384x32, .f32⟩ : BufTy).Contents (Elt Ideal)) :
    (TRef.of (sig := sig) (T := (⟨S16384x32, .f32⟩ : BufTy)) main_call3_v0 h1 h2 h3).ofBuf v = v := cast_eq _ v
theorem toBuf_main_v105 (h1 : main_v105.ty = (⟨S16384x32, .f32⟩ : BufTy)) (h2 : main_v105.space ≠ .host) (h3 : main_v105.isScoped = false) (v : (⟨S16384x32, .f32⟩ : BufTy).Contents (Elt Ideal)) :
    (TRef.of (sig := sig) (T := (⟨S16384x32, .f32⟩ : BufTy)) main_v105 h1 h2 h3).toBuf v = v := cast_eq _ v
theorem ofBuf_main_v105 (h1 : main_v105.ty = (⟨S16384x32, .f32⟩ : BufTy)) (h2 : main_v105.space ≠ .host) (h3 : main_v105.isScoped = false) (v : (⟨S16384x32, .f32⟩ : BufTy).Contents (Elt Ideal)) :
    (TRef.of (sig := sig) (T := (⟨S16384x32, .f32⟩ : BufTy)) main_v105 h1 h2 h3).ofBuf v = v := cast_eq _ v
theorem toBuf_main_v106 (h1 : main_v106.ty = (⟨S16384x32, .f32⟩ : BufTy)) (h2 : main_v106.space ≠ .host) (h3 : main_v106.isScoped = false) (v : (⟨S16384x32, .f32⟩ : BufTy).Contents (Elt Ideal)) :
    (TRef.of (sig := sig) (T := (⟨S16384x32, .f32⟩ : BufTy)) main_v106 h1 h2 h3).toBuf v = v := cast_eq _ v
theorem ofBuf_main_v106 (h1 : main_v106.ty = (⟨S16384x32, .f32⟩ : BufTy)) (h2 : main_v106.space ≠ .host) (h3 : main_v106.isScoped = false) (v : (⟨S16384x32, .f32⟩ : BufTy).Contents (Elt Ideal)) :
    (TRef.of (sig := sig) (T := (⟨S16384x32, .f32⟩ : BufTy)) main_v106 h1 h2 h3).ofBuf v = v := cast_eq _ v
theorem toBuf_main_call4_cst (h1 : main_call4_cst.ty = (⟨S_, .f32⟩ : BufTy)) (h2 : main_call4_cst.space ≠ .host) (h3 : main_call4_cst.isScoped = false) (v : (⟨S_, .f32⟩ : BufTy).Contents (Elt Ideal)) :
    (TRef.of (sig := sig) (T := (⟨S_, .f32⟩ : BufTy)) main_call4_cst h1 h2 h3).toBuf v = v := cast_eq _ v
theorem ofBuf_main_call4_cst (h1 : main_call4_cst.ty = (⟨S_, .f32⟩ : BufTy)) (h2 : main_call4_cst.space ≠ .host) (h3 : main_call4_cst.isScoped = false) (v : (⟨S_, .f32⟩ : BufTy).Contents (Elt Ideal)) :
    (TRef.of (sig := sig) (T := (⟨S_, .f32⟩ : BufTy)) main_call4_cst h1 h2 h3).ofBuf v = v := cast_eq _ v
theorem toBuf_main_call4_v0 (h1 : main_call4_v0.ty = (⟨S16384x64, .f32⟩ : BufTy)) (h2 : main_call4_v0.space ≠ .host) (h3 : main_call4_v0.isScoped = false) (v : (⟨S16384x64, .f32⟩ : BufTy).Contents (Elt Ideal)) :
    (TRef.of (sig := sig) (T := (⟨S16384x64, .f32⟩ : BufTy)) main_call4_v0 h1 h2 h3).toBuf v = v := cast_eq _ v
theorem ofBuf_main_call4_v0 (h1 : main_call4_v0.ty = (⟨S16384x64, .f32⟩ : BufTy)) (h2 : main_call4_v0.space ≠ .host) (h3 : main_call4_v0.isScoped = false) (v : (⟨S16384x64, .f32⟩ : BufTy).Contents (Elt Ideal)) :
    (TRef.of (sig := sig) (T := (⟨S16384x64, .f32⟩ : BufTy)) main_call4_v0 h1 h2 h3).ofBuf v = v := cast_eq _ v
theorem toBuf_main_v115 (h1 : main_v115.ty = (⟨S16384x64, .f32⟩ : BufTy)) (h2 : main_v115.space ≠ .host) (h3 : main_v115.isScoped = false) (v : (⟨S16384x64, .f32⟩ : BufTy).Contents (Elt Ideal)) :
    (TRef.of (sig := sig) (T := (⟨S16384x64, .f32⟩ : BufTy)) main_v115 h1 h2 h3).toBuf v = v := cast_eq _ v
theorem ofBuf_main_v115 (h1 : main_v115.ty = (⟨S16384x64, .f32⟩ : BufTy)) (h2 : main_v115.space ≠ .host) (h3 : main_v115.isScoped = false) (v : (⟨S16384x64, .f32⟩ : BufTy).Contents (Elt Ideal)) :
    (TRef.of (sig := sig) (T := (⟨S16384x64, .f32⟩ : BufTy)) main_v115 h1 h2 h3).ofBuf v = v := cast_eq _ v
theorem toBuf_main_v116 (h1 : main_v116.ty = (⟨S16384x64, .f32⟩ : BufTy)) (h2 : main_v116.space ≠ .host) (h3 : main_v116.isScoped = false) (v : (⟨S16384x64, .f32⟩ : BufTy).Contents (Elt Ideal)) :
    (TRef.of (sig := sig) (T := (⟨S16384x64, .f32⟩ : BufTy)) main_v116 h1 h2 h3).toBuf v = v := cast_eq _ v
theorem ofBuf_main_v116 (h1 : main_v116.ty = (⟨S16384x64, .f32⟩ : BufTy)) (h2 : main_v116.space ≠ .host) (h3 : main_v116.isScoped = false) (v : (⟨S16384x64, .f32⟩ : BufTy).Contents (Elt Ideal)) :
    (TRef.of (sig := sig) (T := (⟨S16384x64, .f32⟩ : BufTy)) main_v116 h1 h2 h3).ofBuf v = v := cast_eq _ v

set_option maxRecDepth 1000000 in
set_option maxHeartbeats 66400000 in
/-- Every weakly fair execution of the reference terminates with its result at `res` of the launch memory and the
    arguments unchanged. -/
theorem run (m : Mem) (ρ : Dev nD → PrngReg) :
    θ_run (defs (F := Ideal)) (onTc (τ := τ) (main (F := Ideal))) ⟨m, fun _ => 0, ρ⟩ fun r => ∀ c : Dev nD,
      r.2.mem ((c.tc : Thread nD τ).loc main_v127) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run (defs (F := Ideal)) _ _).mono (fun _ h c => ⟨(h c main_v127).trans (by simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair_eq, TRef.ofBuf_toBuf, toBuf_main_cst_3, ofBuf_main_cst_3, toBuf_main_call0_v0, ofBuf_main_call0_v0, toBuf_main_call0_v1, ofBuf_main_call0_v1, toBuf_main_v12, ofBuf_main_v12, toBuf_main_v15, ofBuf_main_v15, toBuf_main_v16, ofBuf_main_v16, toBuf_main_call1_cst, ofBuf_main_call1_cst, toBuf_main_call1_v0, ofBuf_main_call1_v0, toBuf_main_v48, ofBuf_main_v48, toBuf_main_v49, ofBuf_main_v49, toBuf_main_cst_14, ofBuf_main_cst_14, toBuf_main_call2_v0, ofBuf_main_call2_v0, toBuf_main_call2_v1, ofBuf_main_call2_v1, toBuf_main_v58, ofBuf_main_v58, toBuf_main_v61, ofBuf_main_v61, toBuf_main_v62, ofBuf_main_v62, toBuf_main_call3_cst, ofBuf_main_call3_cst, toBuf_main_call3_v0, ofBuf_main_call3_v0, toBuf_main_v105, ofBuf_main_v105, toBuf_main_v106, ofBuf_main_v106, toBuf_main_call4_cst, ofBuf_main_call4_cst, toBuf_main_call4_v0, ofBuf_main_call4_v0, toBuf_main_v115, ofBuf_main_v115, toBuf_main_v116, ofBuf_main_v116]; rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl)⟩)
    (run_seq scopedRefs_eq scopedSems_eq (defs (F := Ideal)) main (fun _ => ops) main_eq (fun _ => ops_sub) m ρ)

end Cert.ReferenceIdeal.RefRun

end
-- ==== Proof.Spec.lean ====
/-
  The arithmetic of the graph network, entry by entry, on the extended reals.

  A node table has 100000 rows; a message is a pair (source row, target row). Before aggregation each layer
  multiplies its node features by a weight matrix and scales row r by the node's weight dis[r] (the inverse
  square root of its degree); after aggregation the sum that arrives at row r is scaled by dis[r] again, the bias is
  added and (layer 1) the result is clamped below at zero. The head takes 16384 gathered rows, adds the second
  layer's bias, runs the small laboratory network beside them, multiplies both by the two row blocks of the
  fusion matrix, and ends in the logistic function.
-/
import Idealize.ShloMosaic.PureOps.Ideal
import Idealize.ShloMosaic.Lib.ValueIdx

noncomputable section

open scoped BigOperators

namespace Cert.Gcn

open Idealize.ShloMosaic Idealize.ShloMosaic.ValueIdx

/-- A table of extended reals with `a` rows and `b` columns. -/
abbrev Tab (a b : Nat) : Type := (⟨2, ![a, b]⟩ : Shape).Idx → EReal

/-- Layer 1 before aggregation: row r of emb · W1, scaled by dis[r]. -/
def pre1 (emb : Tab 100000 32) (w1 : Tab 32 64) (dis : Tab 100000 1) (r : Fin 100000) (j : Fin 64) : EReal :=
  (∑ k : Fin 32, emb (ix2 r k) * w1 (ix2 k j)) * dis (ix2 r 0)

/-- Layer 2 before aggregation: x1[r, k] = max (dis[r] · agg[r, k] + b1[k]) 0 is layer 1's output; row r of x1 · W2,
    scaled by dis[r]. -/
def pre2 (agg : Tab 100000 64) (dis : Tab 100000 1) (b1 : Tab 1 64) (w2 : Tab 64 64) (r : Fin 100000) (j : Fin 64) : EReal :=
  (∑ k : Fin 64, max (dis (ix2 r 0) * agg (ix2 r k) + b1 (ix2 0 k)) 0 * w2 (ix2 k j)) * dis (ix2 r 0)

/-- The gathered node embedding of batch row r: dis[r] · agg[r, k] + b2[k]. -/
def drugE (agg : Tab 16384 64) (dis : Tab 16384 1) (b2 : Tab 1 64) (r : Fin 16384) (k : Fin 64) : EReal :=
  dis (ix2 r 0) * agg (ix2 r k) + b2 (ix2 0 k)

/-- The laboratory network's hidden layer. -/
def labH (lab : Tab 16384 9) (lw1 : Tab 9 32) (lb1 : Tab 1 32) (r : Fin 16384) (k : Fin 32) : EReal :=
  max ((∑ q : Fin 9, lab (ix2 r q) * lw1 (ix2 q k)) + lb1 (ix2 0 k)) 0

/-- The laboratory network's output. -/
def labE (lab : Tab 16384 9) (lw1 : Tab 9 32) (lb1 : Tab 1 32) (lw2 : Tab 32 32) (lb2 : Tab 1 32)
    (r : Fin 16384) (k : Fin 32) : EReal :=
  (∑ q : Fin 32, labH lab lw1 lb1 r q * lw2 (ix2 q k)) + lb2 (ix2 0 k)

/-- The fusion layer's hidden unit k from a node embedding d and a laboratory embedding l: the two row blocks of the
    fusion matrix applied separately and added, then the bias, clamped below at zero. -/
def fusH (d : Fin 64 → EReal) (l : Fin 32 → EReal) (fd : Tab 64 64) (fl : Tab 32 64) (fb1 : Tab 1 64) (k : Fin 64) : EReal :=
  max (((∑ q : Fin 64, d q * fd (ix2 q k)) + ∑ q : Fin 32, l q * fl (ix2 q k)) + fb1 (ix2 0 k)) 0

/-- The head's output for batch row r. -/
def head (agg : Tab 16384 64) (dis : Tab 16384 1) (b2 : Tab 1 64) (lab : Tab 16384 9) (lw1 : Tab 9 32) (lb1 : Tab 1 32)
    (lw2 : Tab 32 32) (lb2 : Tab 1 32) (fd : Tab 64 64) (fl : Tab 32 64) (fb1 : Tab 1 64) (fw2 : Tab 64 1) (fb2 : Tab 1 1)
    (r : Fin 16384) : EReal :=
  Ideal.logistic ((∑ k : Fin 64, fusH (drugE agg dis b2 r) (labE lab lw1 lb1 lw2 lb2 r) fd fl fb1 k * fw2 (ix2 k 0))
    + fb2 (ix2 0 0))

end Cert.Gcn

end
-- ==== Proof.LibSegmentSum.lean ====
import Idealize.ShloMosaic.PureOps.Ideal.Laws
import Idealize.ShloMosaic.Lib.ValueIdx

/-!
# Segment sums: scatter-add and gather of rows read at an index, and the linear law

General facts about a "segment sum" (a scatter-add of rows into a table by an integer row index)
and the matching row gather, each read at one index, together with the linear law on the extended
reals that lets a nonnegative finite per-row weight be moved across a product with an arbitrary
vector.
-/

noncomputable section

open scoped BigOperators

namespace Cert.SegmentSum

open Idealize.ShloMosaic Idealize.ShloMosaic.ValueIdx

/-! ## The linear law on the extended reals -/

/-- A finite sum of extended reals times a nonnegative finite factor distributes:
`(∑ k ∈ T, a k) * n = ∑ k ∈ T, a k * n` when `0 ≤ n` and `n ≠ ⊤`
(no sign or finiteness condition on the summands). -/
theorem sum_mul_of_nonneg_of_ne_top {K : Type*} [DecidableEq K] (T : Finset K) (a : K → EReal)
    {n : EReal} (hn : 0 ≤ n) (hn' : n ≠ ⊤) :
    (∑ k ∈ T, a k) * n = ∑ k ∈ T, a k * n := by
  induction T using Finset.induction_on with
  | empty => simp
  | insert k T hk ih =>
    rw [Finset.sum_insert hk, Finset.sum_insert hk,
      EReal.right_distrib_of_nonneg_of_ne_top hn hn', ih]

/-- A finite sum of nonnegative extended reals times an arbitrary factor distributes:
`(∑ e ∈ S, b e) * w = ∑ e ∈ S, b e * w` when every `b e ≥ 0`
(`w` may have any sign and may be infinite). -/
theorem sum_mul_of_nonneg {E : Type*} [DecidableEq E] (S : Finset E) (b : E → EReal)
    (hb : ∀ e ∈ S, 0 ≤ b e) (w : EReal) :
    (∑ e ∈ S, b e) * w = ∑ e ∈ S, b e * w := by
  induction S using Finset.induction_on with
  | empty => simp
  | insert e S he ih =>
    have hS : ∀ e' ∈ S, 0 ≤ b e' := fun e' h' => hb e' (Finset.mem_insert_of_mem h')
    rw [Finset.sum_insert he, Finset.sum_insert he,
      EReal.right_distrib_of_nonneg (hb e (Finset.mem_insert_self e S)) (Finset.sum_nonneg hS),
      ih hS]

/-- The linear law on the extended reals: weighting each row `e` of `h` by a nonnegative
finite factor `n e` commutes with the product against an arbitrary (any sign, possibly
infinite) vector `w`, summed over any set `S` of rows:
`∑ e ∈ S, (∑ k, h e k * w k) * n e = ∑ k, (∑ e ∈ S, h e k * n e) * w k`,
for `h ≥ 0`, `0 ≤ n e ≠ ⊤`. -/
theorem sum_mul_weight_comm {E K : Type*} [DecidableEq E] [Fintype K] [DecidableEq K]
    (S : Finset E) (h : E → K → EReal) (hh : ∀ e k, 0 ≤ h e k)
    (n : E → EReal) (hn : ∀ e, 0 ≤ n e) (hn' : ∀ e, n e ≠ ⊤) (w : K → EReal) :
    ∑ e ∈ S, (∑ k, h e k * w k) * n e = ∑ k, (∑ e ∈ S, h e k * n e) * w k := by
  have h1 : ∀ e ∈ S, (∑ k, h e k * w k) * n e = ∑ k, (h e k * n e) * w k := by
    intro e _
    rw [sum_mul_of_nonneg_of_ne_top Finset.univ _ (hn e) (hn' e)]
    refine Finset.sum_congr rfl fun k _ => ?_
    rw [mul_assoc, mul_comm (w k) (n e), ← mul_assoc]
  rw [Finset.sum_congr rfl h1, Finset.sum_comm]
  refine Finset.sum_congr rfl fun k _ => ?_
  rw [sum_mul_of_nonneg S (fun e => h e k * n e) (fun e _ => EReal.mul_nonneg (hh e k) (hn e)) (w k)]

/-! ## Gather of rows read at an index -/

section Gather
variable {α : Type}

/-- The dimension numbers of a row gather `x[idx]` of a table `[N, D]` at start indices `[E, 1]`, result `[E, D]`:
offset axis `1`, collapsed axis `0`, start index map `[0]`, index vector axis `1`, slice sizes `[1, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather read at `(e, c)`: the table at row `idx[e, 0]`, read signed and clamped into `[0, N − 1]`,
column `c`. -/
theorem gather_rowsDims_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N E D wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowsDims N E D wf).start (ix2 e c) idx 0 + (rowsDims N E D wf).batchCoord (ix2 e c) 0
      + (rowsDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e c) ⟨List.idxOf (0 : Fin 2) (rowsDims N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E D wf).start (ix2 e c) idx 1 + (rowsDims N E D wf).batchCoord (ix2 e c) 1
      + (rowsDims N E D wf).offCoord (ix2 e c) 1 = c.val
    rw [GatherDims.batchCoord_eq_zero _ _ _ List.not_mem_nil]
    have hs : (rowsDims N E D wf).start (ix2 e c) idx 1 = 0 := by
      unfold GatherDims.start
      rw [dif_neg (show (1 : Fin 2) ∉ (rowsDims N E D wf).startIndexMap from (by decide : (1 : Fin 2) ∉ ([0] : List (Fin 2))))]
    rw [hs]
    simp only [Nat.add_zero, Nat.zero_add]
    unfold GatherDims.offCoord
    rw [dif_pos ((GatherDims.mem_sKept _ _).mpr ⟨(by decide : (1 : Fin 2) ∉ ([0] : List (Fin 2))), List.not_mem_nil⟩)]
    rfl

/-- GATHER OF ROWS READ AT AN INDEX, for any record with the row gather's dimension numbers: element `(e, c)` of
`x[idx]` is the table at row `idx[e, 0]`, read signed and clamped into `[0, N − 1]`, column `c`. -/
theorem gather_rows_apply {N E D w : Nat} (hN : 0 < N)
    (g : GatherDims ⟨2, ![N, D]⟩ ⟨2, ![E, 1]⟩ ⟨2, ![E, D]⟩)
    (ho : g.offsetDims = [1]) (hc : g.collapsedSliceDims = [0]) (hob : g.operandBatchingDims = [])
    (hsb : g.startIndicesBatchingDims = []) (hm : g.startIndexMap = [0]) (hv : g.indexVectorDim = 1)
    (hss : g.sliceSizes = ![1, D])
    (x : (⟨2, ![N, D]⟩ : Shape).Idx → α) (idx : IVec ⟨2, ![E, 1]⟩ w) (e : Fin E) (c : Fin D) :
    Host.gather g x idx (ix2 e c)
      = x (ix2 ⟨min (idx (ix2 e 0)).toInt.toNat (N - 1), by omega⟩ c) := by
  obtain ⟨od, cd, ob, sb, sm, iv, ss, wf⟩ := g
  dsimp only at ho hc hob hsb hm hv hss
  subst ho hc hob hsb hm hv hss
  exact gather_rowsDims_apply hN wf x idx e c

/-- The dimension numbers of a gather `x[idx]` of a flat table `[N]` at start indices `[E, 1]`, result `[E]`:
no offset axis, collapsed axis `0`, start index map `[0]`, index vector axis `1`, slice sizes `[1]`. -/
abbrev tableDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A flat-table gather read at `e`: the table at `idx[e, 0]`, read signed and clamped into `[0, N − 1]`. -/
theorem gather_tableDims_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (tableDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (tableDims N E wf).start (ix1 e) idx 0 + (tableDims N E wf).batchCoord (ix1 e) 0
    + (tableDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (tableDims N E wf).startIndexMap from List.mem_singleton.mpr rfl)]
  have hsi : (tableDims N E wf).siIdx (ix1 e) ⟨List.idxOf (0 : Fin 1) (tableDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- GATHER FROM A FLAT TABLE READ AT AN INDEX, for any record with those dimension numbers: element `e` of `x[idx]`
is the table at `idx[e, 0]`, read signed and clamped into `[0, N − 1]`. -/
theorem gather_table_apply {N E w : Nat} (hN : 0 < N)
    (g : GatherDims ⟨1, ![N]⟩ ⟨2, ![E, 1]⟩ ⟨1, ![E]⟩)
    (ho : g.offsetDims = []) (hc : g.collapsedSliceDims = [0]) (hob : g.operandBatchingDims = [])
    (hsb : g.startIndicesBatchingDims = []) (hm : g.startIndexMap = [0]) (hv : g.indexVectorDim = 1)
    (hss : g.sliceSizes = ![1])
    (x : (⟨1, ![N]⟩ : Shape).Idx → α) (idx : IVec ⟨2, ![E, 1]⟩ w) (e : Fin E) :
    Host.gather g x idx (ix1 e)
      = x (ix1 ⟨min (idx (ix2 e 0)).toInt.toNat (N - 1), by omega⟩) := by
  obtain ⟨od, cd, ob, sb, sm, iv, ss, wf⟩ := g
  dsimp only at ho hc hob hsb hm hv hss
  subst ho hc hob hsb hm hv hss
  exact gather_tableDims_apply hN wf x idx e

end Gather

/-! ## Scatter-add of rows read at an index -/

section Scatter

/-- The row a scatter index word addresses in a table of `N` rows: the word read as a signed integer when that is in
`[0, N)`, no row otherwise (an update whose index leaves the table is dropped). -/
def rowTarget (N : Nat) (w : BitVec 32) : Option (Fin N) :=
  if h : 0 ≤ w.toInt ∧ w.toInt < N then some ⟨w.toInt.toNat, by omega⟩ else none

/-- The dimension numbers of a row scatter into a table `[N, D]` at scatter indices `[E, 1]` with updates `[E, D]`:
update window axis `1`, inserted window axis `0`, scatter-dims-to-operand-dims `[0]`, index vector axis `1`. -/
abbrev rowsScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D : Nat} (wf : ScatterDims.WF ⟨2, ![N, D]⟩ ⟨2, ![E, 1]⟩ ⟨2, ![E, D]⟩ [1] [0] [0] 1)
  (idx : IVec ⟨2, ![E, 1]⟩ 32) (e : Fin E) (c : Fin D)

/-- On the row axis the window of update `(e, c)` starts at the index word `idx[e, 0]` read signed. -/
theorem rowsScatter_start0 :
    (rowsScatter N E D wf).start (ix2 e c) idx 0 = (idx (ix2 e 0)).toInt := by
  unfold ScatterDims.start
  rw [dif_pos (show (0 : Fin 2) ∈ (rowsScatter N E D wf).scatterDimsToOperandDims from List.mem_singleton.mpr rfl)]
  have hsi : (rowsScatter N E D wf).siIdx (ix2 e c)
      ⟨List.idxOf (0 : Fin 2) (rowsScatter N E D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`. -/
theorem rowsScatter_start1 : (rowsScatter N E D wf).start (ix2 e c) idx 1 = 0 := by
  unfold ScatterDims.start
  rw [dif_neg (show (1 : Fin 2) ∉ (rowsScatter N E D wf).scatterDimsToOperandDims from
    (by decide : (1 : Fin 2) ∉ ([0] : List (Fin 2))))]

/-- The row axis is inserted: no window coordinate there. -/
theorem rowsScatter_window0 : (rowsScatter N E D wf).window (ix2 e c) 0 = 0 := by
  unfold ScatterDims.window
  rw [dif_neg (show (0 : Fin 2) ∉ (rowsScatter N E D wf).sKept from
    (by decide : (0 : Fin 2) ∉ (List.finRange 2).filter (· ∉ ([0] : List (Fin 2)))))]

/-- The window coordinate on the column axis is the update's column. -/
theorem rowsScatter_window1 : (rowsScatter N E D wf).window (ix2 e c) 1 = c.val := by
  unfold ScatterDims.window
  rw [dif_pos (show (1 : Fin 2) ∈ (rowsScatter N E D wf).sKept from
    (by decide : (1 : Fin 2) ∈ (List.finRange 2).filter (· ∉ ([0] : List (Fin 2)))))]
  rfl

/-- ROW TARGET (literal dimension numbers): update `(e, c)` of a row scatter lands at `(i, c)` where `i` is the row
its index word `idx[e, 0]` addresses, and nowhere when that word leaves `[0, N)`. -/
theorem rowsScatter_resultIdx? :
    (rowsScatter N E D wf).resultIdx? (ix2 e c) idx
      = (rowTarget N (idx (ix2 e 0))).map (fun i => ix2 i c) := by
  have h0s := rowsScatter_start0 wf idx e c
  have h0w := rowsScatter_window0 wf e c
  have h1s := rowsScatter_start1 wf idx e c
  have h1w := rowsScatter_window1 wf e c
  unfold ScatterDims.resultIdx? rowTarget
  by_cases h : 0 ≤ (idx (ix2 e 0)).toInt ∧ (idx (ix2 e 0)).toInt < N
  · have hall : ∀ a : Fin 2, 0 ≤ (rowsScatter N E D wf).start (ix2 e c) idx a + (rowsScatter N E D wf).window (ix2 e c) a
        ∧ (rowsScatter N E D wf).start (ix2 e c) idx a + (rowsScatter N E D wf).window (ix2 e c) a
          < ((⟨2, ![N, D]⟩ : Shape).size a : Int) := by
      intro a
      match a with
      | ⟨0, _⟩ =>
        show 0 ≤ (rowsScatter N E D wf).start (ix2 e c) idx 0 + (rowsScatter N E D wf).window (ix2 e c) 0
          ∧ (rowsScatter N E D wf).start (ix2 e c) idx 0 + (rowsScatter N E D wf).window (ix2 e c) 0 < (N : Int)
        rw [h0s, h0w]; omega
      | ⟨1, _⟩ =>
        show 0 ≤ (rowsScatter N E D wf).start (ix2 e c) idx 1 + (rowsScatter N E D wf).window (ix2 e c) 1
          ∧ (rowsScatter N E D wf).start (ix2 e c) idx 1 + (rowsScatter N E D wf).window (ix2 e c) 1 < (D : Int)
        rw [h1s, h1w]; have := c.isLt; omega
    rw [dif_pos hall, dif_pos h, Option.map_some]
    congr 1
    funext a
    refine Fin.ext ?_
    match a with
    | ⟨0, _⟩ =>
      show ((rowsScatter N E D wf).start (ix2 e c) idx 0 + (rowsScatter N E D wf).window (ix2 e c) 0).toNat
        = (idx (ix2 e 0)).toInt.toNat
      rw [h0s, h0w]; simp
    | ⟨1, _⟩ =>
      show ((rowsScatter N E D wf).start (ix2 e c) idx 1 + (rowsScatter N E D wf).window (ix2 e c) 1).toNat = c.val
      rw [h1s, h1w]; simp
  · rw [dif_neg h, dif_neg]
    · rfl
    · intro hall
      have h0 : 0 ≤ (rowsScatter N E D wf).start (ix2 e c) idx 0 + (rowsScatter N E D wf).window (ix2 e c) 0
          ∧ (rowsScatter N E D wf).start (ix2 e c) idx 0 + (rowsScatter N E D wf).window (ix2 e c) 0 < (N : Int) := hall 0
      rw [h0s, h0w] at h0
      exact h (by omega)

/-- ROW TARGET, for any record with the row scatter's dimension numbers: update `(e, c)` lands at `(i, c)` where `i`
is the row its index word `idx[e, 0]` addresses, and nowhere when that word leaves `[0, N)`. -/
theorem resultIdx?_rows (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1) :
    d.resultIdx? (ix2 e c) idx = (rowTarget N (idx (ix2 e 0))).map (fun i => ix2 i c) := by
  obtain ⟨uw, iw, sd, iv, wf'⟩ := d
  dsimp only at hu hi hs hv
  subst hu hi hs hv
  exact rowsScatter_resultIdx? wf' idx e c

/-- Two rank-2 indices agree exactly when both coordinates do. -/
theorem ix2_eq_ix2_iff {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- SCATTER-ADD OF ROWS READ AT AN INDEX (on the extended reals): element `(i, c)` of the result is the operand's plus
the sum of column `c` of every update row `e` whose index word addresses row `i`. -/
theorem hostScatterAdd_rows_apply (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : (⟨2, ![N, D]⟩ : Shape).Idx → EReal) (upd : (⟨2, ![E, D]⟩ : Shape).Idx → EReal) (i : Fin N) :
    Ideal.hostScatterAdd d x idx upd (ix2 i c)
      = x (ix2 i c) + ∑ e ∈ Finset.univ.filter (fun e : Fin E => rowTarget N (idx (ix2 e 0)) = some i),
          upd (ix2 e c) := by
  unfold Ideal.hostScatterAdd
  congr 1
  rw [Finset.sum_filter, Finset.sum_filter, sum_idx2]
  refine Finset.sum_congr rfl fun e _ => ?_
  simp only [resultIdx?_rows idx e _ d hu hi hs hv]
  cases hr : rowTarget N (idx (ix2 e 0)) with
  | none => simp
  | some i' =>
    simp only [Option.map_some, Option.some.injEq, ix2_eq_ix2_iff]
    by_cases hii : i' = i
    · subst hii
      simp
    · simp [hii]

end Scatter

/-! ## Scatter-add into a flat table read at an index -/

section ScatterTable

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Two rank-1 indices agree exactly when their coordinates do. -/
theorem ix1_eq_ix1_iff {n : Nat} (a a' : Fin n) : ix1 a = ix1 a' ↔ a = a' := by
  constructor
  · intro h
    exact congrFun h 0
  · rintro rfl; rfl

/-- The dimension numbers of a scatter into a flat table `[N]` at scatter indices `[E, 1]` with updates `[E]`:
no update window axis, inserted window axis `0`, scatter-dims-to-operand-dims `[0]`, index vector axis `1`. -/
abbrev tableScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (e : Fin E)

/-- The window of update `e` starts at the index word `idx[e, 0]` read signed. -/
theorem tableScatter_start0 :
    (tableScatter N E wf).start (ix1 e) idx 0 = (idx (ix2 e 0)).toInt := by
  unfold ScatterDims.start
  rw [dif_pos (show (0 : Fin 1) ∈ (tableScatter N E wf).scatterDimsToOperandDims from List.mem_singleton.mpr rfl)]
  have hsi : (tableScatter N E wf).siIdx (ix1 e)
      ⟨List.idxOf (0 : Fin 1) (tableScatter N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The table's one axis is inserted: no window coordinate there. -/
theorem tableScatter_window0 : (tableScatter N E wf).window (ix1 e) 0 = 0 := by
  unfold ScatterDims.window
  rw [dif_neg (show (0 : Fin 1) ∉ (tableScatter N E wf).sKept from
    (by decide : (0 : Fin 1) ∉ (List.finRange 1).filter (· ∉ ([0] : List (Fin 1)))))]

/-- TARGET (literal dimension numbers): update `e` of a flat-table scatter lands at the entry its index word
`idx[e, 0]` addresses, and nowhere when that word leaves `[0, N)`. -/
theorem tableScatter_resultIdx? :
    (tableScatter N E wf).resultIdx? (ix1 e) idx = (rowTarget N (idx (ix2 e 0))).map (fun i => ix1 i) := by
  have h0s := tableScatter_start0 wf idx e
  have h0w := tableScatter_window0 wf e
  unfold ScatterDims.resultIdx? rowTarget
  by_cases h : 0 ≤ (idx (ix2 e 0)).toInt ∧ (idx (ix2 e 0)).toInt < N
  · have hall : ∀ a : Fin 1, 0 ≤ (tableScatter N E wf).start (ix1 e) idx a + (tableScatter N E wf).window (ix1 e) a
        ∧ (tableScatter N E wf).start (ix1 e) idx a + (tableScatter N E wf).window (ix1 e) a
          < ((⟨1, ![N]⟩ : Shape).size a : Int) := by
      intro a
      obtain rfl : a = 0 := Subsingleton.elim _ _
      show 0 ≤ (tableScatter N E wf).start (ix1 e) idx 0 + (tableScatter N E wf).window (ix1 e) 0
        ∧ (tableScatter N E wf).start (ix1 e) idx 0 + (tableScatter N E wf).window (ix1 e) 0 < (N : Int)
      rw [h0s, h0w]; omega
    rw [dif_pos hall, dif_pos h, Option.map_some]
    congr 1
    funext a
    obtain rfl : a = 0 := Subsingleton.elim _ _
    refine Fin.ext ?_
    show ((tableScatter N E wf).start (ix1 e) idx 0 + (tableScatter N E wf).window (ix1 e) 0).toNat
      = (idx (ix2 e 0)).toInt.toNat
    rw [h0s, h0w]; simp
  · rw [dif_neg h, dif_neg]
    · rfl
    · intro hall
      have h0 : 0 ≤ (tableScatter N E wf).start (ix1 e) idx 0 + (tableScatter N E wf).window (ix1 e) 0
          ∧ (tableScatter N E wf).start (ix1 e) idx 0 + (tableScatter N E wf).window (ix1 e) 0 < (N : Int) := hall 0
      rw [h0s, h0w] at h0
      exact h (by omega)

/-- TARGET, for any record with the flat-table scatter's dimension numbers. -/
theorem resultIdx?_table (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) :
    d.resultIdx? (ix1 e) idx = (rowTarget N (idx (ix2 e 0))).map (fun i => ix1 i) := by
  obtain ⟨uw, iw, sd, iv, wf'⟩ := d
  dsimp only at hu hi hs hv
  subst hu hi hs hv
  exact tableScatter_resultIdx? wf' idx e

/-- SCATTER-ADD INTO A FLAT TABLE READ AT AN INDEX (on the extended reals): entry `i` of the result is the operand's
plus the sum of every update `e` whose index word addresses `i`. -/
theorem hostScatterAdd_table_apply (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (upd : (⟨1, ![E]⟩ : Shape).Idx → EReal) (i : Fin N) :
    Ideal.hostScatterAdd d x idx upd (ix1 i)
      = x (ix1 i) + ∑ e ∈ Finset.univ.filter (fun e : Fin E => rowTarget N (idx (ix2 e 0)) = some i),
          upd (ix1 e) := by
  unfold Ideal.hostScatterAdd
  congr 1
  rw [Finset.sum_filter, Finset.sum_filter, sum_idx1]
  refine Finset.sum_congr rfl fun e _ => ?_
  rw [resultIdx?_table idx e d hu hi hs hv]
  cases hr : rowTarget N (idx (ix2 e 0)) with
  | none => simp
  | some i' => simp only [Option.map_some, Option.some.injEq, ix1_eq_ix1_iff]

end ScatterTable

end Cert.SegmentSum

end
-- ==== Proof.Graph.lean ====
/-
  The algebra that joins the two programs, over abstract index sets.

  A graph convolution sends along every message e the source node's feature row, weighted, to the target node, and adds
  up what arrives. One program weights message e by d[src e] · d[tgt e] before the sum; the other weights the source row
  by d[src e] before the sum and the sum by d[c] after it, c the node the sum arrives at. On the extended reals a factor
  may be moved across a finite sum when it is a nonnegative real number (no condition on the summands): the node weights
  are such numbers, and every message arriving at c has target c, so the two agree.
-/
import proofs.«115143_j65317862637944_2_alg».proof.Proof.LibSegmentSum

noncomputable section

open scoped BigOperators

namespace Cert.Gcn

variable {N E : Type} [DecidableEq E]

/-- Moving the target's weight across the sum: for a nonnegative real d[c], and messages whose target (as read) is c,
    d[c] · (0 + Σ_e a e · d[src e]) = 0 + Σ_e a e · (d[src e] · d[tgt e]). -/
theorem scale_after_eq_scale_each (S : Finset E) (src tgt : E → N) (d : N → EReal) (c : N)
    (hd0 : 0 ≤ d c) (hdt : d c ≠ ⊤) (htgt : ∀ e ∈ S, tgt e = c) (a : E → EReal) :
    d c * (0 + ∑ e ∈ S, a e * d (src e)) = 0 + ∑ e ∈ S, a e * (d (src e) * d (tgt e)) := by
  rw [zero_add, zero_add, mul_comm, Cert.SegmentSum.sum_mul_of_nonneg_of_ne_top S _ hd0 hdt]
  refine Finset.sum_congr rfl fun e he => ?_
  rw [htgt e he, mul_assoc]

end Cert.Gcn

end
-- ==== Proof.Network.lean ====
/-
  The two-layer graph network over an abstract graph, in the two arrangements the two programs compute, and their
  equality.

  The graph: S n the messages arriving at node n, src e / tgt e the rows read for message e's source and target, d n node
  n's weight. A convolution in the first arrangement weights message e by d (src e) · d (tgt e); in the second it weights
  the source row by d (src e) before the sum and the sum arriving at n by d n after it. They agree because d n is a
  nonnegative real number and every message arriving at n has target n (Graph: scale_after_eq_scale_each).
-/
import proofs.«115143_j65317862637944_2_alg».proof.Proof.Spec
import proofs.«115143_j65317862637944_2_alg».proof.Proof.Graph

noncomputable section

open scoped BigOperators

namespace Cert.Gcn

open Idealize.ShloMosaic Idealize.ShloMosaic.ValueIdx

/-- An abstract message graph over 100000 nodes and 3300000 messages. -/
structure Graph where
  S : Fin 100000 → Finset (Fin 3300000)
  src : Fin 3300000 → Fin 100000
  tgt : Fin 3300000 → Fin 100000
  d : Fin 100000 → EReal

/-- What the algebra needs of a graph: the node weights are nonnegative real numbers, and a message arriving at n has
    target n. -/
structure Graph.Good (g : Graph) : Prop where
  d_nonneg : ∀ n, 0 ≤ g.d n
  d_ne_top : ∀ n, g.d n ≠ ⊤
  tgt_of_mem : ∀ n e, e ∈ g.S n → g.tgt e = n

variable (g : Graph) (emb : Tab 100000 32) (w1 : Tab 32 64) (b1 : Fin 64 → EReal) (w2 : Tab 64 64) (b2 : Fin 64 → EReal)

/-- Row r of emb · W1. -/
def lin1 (r : Fin 100000) (j : Fin 64) : EReal := ∑ q : Fin 32, emb (ix2 r q) * w1 (ix2 q j)

/-- A convolution with each message weighted by its source's and its target's node weights. -/
def convEach (h : Fin 100000 → Fin 64 → EReal) (n : Fin 100000) (j : Fin 64) : EReal :=
  0 + ∑ e ∈ g.S n, h (g.src e) j * (g.d (g.src e) * g.d (g.tgt e))

/-- The plain sum of pre-scaled source rows arriving at a node. -/
def convPlain (hs : Fin 100000 → Fin 64 → EReal) (n : Fin 100000) (j : Fin 64) : EReal :=
  0 + ∑ e ∈ g.S n, hs (g.src e) j

/-- Scaling the source rows before the sum and the sum after it is weighting each message by both weights. -/
theorem scaled_convPlain (hg : g.Good) (h : Fin 100000 → Fin 64 → EReal) (n : Fin 100000) (j : Fin 64) :
    g.d n * convPlain g (fun r k => h r k * g.d r) n j = convEach g h n j :=
  scale_after_eq_scale_each (g.S n) g.src g.tgt g.d n (hg.d_nonneg n) (hg.d_ne_top n) (hg.tgt_of_mem n) (fun e => h (g.src e) j)

/-- Layer 1's output, first arrangement. -/
def x1Each (n : Fin 100000) (k : Fin 64) : EReal := max (convEach g (lin1 emb w1) n k + b1 k) 0

/-- Layer 1's output, second arrangement. -/
def x1Scaled (n : Fin 100000) (k : Fin 64) : EReal :=
  max (g.d n * convPlain g (fun r j => lin1 emb w1 r j * g.d r) n k + b1 k) 0

theorem x1Scaled_eq (hg : g.Good) : x1Scaled g emb w1 b1 = x1Each g emb w1 b1 := by
  funext n k
  unfold x1Scaled x1Each
  rw [scaled_convPlain g hg]

/-- Layer 2's output, first arrangement. -/
def x2Each (n : Fin 100000) (k : Fin 64) : EReal :=
  convEach g (fun r j => ∑ q : Fin 64, x1Each g emb w1 b1 r q * w2 (ix2 q j)) n k + b2 k

/-- Layer 2's output, second arrangement. -/
def x2Scaled (n : Fin 100000) (k : Fin 64) : EReal :=
  g.d n * convPlain g (fun r j => (∑ q : Fin 64, x1Scaled g emb w1 b1 r q * w2 (ix2 q j)) * g.d r) n k + b2 k

theorem x2Scaled_eq (hg : g.Good) : x2Scaled g emb w1 b1 w2 b2 = x2Each g emb w1 b1 w2 b2 := by
  funext n k
  unfold x2Scaled x2Each
  rw [x1Scaled_eq g emb w1 b1 hg, scaled_convPlain g hg]

/-! ## The head -/

/-- A bias vector as a one-row table. -/
def rowOf {h : ℕ} (v : (⟨1, ![h]⟩ : Shape).Idx → EReal) : Tab 1 h := fun i => v (ix1 (i 1))

/-- The first 64 rows of the fusion matrix. -/
def topRows (fw1 : Tab 96 64) : Tab 64 64 := fun i => fw1 (ix2 (⟨(i 0).val, by have h : (i 0).val < 64 := (i 0).isLt; omega⟩ : Fin 96) (i 1))

/-- Its last 32 rows. -/
def botRows (fw1 : Tab 96 64) : Tab 32 64 := fun i => fw1 (ix2 (⟨64 + (i 0).val, by have h : (i 0).val < 32 := (i 0).isLt; omega⟩ : Fin 96) (i 1))

/-- The network's output for batch entry b, from layer 2's output X2 and the node the entry names. -/
def outOf (X2 : Fin 100000 → Fin 64 → EReal) (node : Fin 16384 → Fin 100000)
    (lab : Tab 16384 9) (lw1 : Tab 9 32) (lb1 : (⟨1, ![32]⟩ : Shape).Idx → EReal) (lw2 : Tab 32 32)
    (lb2 : (⟨1, ![32]⟩ : Shape).Idx → EReal) (fw1 : Tab 96 64) (fb1 : (⟨1, ![64]⟩ : Shape).Idx → EReal) (fw2 : Tab 64 1)
    (fb2 : (⟨1, ![1]⟩ : Shape).Idx → EReal) (b : Fin 16384) : EReal :=
  Ideal.logistic ((∑ k : Fin 64, fusH (X2 (node b)) (labE lab lw1 (rowOf lb1) lw2 (rowOf lb2) b) (topRows fw1) (botRows fw1) (rowOf fb1) k
    * fw2 (ix2 k 0)) + fb2 (ix1 0))

end Cert.Gcn

end
-- ==== Proof.LibIndexWords.lean ====
/-
  Index words and node weights of a gather / scatter pipeline, read at an index.

  * An index vector [E] viewed as a column [E, 1] (what a gather or scatter takes as its start indices) reads at (e, u)
    the vector at e; a column [E, 1] broadcast along its rows to [E, D] reads at (e, j) the column's entry of row e.
  * Indexing first moves a negative index word up by the table's height N (select (w < 0) (w + N) w), then the
    gather clamps the word into [0, N − 1]; a scatter instead drops a word outside [0, N). A word a scatter accepts
    for row n — its signed value is n, in range — is therefore read by a gather, after the move, at row n too.
  * A node weight of the form  select cond (rsqrt (max deg 1)) 0  is a nonnegative real number whatever the extended
    real deg and the condition: max deg 1 is at least 1, the reciprocal square root of a real at least 1 is a positive
    real, and of +∞ it is 0.
-/
import Idealize.ShloMosaic.PureOps.Ideal
import Idealize.ShloMosaic.Lib.Pipeline.Value
import Idealize.ShloMosaic.Lib.ValueIdx
import Idealize.ShloMosaic.Lib.ValueLayout
import proofs.«115143_j65317862637944_2_alg».proof.Proof.LibSegmentSum

noncomputable section

namespace Cert.IndexWords

open Idealize.ShloMosaic Idealize.ShloMosaic.ValueIdx Cert.SegmentSum

variable {α : Type}

/-- A vector [E] as a column [E, 1], at (e, u): the vector at e. -/
theorem column_apply {E : ℕ} (w : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h w (ix2 e u) = w (ix1 e) :=
  broadcastInDim_apply ![0] h w (ix2 e u) (ix1 e) (fun a => by
    match a with
    | ⟨0, _⟩ =>
      show e.val = if E = 1 then 0 else e.val
      split
      · have := e.isLt; omega
      · rfl)

/-- A column [E, 1] broadcast along its rows to [E, D], at (e, j): the column's entry of row e. -/
theorem rows_apply {E D : ℕ} (v : (⟨2, ![E, 1]⟩ : Shape).Idx → α)
    (h : (⟨2, ![E, 1]⟩ : Shape).BroadcastsInDim ⟨2, ![E, D]⟩ ![0, 1]) (e : Fin E) (j : Fin D) :
    broadcastInDim ⟨2, ![E, D]⟩ ![0, 1] h v (ix2 e j) = v (ix2 e (0 : Fin 1)) :=
  broadcastInDim_apply ![0, 1] h v (ix2 e j) (ix2 e (0 : Fin 1)) (fun a => by
    match a with
    | ⟨0, _⟩ =>
      show e.val = if E = 1 then 0 else e.val
      split
      · have := e.isLt; omega
      · rfl
    | ⟨1, _⟩ => rfl)

/-- A scalar broadcast to a whole shape reads the scalar everywhere. -/
theorem splat_apply {t : Shape} (x : (⟨0, ![]⟩ : Shape).Idx → α) (h0 : (⟨0, ![]⟩ : Shape).BroadcastsInDim t ![]) (i : t.Idx) :
    broadcastInDim t ![] h0 x i = x ix0 :=
  broadcastInDim_apply ![] h0 x i ix0 (fun a => a.elim0)

/-- The row of a table of N rows a gather reads for an index word: the word's signed value clamped into [0, N − 1]. -/
def clampRow (N : ℕ) (hN : 0 < N) (w : BitVec 32) : Fin N := ⟨min w.toInt.toNat (N - 1), by omega⟩

/-- A word a scatter accepts for row n is, after the move of negative words, read by a gather at row n. -/
theorem clampRow_normalized_of_target {N : ℕ} (hN : 0 < N) (k w : BitVec 32) (n : Fin N)
    (ht : rowTarget N w = some n) :
    clampRow N hN (Scalar.select (IntOp.cmpi .slt w 0#32) (IntOp.addi w k) w) = n := by
  unfold rowTarget at ht
  split at ht
  · next hr =>
    have hn : n = ⟨w.toInt.toNat, by omega⟩ := (Option.some.inj ht).symm
    have hslt : w.slt 0#32 = false := by
      rw [BitVec.slt_eq_decide]
      simp only [BitVec.toInt_zero, decide_eq_false_iff_not, not_lt]
      exact hr.1
    have hc : IntOp.cmpi .slt w 0#32 = 0#1 := by
      show BitVec.ofBool (w.slt 0#32) = 0#1
      rw [hslt]; rfl
    rw [hc, hn]
    show clampRow N hN (if (0#1 : BitVec 1) = 1 then IntOp.addi w k else w) = _
    rw [if_neg (by decide)]
    unfold clampRow
    refine Fin.ext ?_
    show min w.toInt.toNat (N - 1) = w.toInt.toNat
    omega
  · exact absurd ht (by simp)

/-! ## Gathers and scatter-adds whose start indices are an index vector viewed as a column -/

/-- A row gather at an index vector: row e of the result is the table's row at the clamped word of e. -/
theorem gather_rows_column {N E D : ℕ} (hN : 0 < N)
    (g : GatherDims ⟨2, ![N, D]⟩ ⟨2, ![E, 1]⟩ ⟨2, ![E, D]⟩)
    (ho : g.offsetDims = [1]) (hc : g.collapsedSliceDims = [0]) (hob : g.operandBatchingDims = [])
    (hsb : g.startIndicesBatchingDims = []) (hm : g.startIndexMap = [0]) (hv : g.indexVectorDim = 1)
    (hss : g.sliceSizes = ![1, D])
    (x : (⟨2, ![N, D]⟩ : Shape).Idx → α) (w : IVec ⟨1, ![E]⟩ 32)
    (h : (⟨1, ![E]⟩ : Shape).BroadcastsInDim ⟨2, ![E, 1]⟩ ![0]) (e : Fin E) (j : Fin D) :
    Host.gather g x (broadcastInDim ⟨2, ![E, 1]⟩ ![0] h w) (ix2 e j) = x (ix2 (clampRow N hN (w (ix1 e))) j) := by
  refine (gather_rows_apply hN g ho hc hob hsb hm hv hss x _ e j).trans ?_
  show x (ix2 (clampRow N hN (broadcastInDim ⟨2, ![E, 1]⟩ ![0] h w (ix2 e 0))) j) = _
  rw [column_apply]

/-- A gather from a flat table at an index vector. -/
theorem gather_table_column {N E : ℕ} (hN : 0 < N)
    (g : GatherDims ⟨1, ![N]⟩ ⟨2, ![E, 1]⟩ ⟨1, ![E]⟩)
    (ho : g.offsetDims = []) (hc : g.collapsedSliceDims = [0]) (hob : g.operandBatchingDims = [])
    (hsb : g.startIndicesBatchingDims = []) (hm : g.startIndexMap = [0]) (hv : g.indexVectorDim = 1)
    (hss : g.sliceSizes = ![1])
    (x : (⟨1, ![N]⟩ : Shape).Idx → α) (w : IVec ⟨1, ![E]⟩ 32)
    (h : (⟨1, ![E]⟩ : Shape).BroadcastsInDim ⟨2, ![E, 1]⟩ ![0]) (e : Fin E) :
    Host.gather g x (broadcastInDim ⟨2, ![E, 1]⟩ ![0] h w) (ix1 e) = x (ix1 (clampRow N hN (w (ix1 e)))) := by
  refine (gather_table_apply hN g ho hc hob hsb hm hv hss x _ e).trans ?_
  show x (ix1 (clampRow N hN (broadcastInDim ⟨2, ![E, 1]⟩ ![0] h w (ix2 e 0)))) = _
  rw [column_apply]

/-- The messages a scatter at the index vector w delivers to row n. -/
def arriving {E : ℕ} (N : ℕ) (w : IVec ⟨1, ![E]⟩ 32) (n : Fin N) : Finset (Fin E) :=
  Finset.univ.filter fun e : Fin E => rowTarget N (w (ix1 e)) = some n

/-- A scatter-add of rows at an index vector: entry (n, j) is the operand's plus column j of every update row whose word
    addresses row n. -/
theorem scatterAdd_rows_column {N E D : ℕ} (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : (⟨2, ![N, D]⟩ : Shape).Idx → EReal) (w : IVec ⟨1, ![E]⟩ 32)
    (h : (⟨1, ![E]⟩ : Shape).BroadcastsInDim ⟨2, ![E, 1]⟩ ![0])
    (upd : (⟨2, ![E, D]⟩ : Shape).Idx → EReal) (n : Fin N) (j : Fin D) :
    Host.scatterAdd (F := Ideal) (φ := .f32) d x (broadcastInDim ⟨2, ![E, 1]⟩ ![0] h w) upd (ix2 n j)
      = x (ix2 n j) + ∑ e ∈ arriving N w n, upd (ix2 e j) := by
  show Ideal.hostScatterAdd d x _ upd (ix2 n j) = _
  rw [hostScatterAdd_rows_apply _ j d hu hi hs hv x upd n]
  unfold arriving
  refine congrArg _ (Finset.sum_congr (Finset.filter_congr fun e _ => by rw [column_apply]) fun _ _ => rfl)

/-- The float word 0x3F800000 is the number one. -/
theorem ofBits_one_f32 : Ideal.ofBits .f32 0x3F800000#32 = 1 := by
  have h1 : Ideal.ofBits .f32 0x3F800000#32 = ((1 : ℝ) : EReal) := by
    simp [Ideal.ofBits, Ideal.ieee, -EReal.coe_mul]
    norm_num
  rw [h1, EReal.coe_one]

/-- A node weight  select cond (rsqrt (max deg 1)) 0  is a nonnegative real number. -/
theorem weight_nonneg_ne_top (deg : EReal) (cond : BitVec 1) :
    0 ≤ Scalar.select cond (Ideal.rsqrt (max deg (Ideal.ofBits .f32 0x3F800000#32))) (Ideal.ofBits .f32 0x00000000#32)
      ∧ Scalar.select cond (Ideal.rsqrt (max deg (Ideal.ofBits .f32 0x3F800000#32))) (Ideal.ofBits .f32 0x00000000#32) ≠ ⊤ := by
  have h1 : Ideal.ofBits .f32 0x3F800000#32 = ((1 : ℝ) : EReal) := by
    simp [Ideal.ofBits, Ideal.ieee, -EReal.coe_mul]
    norm_num
  have h0 : Ideal.ofBits .f32 0x00000000#32 = 0 := Ideal.ofBits_zero_f32
  rw [h1, h0]
  have hr : 0 ≤ Ideal.rsqrt (max deg ((1 : ℝ) : EReal)) ∧ Ideal.rsqrt (max deg ((1 : ℝ) : EReal)) ≠ ⊤ := by
    have hge : ((1 : ℝ) : EReal) ≤ max deg ((1 : ℝ) : EReal) := le_max_right _ _
    generalize max deg ((1 : ℝ) : EReal) = v at hge
    induction v using EReal.rec with
    | bot => exact absurd (le_bot_iff.mp hge) (EReal.coe_ne_bot 1)
    | top => rw [Ideal.rsqrt_top]; exact ⟨le_refl _, EReal.zero_ne_top⟩
    | coe r =>
      have hr1 : (1 : ℝ) ≤ r := EReal.coe_le_coe_iff.mp hge
      have hr0 : 0 < r := by linarith
      rw [Ideal.rsqrt_coe, if_neg (not_lt.mpr hr0.le), if_neg hr0.ne']
      refine ⟨EReal.coe_nonneg.mpr (inv_nonneg.mpr (Real.sqrt_nonneg r)), EReal.coe_ne_top _⟩
  show 0 ≤ (if cond = 1 then _ else (0 : EReal)) ∧ (if cond = 1 then _ else (0 : EReal)) ≠ ⊤
  split
  · exact hr
  · exact ⟨le_refl _, EReal.zero_ne_top⟩

end Cert.IndexWords

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«115143_j65317862637944_2_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.LibDenseLayer.lean ====
/-
  A host-side dense layer read at an entry, on the extended reals.

  jnp's  x @ W + b  lowers to a dot_general, the bias vector broadcast to a one-row matrix and then down the rows, and an
  add; a relu lowers to a maximum against the zero scalar broadcast to the whole shape. Read at entry (e, k):
  the broadcast bias is b[k] whatever the row; the zero splat is the extended real 0; the layer is Σ_j x[e,j]·W[j,k] + b[k].
-/
import Idealize.ShloMosaic.PureOps.Ideal.Laws
import Idealize.ShloMosaic.Lib.ValueIdx
import Idealize.ShloMosaic.Lib.Pipeline.Value
import proofs.«115143_j65317862637944_2_alg».proof.Proof.LibDotInnerHost

noncomputable section

open scoped BigOperators

namespace Idealize.ShloMosaic.DenseLayer

open Idealize.ShloMosaic Idealize.ShloMosaic.ValueIdx Idealize.ShloMosaic.DotInner

variable {n d h : ℕ}

/-- A vector broadcast to one row and then down n rows reads, at (e, k), the vector at k. -/
theorem bias_apply (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    broadcastInDim ⟨2, ![n, h]⟩ ![0, 1] h2 (broadcastInDim ⟨2, ![1, h]⟩ ![1] h1 b) (ix2 e k) = b (ix1 k) := by
  rw [broadcastInDim_apply ![0, 1] h2 _ (ix2 e k) (ix2 (0 : Fin 1) k) (fun a => by
        match a with
        | ⟨0, _⟩ => rfl
        | ⟨1, _⟩ =>
          show k.val = if h = 1 then 0 else k.val
          split
          · have := k.isLt; omega
          · rfl)]
  exact broadcastInDim_apply ![1] h1 b (ix2 (0 : Fin 1) k) (ix1 k) (fun a => by
        match a with
        | ⟨0, _⟩ =>
          show k.val = if h = 1 then 0 else k.val
          split
          · have := k.isLt; omega
          · rfl)

/-- The zero scalar broadcast to a whole shape reads the extended real 0 everywhere. -/
theorem zero_splat_apply {t : Shape} (h0 : (⟨0, ![]⟩ : Shape).BroadcastsInDim t ![]) (i : t.Idx) :
    broadcastInDim t ![] h0 (constant (F := Ideal) ⟨0, ![]⟩ .f32 0x00000000#32) i = 0 := by
  rw [broadcastInDim_apply ![] h0 _ i ix0 (fun a => a.elim0), constant_apply]
  exact Ideal.ofBits_zero_f32

/-- THE LAYER: a rows-by-columns host product plus the broadcast bias, at entry (e, k). -/
theorem dense_apply {D : DotDims ⟨2, ![n, d]⟩ ⟨2, ![d, h]⟩ ⟨2, ![n, h]⟩} (hD : Plain D)
    (x : (⟨2, ![n, d]⟩ : Shape).Idx → EReal) (W : (⟨2, ![d, h]⟩ : Shape).Idx → EReal) (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    addf (F := Ideal) (φ := .f32) (Host.dotGeneral (F := Ideal) (φ₁ := .f32) (φ₂ := .f32) D none x W)
        (broadcastInDim ⟨2, ![n, h]⟩ ![0, 1] h2 (broadcastInDim ⟨2, ![1, h]⟩ ![1] h1 b)) (ix2 e k)
      = (∑ j : Fin d, x (ix2 e j) * W (ix2 j k)) + b (ix1 k) := by
  rw [addf_apply, hD.dotGeneral, bias_apply]

end Idealize.ShloMosaic.DenseLayer

end
-- ==== Proof.LibColumnFlatten.lean ====
/-
  A column `[a, 1]` flattened to a vector `[a]`, read at an index given by its coordinate: the cast keeps the row-major
  position, and the unit axis contributes nothing to it, so entry `i` of the vector is entry `(i, 0)` of the column.
  (The reshape a `keepdims` reduction's result goes through when its kept axis is dropped again.)
-/
import Idealize.ShloMosaic.Lib.Pipeline.Value
import Idealize.ShloMosaic.Lib.ValueIdx

namespace Cert.LayoutFlatten

open Idealize.ShloMosaic Idealize.ShloMosaic.ValueIdx

variable {α : Type}

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_one, Shape.rowMajor_val_two]
    show i.val * 1 + 0 = i.val
    omega)

end Cert.LayoutFlatten
-- ==== Proof.LayerOneValue.lean ====
/-
  Layer 1 before aggregation, read off the first region's output array.

  The region walks the 100000 node rows in 20 blocks of 5000 rows. At block t it multiplies the block's rows of the
  embedding table by the weight matrix W1 (a [5000, 32] by [32, 64] product started from the zero splat) and scales
  row p of the product by the block's p-th node weight. Block t of every row-blocked array starts at row 5000 · t and
  the weight matrix is read whole at every block, so entry (r, j) of the output array is
  (Σ_k emb[r, k] · W1[k, j]) · dis[r, 0], for every row r: the twenty blocks tile the rows.
-/
import proofs.«115143_j65317862637944_2_alg».proof.Proof.Gen.KernelIdeal.Frame
import proofs.«115143_j65317862637944_2_alg».proof.Proof.Spec
import proofs.«115143_j65317862637944_2_alg».proof.Proof.LibDotInnerHost
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.LayerValue

open Cert.KernelIdeal Cert.KernelIdeal.Gen Idealize.ShloMosaic Idealize.ShloMosaic.TcCoe Idealize.SL.Sem
open Idealize.ShloMosaic.ValueIdx
open Idealize.ShloMosaic.Pipeline (Dat)

/-! ## The block's arithmetic at an entry -/

/-- A column [a, 1] broadcast along the lanes to [a, b] reads, at (p, c), the column's entry of row p. -/
private theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- What the body stores at (p, q) of its block, from the three blocks it loads: row p of the embedding block against
    column q of the weight matrix, scaled by the p-th node weight. -/
theorem layer1_block_apply (x0 : Vec Ideal S5000x32 .f32) (x1 : Vec Ideal S32x64 .f32) (x2 : Vec Ideal S5000x1 .f32)
    (p : Fin 5000) (q : Fin 64) :
    k0_pay1 x0 x1 x2 (ix2 p q) = (∑ k : Fin 32, x0 (ix2 p k) * x1 (ix2 k q)) * x2 (ix2 p (0 : Fin 1)) := by
  have hD : DotInner.Plain dot_S5000x32_S32x64_S5000x64_1_0_0_1_n_n :=
    plain_record dot_S5000x32_S32x64_S5000x64_1_0_0_1_n_n, S5000x32, S32x64
  unfold k0_pay1
  show matmul (F := Ideal) dot_S5000x32_S32x64_S5000x64_1_0_0_1_n_n none (truncf .bf16 x0 bitsLt_bf16_f32)
        (truncf .bf16 x1 bitsLt_bf16_f32) (constant (F := Ideal) S5000x64 .f32 0x00000000#32) (ix2 p q)
      * broadcastTo S5000x64 (shapeCast S5000x1 x2 shapeCasts_S5000x1_S5000x1) broadcasts_S5000x1_S5000x64 (ix2 p q) = _
  rw [shapeCast_self, column_broadcast_apply]
  refine congrArg (· * x2 (ix2 p (0 : Fin 1))) ?_
  exact hD.matmul_zero none _ _ p q

/-! ## The blocks as rows of the arrays -/

private theorem zeros2 : (![0, 0] : Fin 2 → Nat) = fun _ => 0 := funext fun a => by fin_cases a <;> rfl

/-- The index maps over the grid's twenty points: the three row-blocked windows sit at block (t, 0), the weight matrix
    at block (0, 0). -/
theorem layer1_blocks_at : ∀ t : Fin cfg0.N, t.val < 20
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The embedding window's block at point t is rows 5000 t … 5000 t + 4999 of the table. -/
theorem layer1_emb_block (c : Dev nD) (t : Fin cfg0.N) (y : S5000x32.Idx) (i : S100000x32.Idx)
    (hi0 : (i 0).val = 5000 * t.val + (y 0).val) (hi1 : (i 1).val = (y 1).val) :
    (iblk0 (F := Ideal) V c 0 t : Vec Ideal S5000x32 .f32) y = (V c (Pipeline.arrRef spec0 0) : S100000x32.Idx → EReal) i := by
  obtain ⟨-, e00, e01, -⟩ := layer1_blocks_at t
  unfold iblk0
  rw [View.read_apply]
  refine congrArg (V c (Pipeline.arrRef spec0 0) : S100000x32.Idx → EReal) ?_
  funext a
  apply Fin.ext
  match a with
  | ⟨0, _⟩ => show win0_0.index t (0 : Fin 2) * 5000 + 1 * (y 0).val = (i 0).val; omega
  | ⟨1, _⟩ => show win0_0.index t (1 : Fin 2) * 32 + 1 * (y 1).val = (i 1).val; omega

/-- The weight window's block is the whole matrix at every point. -/
theorem layer1_w_block (c : Dev nD) (t : Fin cfg0.N) (y : S32x64.Idx) :
    (iblk0 (F := Ideal) V c 1 t : Vec Ideal S32x64 .f32) y = (V c (Pipeline.arrRef spec0 1) : S32x64.Idx → EReal) y := by
  obtain ⟨-, -, -, e10, e11, -⟩ := layer1_blocks_at t
  unfold iblk0
  rw [View.read_apply]
  refine congrArg (V c (Pipeline.arrRef spec0 1) : S32x64.Idx → EReal) ?_
  funext a
  apply Fin.ext
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- The node-weight window's block at point t is rows 5000 t … 5000 t + 4999 of the column. -/
theorem layer1_dis_block (c : Dev nD) (t : Fin cfg0.N) (y : S5000x1.Idx) (i : S100000x1.Idx)
    (hi0 : (i 0).val = 5000 * t.val + (y 0).val) (hi1 : (i 1).val = (y 1).val) :
    (iblk0 (F := Ideal) V c 2 t : Vec Ideal S5000x1 .f32) y = (V c (Pipeline.arrRef spec0 2) : S100000x1.Idx → EReal) i := by
  obtain ⟨-, -, -, -, -, e20, e21, -⟩ := layer1_blocks_at t
  unfold iblk0
  rw [View.read_apply]
  refine congrArg (V c (Pipeline.arrRef spec0 2) : S100000x1.Idx → EReal) ?_
  funext a
  apply Fin.ext
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-! ## From the blocks to the array -/

/-- Layer 1 before aggregation as one array: entry (r, j) from row r of the embedding table, column j of the weight
    matrix and node r's weight. -/
def layer1Array (emb : S100000x32.Idx → EReal) (w1 : S32x64.Idx → EReal) (dis : S100000x1.Idx → EReal) :
    S100000x64.Idx → EReal :=
  fun i => Cert.Gcn.pre1 emb w1 dis (i 0) (i 1)

/-- The block's arithmetic against the arrays: if the loaded blocks hold row r of the table, the weight matrix and node
    r's weight where the body reads them, the body's entry (p, q) is the layer's entry (r, q). -/
theorem layer1_block_entry (emb : S100000x32.Idx → EReal) (w1 : S32x64.Idx → EReal) (dis : S100000x1.Idx → EReal)
    (x0 : Vec Ideal S5000x32 .f32) (x1 : Vec Ideal S32x64 .f32) (x2 : Vec Ideal S5000x1 .f32)
    (p : Fin 5000) (q : Fin 64) (r : Fin 100000)
    (h0 : ∀ k : Fin 32, x0 (ix2 p k) = emb (ix2 r k))
    (h1 : ∀ k : Fin 32, x1 (ix2 k q) = w1 (ix2 k q))
    (h2 : x2 (ix2 p (0 : Fin 1)) = dis (ix2 r (0 : Fin 1))) :
    k0_pay1 x0 x1 x2 (ix2 p q) = Cert.Gcn.pre1 emb w1 dis r q := by
  rw [layer1_block_apply, h2]
  unfold Cert.Gcn.pre1
  refine congrArg (· * dis (ix2 r (0 : Fin 1))) ?_
  exact Finset.sum_congr rfl fun k _ => by rw [h0, h1]

/-- What point t writes back is block t of the layer's array. -/
theorem layer1_flushed (c : Dev nD) (t : Fin cfg0.N) :
    (dat0 (F := Ideal) V c).flushed 3 t
      = ((cfg0.win 3).blk t).view.read (Elt Ideal)
          (layer1Array (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeros2]
  simp only [View.ld_unit_zero (S := S5000x32) zeros2, View.ld_unit_zero (S := S32x64) zeros2,
    View.ld_unit_zero (S := S5000x1) zeros2]
  obtain ⟨ht, -, -, -, -, -, -, e30, e31⟩ := layer1_blocks_at t
  funext j
  have hj0 : (j 0).val < 5000 := (j 0).isLt
  have hj1 : (j 1).val < 64 := (j 1).isLt
  have ej : (cfg0.win 3).xinj (grid0.coords t) j = ix2 (⟨(j 0).val, hj0⟩ : Fin 5000) (⟨(j 1).val, hj1⟩ : Fin 64) :=
    funext fun a => by match a with | ⟨0, _⟩ => rfl | ⟨1, _⟩ => rfl
  have er : (((cfg0.win 3).blk t).view.emb j) 0 = (⟨5000 * t.val + (j 0).val, by omega⟩ : Fin 100000) :=
    Fin.ext (by show win0_3.index t (0 : Fin 2) * 5000 + 1 * (j 0).val = 5000 * t.val + (j 0).val; omega)
  have eq : (((cfg0.win 3).blk t).view.emb j) 1 = (⟨(j 1).val, hj1⟩ : Fin 64) :=
    Fin.ext (by show win0_3.index t (1 : Fin 2) * 64 + 1 * (j 1).val = (j 1).val; omega)
  show k0_pay1 (iblk0 V c 0 t) (iblk0 V c 1 t) (iblk0 V c 2 t) ((cfg0.win 3).xinj (grid0.coords t) j)
      = Cert.Gcn.pre1 (V c (Pipeline.arrRef spec0 0)) (V c (Pipeline.arrRef spec0 1)) (V c (Pipeline.arrRef spec0 2))
          ((((cfg0.win 3).blk t).view.emb j) 0) ((((cfg0.win 3).blk t).view.emb j) 1)
  rw [ej]
  refine (layer1_block_entry (V c (Pipeline.arrRef spec0 0)) (V c (Pipeline.arrRef spec0 1)) (V c (Pipeline.arrRef spec0 2))
    (iblk0 V c 0 t) (iblk0 V c 1 t) (iblk0 V c 2 t) ⟨(j 0).val, hj0⟩ ⟨(j 1).val, hj1⟩ ⟨5000 * t.val + (j 0).val, by omega⟩
    (fun k => layer1_emb_block V c t _ _ rfl rfl) (fun k => layer1_w_block V c t _) (layer1_dis_block V c t _ _ rfl rfl)).trans ?_
  exact congrArg₂ (Cert.Gcn.pre1 (V c (Pipeline.arrRef spec0 0)) (V c (Pipeline.arrRef spec0 1)) (V c (Pipeline.arrRef spec0 2)))
    er.symm eq.symm

/-- An entry of the array lies in point t's block iff each of its coordinates lies in the block's range on that axis. -/
theorem layer1_mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v18).slice (win0_3.rect t)).set ↔ _
  rw [View.set_slice_whole, Rect.mem_set_unit]
  exact Iff.rfl

/-- The twenty blocks tile the rows: row r lies in the block of point r / 5000. -/
theorem layer1_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, e30, e31⟩ := layer1_blocks_at t
  refine ⟨t, flush0_3 t, ?_⟩
  rw [layer1_mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- The region's output array after its run is layer 1 before aggregation, of the three arrays as the region finds them. -/
theorem layer1_array_eq (c : Dev nD) :
    (dat0 (F := Ideal) V c).arrAt 3 cfg0.N
      = layer1Array (V c (Pipeline.arrRef spec0 0)) (V c (Pipeline.arrRef spec0 1)) (V c (Pipeline.arrRef spec0 2)) :=
  (dat0 V c).arrAt_eq_of_cover 3 _ (fun t _ => layer1_flushed V c t) layer1_cover

/-- Entry (r, j) of the region's output array: (Σ_k emb[r, k] · W1[k, j]) · dis[r, 0]. -/
theorem layer1_array (c : Dev nD) (r : Fin 100000) (j : Fin 64) :
    ((dat0 (F := Ideal) V c).arrAt 3 cfg0.N : S100000x64.Idx → EReal) (ix2 r j)
      = Cert.Gcn.pre1 (V c (Pipeline.arrRef spec0 0)) (V c (Pipeline.arrRef spec0 1)) (V c (Pipeline.arrRef spec0 2)) r j :=
  congrFun (layer1_array_eq V c) (ix2 r j)

end

end Cert.KernelIdeal.LayerValue

end
-- ==== Proof.LayerTwoValue.lean ====
/-
  Layer 2 before aggregation, read off the second region's output array.

  The region walks the 100000 node rows in 20 blocks of 5000 rows. At block t it rebuilds layer 1's output on the
  block's rows — the aggregated sum of row p scaled by the p-th node weight, the bias row added, clamped below at
  zero —, multiplies it by the weight matrix W2 (a [5000, 64] by [64, 64] product started from the zero splat) and
  scales row p of the product by the p-th node weight again. Block t of every row-blocked array starts at row
  5000 · t; the bias row and the weight matrix are read whole at every block. So entry (r, j) of the output array is
  (Σ_k max (dis[r, 0] · agg[r, k] + b1[0, k]) 0 · W2[k, j]) · dis[r, 0], for every row r: the twenty blocks tile
  the rows.
-/
import proofs.«115143_j65317862637944_2_alg».proof.Proof.Gen.KernelIdeal.Frame
import proofs.«115143_j65317862637944_2_alg».proof.Proof.Spec
import proofs.«115143_j65317862637944_2_alg».proof.Proof.LibDotInnerHost
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.LayerValue

open Cert.KernelIdeal Cert.KernelIdeal.Gen Idealize.ShloMosaic Idealize.ShloMosaic.TcCoe Idealize.SL.Sem
open Idealize.ShloMosaic.ValueIdx
open Idealize.ShloMosaic.Pipeline (Dat)

/-! ## The block's arithmetic at an entry -/

/-- A column [a, 1] broadcast along the lanes to [a, b] reads, at (p, c), the column's entry of row p. -/
private theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Layer 1's output on the block, entry (p, k): the aggregated sum scaled by the node weight, the bias added, clamped
    below at zero. -/
private theorem hidden_apply (x0 : Vec Ideal S5000x64 .f32) (x1 : Vec Ideal S5000x1 .f32) (x2 : Vec Ideal S1x64 .f32)
    (p : Fin 5000) (k : Fin 64) :
    maximumf (F := Ideal)
        (addf (mulf (broadcastTo S5000x64 (shapeCast S5000x1 x1 shapeCasts_S5000x1_S5000x1) broadcasts_S5000x1_S5000x64)
            (shapeCast S5000x64 x0 shapeCasts_S5000x64_S5000x64))
          (broadcastTo S5000x64 (shapeCast S1x64 x2 shapeCasts_S1x64_S1x64) broadcasts_S1x64_S5000x64))
        (broadcast S5000x64 (Scalar.ofBits (F := Ideal) .f32 0x00000000#32)) (ix2 p k)
      = max (x1 (ix2 p (0 : Fin 1)) * x0 (ix2 p k) + x2 (ix2 (0 : Fin 1) k)) 0 := by
  rw [maximumf_apply, addf_apply, mulf_apply, broadcast_apply, shapeCast_self, shapeCast_self, shapeCast_self,
    column_broadcast_apply, broadcastTo_1b_ab_apply]
  show max _ (Ideal.ofBits .f32 0x00000000#32) = _
  rw [Ideal.ofBits_zero_f32]

/-- What the body stores at (p, q) of its block, from the four blocks it loads: row p of layer 1's output against
    column q of the weight matrix, scaled by the p-th node weight. -/
theorem layer2_block_apply (x0 : Vec Ideal S5000x64 .f32) (x1 : Vec Ideal S5000x1 .f32) (x2 : Vec Ideal S1x64 .f32)
    (x3 : Vec Ideal S64x64 .f32) (p : Fin 5000) (q : Fin 64) :
    k1_pay1 x0 x1 x2 x3 (ix2 p q)
      = (∑ k : Fin 64, max (x1 (ix2 p (0 : Fin 1)) * x0 (ix2 p k) + x2 (ix2 (0 : Fin 1) k)) 0 * x3 (ix2 k q))
          * x1 (ix2 p (0 : Fin 1)) := by
  have hD : DotInner.Plain dot_S5000x64_S64x64_S5000x64_1_0_0_1_n_n :=
    plain_record dot_S5000x64_S64x64_S5000x64_1_0_0_1_n_n, S5000x64, S64x64
  unfold k1_pay1
  show matmul (F := Ideal) dot_S5000x64_S64x64_S5000x64_1_0_0_1_n_n none
        (truncf .bf16 (maximumf (F := Ideal)
          (addf (mulf (broadcastTo S5000x64 (shapeCast S5000x1 x1 shapeCasts_S5000x1_S5000x1) broadcasts_S5000x1_S5000x64)
              (shapeCast S5000x64 x0 shapeCasts_S5000x64_S5000x64))
            (broadcastTo S5000x64 (shapeCast S1x64 x2 shapeCasts_S1x64_S1x64) broadcasts_S1x64_S5000x64))
          (broadcast S5000x64 (Scalar.ofBits (F := Ideal) .f32 0x00000000#32))) bitsLt_bf16_f32)
        (truncf .bf16 x3 bitsLt_bf16_f32) (constant (F := Ideal) S5000x64 .f32 0x00000000#32) (ix2 p q)
      * broadcastTo S5000x64 (shapeCast S5000x1 x1 shapeCasts_S5000x1_S5000x1) broadcasts_S5000x1_S5000x64 (ix2 p q) = _
  refine congrArg₂ (· * ·) ?_ ?_
  · refine (hD.matmul_zero none _ _ p q).trans ?_
    refine Finset.sum_congr rfl fun k _ => ?_
    refine congrArg (· * x3 (ix2 k q)) ?_
    exact hidden_apply x0 x1 x2 p k
  · rw [column_broadcast_apply, shapeCast_self]

/-! ## The blocks as rows of the arrays -/

private theorem zeros2 : (![0, 0] : Fin 2 → Nat) = fun _ => 0 := funext fun a => by fin_cases a <;> rfl

/-- The index maps over the grid's twenty points: the three row-blocked windows sit at block (t, 0), the bias row and the
    weight matrix at block (0, 0). -/
theorem layer2_blocks_at : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- The aggregated window's block at point t is rows 5000 t … 5000 t + 4999 of the array. -/
theorem layer2_agg_block (c : Dev nD) (t : Fin cfg1.N) (y : S5000x64.Idx) (i : S100000x64.Idx)
    (hi0 : (i 0).val = 5000 * t.val + (y 0).val) (hi1 : (i 1).val = (y 1).val) :
    (iblk1 (F := Ideal) V c 0 t : Vec Ideal S5000x64 .f32) y = (V c (Pipeline.arrRef spec1 0) : S100000x64.Idx → EReal) i := by
  obtain ⟨-, e00, e01, -⟩ := layer2_blocks_at t
  unfold iblk1
  rw [View.read_apply]
  refine congrArg (V c (Pipeline.arrRef spec1 0) : S100000x64.Idx → EReal) ?_
  funext a
  apply Fin.ext
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- The node-weight window's block at point t is rows 5000 t … 5000 t + 4999 of the column. -/
theorem layer2_dis_block (c : Dev nD) (t : Fin cfg1.N) (y : S5000x1.Idx) (i : S100000x1.Idx)
    (hi0 : (i 0).val = 5000 * t.val + (y 0).val) (hi1 : (i 1).val = (y 1).val) :
    (iblk1 (F := Ideal) V c 1 t : Vec Ideal S5000x1 .f32) y = (V c (Pipeline.arrRef spec1 1) : S100000x1.Idx → EReal) i := by
  obtain ⟨-, -, -, e10, e11, -⟩ := layer2_blocks_at t
  unfold iblk1
  rw [View.read_apply]
  refine congrArg (V c (Pipeline.arrRef spec1 1) : S100000x1.Idx → EReal) ?_
  funext a
  apply Fin.ext
  match a with
  | ⟨0, _⟩ => show win1_1.index t (0 : Fin 2) * 5000 + 1 * (y 0).val = (i 0).val; omega
  | ⟨1, _⟩ => show win1_1.index t (1 : Fin 2) * 1 + 1 * (y 1).val = (i 1).val; omega

/-- The bias window's block is the whole row at every point. -/
theorem layer2_bias_block (c : Dev nD) (t : Fin cfg1.N) (y : S1x64.Idx) :
    (iblk1 (F := Ideal) V c 2 t : Vec Ideal S1x64 .f32) y = (V c (Pipeline.arrRef spec1 2) : S1x64.Idx → EReal) y := by
  obtain ⟨-, -, -, -, -, e20, e21, -⟩ := layer2_blocks_at t
  unfold iblk1
  rw [View.read_apply]
  refine congrArg (V c (Pipeline.arrRef spec1 2) : S1x64.Idx → EReal) ?_
  funext a
  apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The weight window's block is the whole matrix at every point. -/
theorem layer2_w_block (c : Dev nD) (t : Fin cfg1.N) (y : S64x64.Idx) :
    (iblk1 (F := Ideal) V c 3 t : Vec Ideal S64x64 .f32) y = (V c (Pipeline.arrRef spec1 3) : S64x64.Idx → EReal) y := by
  obtain ⟨-, -, -, -, -, -, -, e30, e31, -⟩ := layer2_blocks_at t
  unfold iblk1
  rw [View.read_apply]
  refine congrArg (V c (Pipeline.arrRef spec1 3) : S64x64.Idx → EReal) ?_
  funext a
  apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-! ## From the blocks to the array -/

/-- Layer 2 before aggregation as one array: entry (r, j) from row r of the aggregated array, node r's weight, the bias
    row and column j of the weight matrix. -/
def layer2Array (agg : S100000x64.Idx → EReal) (dis : S100000x1.Idx → EReal) (b1 : S1x64.Idx → EReal)
    (w2 : S64x64.Idx → EReal) : S100000x64.Idx → EReal :=
  fun i => Cert.Gcn.pre2 agg dis b1 w2 (i 0) (i 1)

/-- The block's arithmetic against the arrays: if the loaded blocks hold row r of the aggregated array, node r's weight,
    the bias row and the weight matrix where the body reads them, the body's entry (p, q) is the layer's entry (r, q). -/
theorem layer2_block_entry (agg : S100000x64.Idx → EReal) (dis : S100000x1.Idx → EReal) (b1 : S1x64.Idx → EReal)
    (w2 : S64x64.Idx → EReal)
    (x0 : Vec Ideal S5000x64 .f32) (x1 : Vec Ideal S5000x1 .f32) (x2 : Vec Ideal S1x64 .f32) (x3 : Vec Ideal S64x64 .f32)
    (p : Fin 5000) (q : Fin 64) (r : Fin 100000)
    (h0 : ∀ k : Fin 64, x0 (ix2 p k) = agg (ix2 r k))
    (h1 : x1 (ix2 p (0 : Fin 1)) = dis (ix2 r (0 : Fin 1)))
    (h2 : ∀ k : Fin 64, x2 (ix2 (0 : Fin 1) k) = b1 (ix2 (0 : Fin 1) k))
    (h3 : ∀ k : Fin 64, x3 (ix2 k q) = w2 (ix2 k q)) :
    k1_pay1 x0 x1 x2 x3 (ix2 p q) = Cert.Gcn.pre2 agg dis b1 w2 r q := by
  rw [layer2_block_apply, h1]
  unfold Cert.Gcn.pre2
  refine congrArg (· * dis (ix2 r (0 : Fin 1))) ?_
  exact Finset.sum_congr rfl fun k _ => by rw [h0, h2, h3]

/-- What point t writes back is block t of the layer's array. -/
theorem layer2_flushed (c : Dev nD) (t : Fin cfg1.N) :
    (dat1 (F := Ideal) V c).flushed 4 t
      = ((cfg1.win 4).blk t).view.read (Elt Ideal)
          (layer2Array (V c (Pipeline.arrRef spec1 0)) (V c (Pipeline.arrRef spec1 1)) (V c (Pipeline.arrRef spec1 2))
            (V c (Pipeline.arrRef spec1 3))) := by
  show (cfg1.win 4).cut (grid1.coords t) ((dat1 V c).after 4 t) = _
  rw [after1_4]
  unfold out1_4
  rw [View.canon_unit_zero zeros2]
  simp only [View.ld_unit_zero (S := S5000x64) zeros2, View.ld_unit_zero (S := S5000x1) zeros2,
    View.ld_unit_zero (S := S1x64) zeros2, View.ld_unit_zero (S := S64x64) zeros2]
  obtain ⟨ht, -, -, -, -, -, -, -, -, e40, e41⟩ := layer2_blocks_at t
  funext j
  have hj0 : (j 0).val < 5000 := (j 0).isLt
  have hj1 : (j 1).val < 64 := (j 1).isLt
  have ej : (cfg1.win 4).xinj (grid1.coords t) j = ix2 (⟨(j 0).val, hj0⟩ : Fin 5000) (⟨(j 1).val, hj1⟩ : Fin 64) :=
    funext fun a => by match a with | ⟨0, _⟩ => rfl | ⟨1, _⟩ => rfl
  have er : (((cfg1.win 4).blk t).view.emb j) 0 = (⟨5000 * t.val + (j 0).val, by omega⟩ : Fin 100000) :=
    Fin.ext (by show win1_4.index t (0 : Fin 2) * 5000 + 1 * (j 0).val = 5000 * t.val + (j 0).val; omega)
  have eq : (((cfg1.win 4).blk t).view.emb j) 1 = (⟨(j 1).val, hj1⟩ : Fin 64) :=
    Fin.ext (by show win1_4.index t (1 : Fin 2) * 64 + 1 * (j 1).val = (j 1).val; omega)
  show k1_pay1 (iblk1 V c 0 t) (iblk1 V c 1 t) (iblk1 V c 2 t) (iblk1 V c 3 t) ((cfg1.win 4).xinj (grid1.coords t) j)
      = Cert.Gcn.pre2 (V c (Pipeline.arrRef spec1 0)) (V c (Pipeline.arrRef spec1 1)) (V c (Pipeline.arrRef spec1 2))
          (V c (Pipeline.arrRef spec1 3)) ((((cfg1.win 4).blk t).view.emb j) 0) ((((cfg1.win 4).blk t).view.emb j) 1)
  rw [ej]
  refine (layer2_block_entry (V c (Pipeline.arrRef spec1 0)) (V c (Pipeline.arrRef spec1 1)) (V c (Pipeline.arrRef spec1 2))
    (V c (Pipeline.arrRef spec1 3)) (iblk1 V c 0 t) (iblk1 V c 1 t) (iblk1 V c 2 t) (iblk1 V c 3 t)
    ⟨(j 0).val, hj0⟩ ⟨(j 1).val, hj1⟩ ⟨5000 * t.val + (j 0).val, by omega⟩
    (fun k => layer2_agg_block V c t _ _ rfl rfl) (layer2_dis_block V c t _ _ rfl rfl)
    (fun k => layer2_bias_block V c t _) (fun k => layer2_w_block V c t _)).trans ?_
  exact congrArg₂ (Cert.Gcn.pre2 (V c (Pipeline.arrRef spec1 0)) (V c (Pipeline.arrRef spec1 1)) (V c (Pipeline.arrRef spec1 2))
    (V c (Pipeline.arrRef spec1 3))) er.symm eq.symm

/-- An entry of the array lies in point t's block iff each of its coordinates lies in the block's range on that axis. -/
theorem layer2_mem_block (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v30).slice (win1_4.rect t)).set ↔ _
  rw [View.set_slice_whole, Rect.mem_set_unit]
  exact Iff.rfl

/-- The twenty blocks tile the rows: row r lies in the block of point r / 5000. -/
theorem layer2_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, e40, e41⟩ := layer2_blocks_at t
  refine ⟨t, flush1_4 t, ?_⟩
  rw [layer2_mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- The region's output array after its run is layer 2 before aggregation, of the four arrays as the region finds them. -/
theorem layer2_array_eq (c : Dev nD) :
    (dat1 (F := Ideal) V c).arrAt 4 cfg1.N
      = layer2Array (V c (Pipeline.arrRef spec1 0)) (V c (Pipeline.arrRef spec1 1)) (V c (Pipeline.arrRef spec1 2))
          (V c (Pipeline.arrRef spec1 3)) :=
  (dat1 V c).arrAt_eq_of_cover 4 _ (fun t _ => layer2_flushed V c t) layer2_cover

/-- Entry (r, j) of the region's output array: (Σ_k max (dis[r, 0] · agg[r, k] + b1[0, k]) 0 · W2[k, j]) · dis[r, 0]. -/
theorem layer2_array (c : Dev nD) (r : Fin 100000) (j : Fin 64) :
    ((dat1 (F := Ideal) V c).arrAt 4 cfg1.N : S100000x64.Idx → EReal) (ix2 r j)
      = Cert.Gcn.pre2 (V c (Pipeline.arrRef spec1 0)) (V c (Pipeline.arrRef spec1 1)) (V c (Pipeline.arrRef spec1 2))
          (V c (Pipeline.arrRef spec1 3)) r j :=
  congrFun (layer2_array_eq V c) (ix2 r j)

end

end Cert.KernelIdeal.LayerValue

end
-- ==== Proof.KernelArrays.lean ====
/- The arrays the three regions of the idealized kernel are entered with, and its result, as terms of the launch
   memory: the buffer contents at every segment boundary are a fold of the host stretches and the regions from the
   launch memory, and here each buffer a region reads is walked back through that fold. A stretch's result buffer is
   its operations applied to what they read; a buffer no operation of a stretch writes keeps its contents through
   it; a region leaves each of its input arrays, and every buffer that is none of its arrays, as entered, and its
   output array at what its write-backs leave. So region 0 is entered with the features, the first weight and the
   degree column; region 1 with region 0's output propagated over the edges; region 2 with region 1's output
   propagated over the edges and read at the batch's nodes; and the result is region 2's output column as a vector. -/
import proofs.«115143_j65317862637944_2_alg».proof.Proof.Gen.KernelIdeal.Frame
import proofs.«115143_j65317862637944_2_alg».proof.Proof.LibTypedRefs
import Idealize.ShloMosaic.Lib.StableHlo.Run
import Idealize.ShloMosaic.Lib.Pipeline.Value
import Idealize.ShloMosaic.PureOps.Ideal

set_option maxRecDepth 16384

noncomputable section

namespace Cert.KernelIdeal.KRun

open Idealize.ShloMosaic Idealize.ShloMosaic.TcCoe Idealize.ShloMosaic.Tactic
open Idealize.SL Idealize.SL.Sem
open Idealize.ShloMosaic.StableHlo (after_cons after_nil)
open Cert.KernelIdeal.Gen

variable (m : (ℓ : Loc nD τ sig) → Buf (Elt Ideal) ℓ) (ρ : Dev nD → PrngReg)

/-- The source node of every edge, self loops appended: row 0 of the edge index followed by 0, 1, …, 99999. -/
def rowW (c : Dev nD) : IVec S3300000 32 :=
  concatenate S3300000 0
    [⟨S3200000, shapeCast S3200000 (extractStridedSlice S1x3200000 ![0, 0] (m ((c : Thread nD τ).loc main_arg0)) slices_S2x3200000_S1x3200000_0_0) shapeCasts_S1x3200000_S3200000⟩,
     ⟨S100000, iotaInDim S100000 32 0⟩] concatenates_S3200000_S100000_S3300000_d0

/-- The target node of every edge, self loops appended: row 1 of the edge index followed by 0, 1, …, 99999. -/
def colW (c : Dev nD) : IVec S3300000 32 :=
  concatenate S3300000 0
    [⟨S3200000, shapeCast S3200000 (extractStridedSlice S1x3200000 ![1, 0] (m ((c : Thread nD τ).loc main_arg0)) slices_S2x3200000_S1x3200000_1_0) shapeCasts_S1x3200000_S3200000⟩,
     ⟨S100000, iotaInDim S100000 32 0⟩] concatenates_S3200000_S100000_S3300000_d0

/-- The degree of every node: a one added at the target of every edge (self loops included), from zero. -/
def degW (c : Dev nD) : FVec Ideal S100000 .f32 :=
  Host.scatterAdd scatter_S100000_S3300000x1_S3300000_n_0_0_1
    (broadcastInDim S100000 ![] bcast_S_S100000 (constant (F := Ideal) S_ .f32 0x00000000#32))
    (broadcastInDim S3300000x1 ![0] bcast_S3300000_S3300000x1_0 (colW m c))
    (broadcastInDim S3300000 ![] bcast_S_S3300000 (constant (F := Ideal) S_ .f32 0x3F800000#32))

/-- The inverse square root of the degree where the degree is positive and zero elsewhere, as a column. -/
def disCol (c : Dev nD) : FVec Ideal S100000x1 .f32 :=
  shapeCast S100000x1
    (select (cmpf .ogt (degW m c) (broadcastInDim S100000 ![] bcast_S_S100000 (constant (F := Ideal) S_ .f32 0x00000000#32)))
      (Host.rsqrt (maximumf (degW m c) (broadcastInDim S100000 ![] bcast_S_S100000 (constant (F := Ideal) S_ .f32 0x3F800000#32))))
      (broadcastInDim S100000 ![] bcast_S_S100000 (constant (F := Ideal) S_ .f32 0x00000000#32)))
    shapeCasts_S100000_S100000x1

/-- An edge endpoint as a row number: a negative index counts from the end (100000 is added to it). -/
def nrmE (w : IVec S3300000 32) : IVec S3300000 32 :=
  select (cmpi .slt w (broadcastInDim S3300000 ![] bcast_S_S3300000 (constantI S_ 32 0#32)))
    (addi w (broadcastInDim S3300000 ![] bcast_S_S3300000 (constantI S_ 32 100000#32))) w

/-- A batch entry's node number as a row number: a negative index counts from the end (100000 is added to it). -/
def nrmB (w : IVec S16384 32) : IVec S16384 32 :=
  select (cmpi .slt w (broadcastInDim S16384 ![] bcast_S_S16384 (constantI S_ 32 0#32)))
    (addi w (broadcastInDim S16384 ![] bcast_S_S16384 (constantI S_ 32 100000#32))) w

/-- One round of message passing over the edges: row `colW` of the result is the sum, over the edges into it, of the
    rows of `h` at the edges' sources. -/
def propagate (h : FVec Ideal S100000x64 .f32) (r cl : IVec S3300000 32) : FVec Ideal S100000x64 .f32 :=
  Host.scatterAdd scatter_S100000x64_S3300000x1_S3300000x64_1_0_0_1
    (broadcastInDim S100000x64 ![] bcast_S_S100000x64 (constant (F := Ideal) S_ .f32 0x00000000#32))
    (broadcastInDim S3300000x1 ![0] bcast_S3300000_S3300000x1_0 cl)
    (Host.gather gather_S100000x64_S3300000x1_S3300000x64_1_0_n_n_0_1_164 h
      (broadcastInDim S3300000x1 ![0] bcast_S3300000_S3300000x1_0 (nrmE r)))

/-! ## A buffer a stretch of host operations does not write keeps its contents

For each stretch, the list of the references its operations write, and: a reference different from each of them
reads the same before and after the stretch, whatever the contents before. -/

/-- The references the operations of `hostOps0` write, in order. -/
def wr0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]

theorem keep0 (V : Valuation τ sig (Elt Ideal)) (b : Ref sig .tc) (hb : ∀ y ∈ wr0, b ≠ y) :
    StableHlo.after hostOps0 V (Proc.devRef .tc b) = V (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-- The references the operations of `hostOps0_1` write, in order. -/
def wr0_1 : List (Ref sig .tc) := [main_call0_v0, main_call0_v1, main_v16]

theorem keep0_1 (V : Valuation τ sig (Elt Ideal)) (b : Ref sig .tc) (hb : ∀ y ∈ wr0_1, b ≠ y) :
    StableHlo.after hostOps0_1 V (Proc.devRef .tc b) = V (Proc.devRef .tc b) := by
  refine StableHlo.after_of_forall_not_mem (b := Proc.devRef .tc b) _ _ (List.forall_iff_forall_mem.mp ?_)
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-- The references the operations of `hostOps0_2` write, in order. -/
def wr0_2 : List (Ref sig .tc) := [main_v17]

theorem keep0_2 (V : Valuation τ sig (Elt Ideal)) (b : Ref sig .tc) (hb : ∀ y ∈ wr0_2, b ≠ y) :
    StableHlo.after hostOps0_2 V (Proc.devRef .tc b) = V (Proc.devRef .tc b) := by
  refine StableHlo.after_of_forall_not_mem (b := Proc.devRef .tc b) _ _ (List.forall_iff_forall_mem.mp ?_)
  simp only [hostOps0_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-- The references the operations of `hostOps1` write, in order. -/
def wr1 : List (Ref sig .tc) := [main_c, main_v19, main_v20, main_c_4, main_v21, main_v22, main_v23, main_v24, main_v25, main_cst_5, main_v26, main_v27, main_v28, main_v29]

theorem keep1 (V : Valuation τ sig (Elt Ideal)) (b : Ref sig .tc) (hb : ∀ y ∈ wr1, b ≠ y) :
    StableHlo.after hostOps1 V (Proc.devRef .tc b) = V (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-- The references the operations of `hostOps2` write, in order. -/
def wr2 : List (Ref sig .tc) := [main_c_6, main_v31, main_v32, main_c_7, main_v33, main_v34, main_v35, main_v36, main_v37, main_cst_8, main_v38, main_v39, main_v40, main_c_9, main_v41, main_v42, main_c_10, main_v43, main_v44, main_v45, main_v46, main_v47, main_c_11, main_v48, main_v49, main_c_12, main_v50, main_v51, main_v52, main_v53, main_v54, main_v55, main_v56, main_v57, main_v58, main_v59, main_v60, main_v61]

theorem keep2 (V : Valuation τ sig (Elt Ideal)) (b : Ref sig .tc) (hb : ∀ y ∈ wr2, b ≠ y) :
    StableHlo.after hostOps2 V (Proc.devRef .tc b) = V (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-- The references the operations of `hostOps3` write, in order. -/
def wr3 : List (Ref sig .tc) := [main_v63]

theorem keep3 (V : Valuation τ sig (Elt Ideal)) (b : Ref sig .tc) (hb : ∀ y ∈ wr3, b ≠ y) :
    StableHlo.after hostOps3 V (Proc.devRef .tc b) = V (Proc.devRef .tc b) := by
  refine StableHlo.after_of_forall_not_mem (b := Proc.devRef .tc b) _ _ (List.forall_iff_forall_mem.mp ?_)
  simp only [hostOps3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-! ## The first stretch's results, from the launch memory -/

theorem W1_v5 (c : Dev nD) : W1 m ρ c (Proc.devRef .tc main_v5) = rowW m c := by
  show StableHlo.after hostOps0 (W0 m ρ c) (Proc.devRef .tc main_v5) = _
  after_results
  rfl

theorem W1_v6 (c : Dev nD) : W1 m ρ c (Proc.devRef .tc main_v6) = colW m c := by
  show StableHlo.after hostOps0 (W0 m ρ c) (Proc.devRef .tc main_v6) = _
  after_results
  rfl

theorem W1_v12 (c : Dev nD) : W1 m ρ c (Proc.devRef .tc main_v12) = cmpf .ogt (degW m c) (broadcastInDim S100000 ![] bcast_S_S100000 (constant (F := Ideal) S_ .f32 0x00000000#32)) := by
  show StableHlo.after hostOps0 (W0 m ρ c) (Proc.devRef .tc main_v12) = _
  after_results
  rfl

theorem W1_v15 (c : Dev nD) : W1 m ρ c (Proc.devRef .tc main_v15) = Host.rsqrt (maximumf (degW m c) (broadcastInDim S100000 ![] bcast_S_S100000 (constant (F := Ideal) S_ .f32 0x3F800000#32))) := by
  show StableHlo.after hostOps0 (W0 m ρ c) (Proc.devRef .tc main_v15) = _
  after_results
  rfl

theorem W1_cst_3 (c : Dev nD) : W1 m ρ c (Proc.devRef .tc main_cst_3) = constant (F := Ideal) S_ .f32 0x00000000#32 := by
  show StableHlo.after hostOps0 (W0 m ρ c) (Proc.devRef .tc main_cst_3) = _
  after_results

/-! ## What each stretch of host operations leaves in the buffers the regions read, from any contents -/

theorem after0_1_v16 (V : Valuation τ sig (Elt Ideal)) (a : IVec S100000 1) (x : FVec Ideal S100000 .f32) (z : FVec Ideal S_ .f32)
    (ha : V (Proc.devRef .tc main_v12) = a) (hx : V (Proc.devRef .tc main_v15) = x) (hz : V (Proc.devRef .tc main_cst_3) = z) :
    StableHlo.after hostOps0_1 V (Proc.devRef .tc main_v16) = select a x (broadcastInDim S100000 ![] bcast_S_S100000 z) := by
  after_results
  simp only [StableHlo.TRef.ofBuf_toBuf]
  rw [ha, hx, hz]
  rfl

theorem after0_2_v17 (V : Valuation τ sig (Elt Ideal)) (x : FVec Ideal S100000 .f32) (hx : V (Proc.devRef .tc main_v16) = x) :
    StableHlo.after hostOps0_2 V (Proc.devRef .tc main_v17) = shapeCast S100000x1 x shapeCasts_S100000_S100000x1 := by
  after_results
  rw [hx]
  rfl

theorem after1_v28 (V : Valuation τ sig (Elt Ideal)) (h : FVec Ideal S100000x64 .f32) (r cl : IVec S3300000 32)
    (hh : V (Proc.devRef .tc main_v18) = h) (hr : V (Proc.devRef .tc main_v5) = r) (hc : V (Proc.devRef .tc main_v6) = cl) :
    StableHlo.after hostOps1 V (Proc.devRef .tc main_v28) = propagate h r cl := by
  after_results_simp
  rw [hh, hr, hc]
  rfl

theorem after1_v29 (V : Valuation τ sig (Elt Ideal)) (x : FVec Ideal S64 .f32) (hx : V (Proc.devRef .tc main_arg5) = x) :
    StableHlo.after hostOps1 V (Proc.devRef .tc main_v29) = shapeCast S1x64 x shapeCasts_S64_S1x64 := by
  after_results_simp
  rw [hx]
  rfl

set_option maxHeartbeats 1000000 in
theorem after2_v47 (V : Valuation τ sig (Elt Ideal)) (h : FVec Ideal S100000x64 .f32) (r cl : IVec S3300000 32) (d : IVec S16384 32)
    (hh : V (Proc.devRef .tc main_v30) = h) (hr : V (Proc.devRef .tc main_v5) = r) (hc : V (Proc.devRef .tc main_v6) = cl)
    (hd : V (Proc.devRef .tc main_arg1) = d) :
    StableHlo.after hostOps2 V (Proc.devRef .tc main_v47)
      = Host.gather gather_S100000x64_S16384x1_S16384x64_1_0_n_n_0_1_164 (propagate h r cl) (broadcastInDim S16384x1 ![0] bcast_S16384_S16384x1_0 (nrmB d)) := by
  after_results_simp
  rw [hh, hr, hc, hd]
  rfl

set_option maxHeartbeats 1000000 in
theorem after2_v54 (V : Valuation τ sig (Elt Ideal)) (x : FVec Ideal S100000x1 .f32) (d : IVec S16384 32)
    (hx : V (Proc.devRef .tc main_v17) = x) (hd : V (Proc.devRef .tc main_arg1) = d) :
    StableHlo.after hostOps2 V (Proc.devRef .tc main_v54)
      = Host.gather gather_S100000x1_S16384x1_S16384x1_1_0_n_n_0_1_11 x (broadcastInDim S16384x1 ![0] bcast_S16384_S16384x1_0 (nrmB d)) := by
  after_results_simp
  rw [hx, hd]
  rfl

theorem after2_v55 (V : Valuation τ sig (Elt Ideal)) (x : FVec Ideal S96x64 .f32) (hx : V (Proc.devRef .tc main_arg12) = x) :
    StableHlo.after hostOps2 V (Proc.devRef .tc main_v55) = extractStridedSlice S64x64 ![0, 0] x slices_S96x64_S64x64_0_0 := by
  after_results_simp
  rw [hx]

theorem after2_v56 (V : Valuation τ sig (Elt Ideal)) (x : FVec Ideal S96x64 .f32) (hx : V (Proc.devRef .tc main_arg12) = x) :
    StableHlo.after hostOps2 V (Proc.devRef .tc main_v56) = extractStridedSlice S32x64 ![64, 0] x slices_S96x64_S32x64_64_0 := by
  after_results_simp
  rw [hx]

theorem after2_v57 (V : Valuation τ sig (Elt Ideal)) (x : FVec Ideal S64 .f32) (hx : V (Proc.devRef .tc main_arg7) = x) :
    StableHlo.after hostOps2 V (Proc.devRef .tc main_v57) = shapeCast S1x64 x shapeCasts_S64_S1x64 := by
  after_results_simp
  rw [hx]
  rfl

theorem after2_v58 (V : Valuation τ sig (Elt Ideal)) (x : FVec Ideal S32 .f32) (hx : V (Proc.devRef .tc main_arg9) = x) :
    StableHlo.after hostOps2 V (Proc.devRef .tc main_v58) = shapeCast S1x32 x shapeCasts_S32_S1x32 := by
  after_results_simp
  rw [hx]
  rfl

theorem after2_v59 (V : Valuation τ sig (Elt Ideal)) (x : FVec Ideal S32 .f32) (hx : V (Proc.devRef .tc main_arg11) = x) :
    StableHlo.after hostOps2 V (Proc.devRef .tc main_v59) = shapeCast S1x32 x shapeCasts_S32_S1x32 := by
  after_results_simp
  rw [hx]
  rfl

theorem after2_v60 (V : Valuation τ sig (Elt Ideal)) (x : FVec Ideal S64 .f32) (hx : V (Proc.devRef .tc main_arg13) = x) :
    StableHlo.after hostOps2 V (Proc.devRef .tc main_v60) = shapeCast S1x64 x shapeCasts_S64_S1x64 := by
  after_results_simp
  rw [hx]
  rfl

theorem after2_v61 (V : Valuation τ sig (Elt Ideal)) (x : FVec Ideal S1 .f32) (hx : V (Proc.devRef .tc main_arg15) = x) :
    StableHlo.after hostOps2 V (Proc.devRef .tc main_v61) = shapeCast S1x1 x shapeCasts_S1_S1x1 := by
  after_results_simp
  rw [hx]
  rfl

theorem after3_v63 (V : Valuation τ sig (Elt Ideal)) (x : FVec Ideal S16384x1 .f32) (hx : V (Proc.devRef .tc main_v62) = x) :
    StableHlo.after hostOps3 V (Proc.devRef .tc main_v63) = shapeCast S16384 x shapeCasts_S16384x1_S16384 := by
  after_results
  rw [hx]
  rfl

/-! ## The boundaries: the buffers the regions read, walked back through the fold -/

/-- A buffer no host operation before region 0 writes holds its launch contents when region 0 is entered. -/
theorem W3_launch (c : Dev nD) (b : Ref sig .tc) (h0 : ∀ y ∈ wr0, b ≠ y) (h1 : ∀ y ∈ wr0_1, b ≠ y) (h2 : ∀ y ∈ wr0_2, b ≠ y) :
    W3 m ρ c (Proc.devRef .tc b) = m ((c : Thread nD τ).loc b) :=
  (keep0_2 (W2 m ρ c) b h2).trans ((keep0_1 (W1 m ρ c) b h1).trans (keep0 (W0 m ρ c) b h0))

/-- … and, if it is no array of region 0, when region 0 is left. -/
theorem W4_launch (c : Dev nD) (b : Ref sig .tc) (h0 : ∀ y ∈ wr0, b ≠ y) (h1 : ∀ y ∈ wr0_1, b ≠ y) (h2 : ∀ y ∈ wr0_2, b ≠ y)
    (hr0 : ∀ w, Pipeline.arrRef spec0 w ≠ b) :
    W4 m ρ c (Proc.devRef .tc b) = m ((c : Thread nD τ).loc b) :=
  (W4_of_ne m ρ c b hr0).trans (W3_launch m ρ c b h0 h1 h2)

/-- … and, if the stretch before region 1 does not write it, when region 1 is entered. -/
theorem W5_launch (c : Dev nD) (b : Ref sig .tc) (h0 : ∀ y ∈ wr0, b ≠ y) (h1 : ∀ y ∈ wr0_1, b ≠ y) (h2 : ∀ y ∈ wr0_2, b ≠ y)
    (hr0 : ∀ w, Pipeline.arrRef spec0 w ≠ b) (h3 : ∀ y ∈ wr1, b ≠ y) :
    W5 m ρ c (Proc.devRef .tc b) = m ((c : Thread nD τ).loc b) :=
  (keep1 (W4 m ρ c) b h3).trans (W4_launch m ρ c b h0 h1 h2 hr0)

/-- … and, if it is no array of region 1, when region 1 is left. -/
theorem W6_launch (c : Dev nD) (b : Ref sig .tc) (h0 : ∀ y ∈ wr0, b ≠ y) (h1 : ∀ y ∈ wr0_1, b ≠ y) (h2 : ∀ y ∈ wr0_2, b ≠ y)
    (hr0 : ∀ w, Pipeline.arrRef spec0 w ≠ b) (h3 : ∀ y ∈ wr1, b ≠ y) (hr1 : ∀ w, Pipeline.arrRef spec1 w ≠ b) :
    W6 m ρ c (Proc.devRef .tc b) = m ((c : Thread nD τ).loc b) :=
  (W6_of_ne m ρ c b hr1).trans (W5_launch m ρ c b h0 h1 h2 hr0 h3)

/-- … and, if the stretch before region 2 does not write it, when region 2 is entered. -/
theorem W7_launch (c : Dev nD) (b : Ref sig .tc) (h0 : ∀ y ∈ wr0, b ≠ y) (h1 : ∀ y ∈ wr0_1, b ≠ y) (h2 : ∀ y ∈ wr0_2, b ≠ y)
    (hr0 : ∀ w, Pipeline.arrRef spec0 w ≠ b) (h3 : ∀ y ∈ wr1, b ≠ y) (hr1 : ∀ w, Pipeline.arrRef spec1 w ≠ b)
    (h4 : ∀ y ∈ wr2, b ≠ y) :
    W7 m ρ c (Proc.devRef .tc b) = m ((c : Thread nD τ).loc b) :=
  (keep2 (W6 m ρ c) b h4).trans (W6_launch m ρ c b h0 h1 h2 hr0 h3 hr1)

/-! ### The edge endpoints: written by the first stretch, read by the stretches before regions 1 and 2 -/

theorem W4_v5 (c : Dev nD) : W4 m ρ c (Proc.devRef .tc main_v5) = rowW m c :=
  (W4_of_ne m ρ c main_v5 (by decide)).trans ((keep0_2 (W2 m ρ c) main_v5 (by decide)).trans
    ((keep0_1 (W1 m ρ c) main_v5 (by decide)).trans (W1_v5 m ρ c)))
theorem W4_v6 (c : Dev nD) : W4 m ρ c (Proc.devRef .tc main_v6) = colW m c :=
  (W4_of_ne m ρ c main_v6 (by decide)).trans ((keep0_2 (W2 m ρ c) main_v6 (by decide)).trans
    ((keep0_1 (W1 m ρ c) main_v6 (by decide)).trans (W1_v6 m ρ c)))
theorem W6_v5 (c : Dev nD) : W6 m ρ c (Proc.devRef .tc main_v5) = rowW m c :=
  (W6_of_ne m ρ c main_v5 (by decide)).trans ((keep1 (W4 m ρ c) main_v5 (by decide)).trans (W4_v5 m ρ c))
theorem W6_v6 (c : Dev nD) : W6 m ρ c (Proc.devRef .tc main_v6) = colW m c :=
  (W6_of_ne m ρ c main_v6 (by decide)).trans ((keep1 (W4 m ρ c) main_v6 (by decide)).trans (W4_v6 m ρ c))

/-! ### The degree column: written before region 0, an input array of regions 0 and 1 (which leave an input array as
    entered), read again by the stretch before region 2 -/

theorem W2_v16 (c : Dev nD) : W2 m ρ c (Proc.devRef .tc main_v16) =
    select (cmpf .ogt (degW m c) (broadcastInDim S100000 ![] bcast_S_S100000 (constant (F := Ideal) S_ .f32 0x00000000#32)))
      (Host.rsqrt (maximumf (degW m c) (broadcastInDim S100000 ![] bcast_S_S100000 (constant (F := Ideal) S_ .f32 0x3F800000#32))))
      (broadcastInDim S100000 ![] bcast_S_S100000 (constant (F := Ideal) S_ .f32 0x00000000#32)) :=
  after0_1_v16 (W1 m ρ c) _ _ _ (W1_v12 m ρ c) (W1_v15 m ρ c) (W1_cst_3 m ρ c)
theorem W3_v17 (c : Dev nD) : W3 m ρ c (Proc.devRef .tc main_v17) = disCol m c :=
  after0_2_v17 (W2 m ρ c) _ (W2_v16 m ρ c)
theorem W4_v17 (c : Dev nD) : W4 m ρ c (Proc.devRef .tc main_v17) = disCol m c :=
  ((W4_arr m ρ c 2).trans (((dat0 (V3 m ρ) c).arrAt_in 2 rfl _).trans (A_eq0 (V3 m ρ) c 2))).trans (W3_v17 m ρ c)
theorem W5_v17 (c : Dev nD) : W5 m ρ c (Proc.devRef .tc main_v17) = disCol m c :=
  (keep1 (W4 m ρ c) main_v17 (by decide)).trans (W4_v17 m ρ c)
theorem W6_v17 (c : Dev nD) : W6 m ρ c (Proc.devRef .tc main_v17) = disCol m c :=
  ((W6_arr m ρ c 1).trans (((dat1 (V5 m ρ) c).arrAt_in 1 rfl _).trans (A_eq1 (V5 m ρ) c 1))).trans (W5_v17 m ρ c)

/-! ## Region 0's arrays when it is entered -/

theorem entry0_0 (c : Dev nD) : V3 m ρ c (Pipeline.arrRef spec0 0) = m ((c : Thread nD τ).loc main_arg3) :=
  W3_launch m ρ c main_arg3 (by decide) (by decide) (by decide)
theorem entry0_1 (c : Dev nD) : V3 m ρ c (Pipeline.arrRef spec0 1) = m ((c : Thread nD τ).loc main_arg4) :=
  W3_launch m ρ c main_arg4 (by decide) (by decide) (by decide)
theorem entry0_2 (c : Dev nD) : V3 m ρ c (Pipeline.arrRef spec0 2) = disCol m c := W3_v17 m ρ c

/-! ## Region 1's arrays when it is entered: region 0's output propagated over the edges, the degree column, the
    bias as a row, the weight -/

theorem entry1_0 (c : Dev nD) : V5 m ρ c (Pipeline.arrRef spec1 0)
    = propagate ((dat0 (V3 m ρ) c).arrAt 3 cfg0.N) (rowW m c) (colW m c) :=
  after1_v28 (W4 m ρ c) _ _ _ (W4_arr m ρ c 3) (W4_v5 m ρ c) (W4_v6 m ρ c)
theorem entry1_1 (c : Dev nD) : V5 m ρ c (Pipeline.arrRef spec1 1) = disCol m c := W5_v17 m ρ c
theorem entry1_2 (c : Dev nD) : V5 m ρ c (Pipeline.arrRef spec1 2)
    = shapeCast S1x64 (m ((c : Thread nD τ).loc main_arg5)) shapeCasts_S64_S1x64 :=
  after1_v29 (W4 m ρ c) _ (W4_launch m ρ c main_arg5 (by decide) (by decide) (by decide) (by decide))
theorem entry1_3 (c : Dev nD) : V5 m ρ c (Pipeline.arrRef spec1 3) = m ((c : Thread nD τ).loc main_arg6) :=
  W5_launch m ρ c main_arg6 (by decide) (by decide) (by decide) (by decide) (by decide)

/-! ## Region 2's arrays when it is entered: region 1's output propagated over the edges and read at the batch's
    nodes, the degree column at the batch's nodes, and the head's parameters (biases as rows, the fusion weight
    in its two row blocks) -/

theorem entry2_0 (c : Dev nD) : V7 m ρ c (Pipeline.arrRef spec2 0)
    = Host.gather gather_S100000x64_S16384x1_S16384x64_1_0_n_n_0_1_164
        (propagate ((dat1 (V5 m ρ) c).arrAt 4 cfg1.N) (rowW m c) (colW m c))
        (broadcastInDim S16384x1 ![0] bcast_S16384_S16384x1_0 (nrmB (m ((c : Thread nD τ).loc main_arg1)))) :=
  after2_v47 (W6 m ρ c) _ _ _ _ (W6_arr m ρ c 4) (W6_v5 m ρ c) (W6_v6 m ρ c) (W6_launch m ρ c main_arg1 (by decide) (by decide) (by decide) (by decide) (by decide) (by decide))
theorem entry2_1 (c : Dev nD) : V7 m ρ c (Pipeline.arrRef spec2 1)
    = Host.gather gather_S100000x1_S16384x1_S16384x1_1_0_n_n_0_1_11 (disCol m c)
        (broadcastInDim S16384x1 ![0] bcast_S16384_S16384x1_0 (nrmB (m ((c : Thread nD τ).loc main_arg1)))) :=
  after2_v54 (W6 m ρ c) _ _ (W6_v17 m ρ c) (W6_launch m ρ c main_arg1 (by decide) (by decide) (by decide) (by decide) (by decide) (by decide))
theorem entry2_2 (c : Dev nD) : V7 m ρ c (Pipeline.arrRef spec2 2)
    = shapeCast S1x64 (m ((c : Thread nD τ).loc main_arg7)) shapeCasts_S64_S1x64 :=
  after2_v57 (W6 m ρ c) _ (W6_launch m ρ c main_arg7 (by decide) (by decide) (by decide) (by decide) (by decide) (by decide))
theorem entry2_3 (c : Dev nD) : V7 m ρ c (Pipeline.arrRef spec2 3) = m ((c : Thread nD τ).loc main_arg2) :=
  W7_launch m ρ c main_arg2 (by decide) (by decide) (by decide) (by decide) (by decide) (by decide) (by decide)
theorem entry2_4 (c : Dev nD) : V7 m ρ c (Pipeline.arrRef spec2 4) = m ((c : Thread nD τ).loc main_arg8) :=
  W7_launch m ρ c main_arg8 (by decide) (by decide) (by decide) (by decide) (by decide) (by decide) (by decide)
theorem entry2_5 (c : Dev nD) : V7 m ρ c (Pipeline.arrRef spec2 5)
    = shapeCast S1x32 (m ((c : Thread nD τ).loc main_arg9)) shapeCasts_S32_S1x32 :=
  after2_v58 (W6 m ρ c) _ (W6_launch m ρ c main_arg9 (by decide) (by decide) (by decide) (by decide) (by decide) (by decide))
theorem entry2_6 (c : Dev nD) : V7 m ρ c (Pipeline.arrRef spec2 6) = m ((c : Thread nD τ).loc main_arg10) :=
  W7_launch m ρ c main_arg10 (by decide) (by decide) (by decide) (by decide) (by decide) (by decide) (by decide)
theorem entry2_7 (c : Dev nD) : V7 m ρ c (Pipeline.arrRef spec2 7)
    = shapeCast S1x32 (m ((c : Thread nD τ).loc main_arg11)) shapeCasts_S32_S1x32 :=
  after2_v59 (W6 m ρ c) _ (W6_launch m ρ c main_arg11 (by decide) (by decide) (by decide) (by decide) (by decide) (by decide))
theorem entry2_8 (c : Dev nD) : V7 m ρ c (Pipeline.arrRef spec2 8)
    = extractStridedSlice S64x64 ![0, 0] (m ((c : Thread nD τ).loc main_arg12)) slices_S96x64_S64x64_0_0 :=
  after2_v55 (W6 m ρ c) _ (W6_launch m ρ c main_arg12 (by decide) (by decide) (by decide) (by decide) (by decide) (by decide))
theorem entry2_9 (c : Dev nD) : V7 m ρ c (Pipeline.arrRef spec2 9)
    = extractStridedSlice S32x64 ![64, 0] (m ((c : Thread nD τ).loc main_arg12)) slices_S96x64_S32x64_64_0 :=
  after2_v56 (W6 m ρ c) _ (W6_launch m ρ c main_arg12 (by decide) (by decide) (by decide) (by decide) (by decide) (by decide))
theorem entry2_10 (c : Dev nD) : V7 m ρ c (Pipeline.arrRef spec2 10)
    = shapeCast S1x64 (m ((c : Thread nD τ).loc main_arg13)) shapeCasts_S64_S1x64 :=
  after2_v60 (W6 m ρ c) _ (W6_launch m ρ c main_arg13 (by decide) (by decide) (by decide) (by decide) (by decide) (by decide))
theorem entry2_11 (c : Dev nD) : V7 m ρ c (Pipeline.arrRef spec2 11) = m ((c : Thread nD τ).loc main_arg14) :=
  W7_launch m ρ c main_arg14 (by decide) (by decide) (by decide) (by decide) (by decide) (by decide) (by decide)
theorem entry2_12 (c : Dev nD) : V7 m ρ c (Pipeline.arrRef spec2 12)
    = shapeCast S1x1 (m ((c : Thread nD τ).loc main_arg15)) shapeCasts_S1_S1x1 :=
  after2_v61 (W6 m ρ c) _ (W6_launch m ρ c main_arg15 (by decide) (by decide) (by decide) (by decide) (by decide) (by decide))

/-! ## The result: region 2's output column as a vector -/

theorem result (c : Dev nD) : W9 m ρ c (Proc.devRef .tc main_v63)
    = shapeCast S16384 ((dat2 (V7 m ρ) c).arrAt 13 cfg2.N) shapeCasts_S16384x1_S16384 :=
  after3_v63 (W8 m ρ c) _ (W8_arr m ρ c 13)

end Cert.KernelIdeal.KRun

end
-- ==== Proof.HeadPayload.lean ====
/-
  The fused head's arithmetic, one batch row at a time, on the extended reals.

  For one batch row the head takes the row's 64 aggregated features a, the row's node weight d and its 9 laboratory
  features l. It forms the node embedding d · a[k] + b2[k]; runs the laboratory network (two matrix products, the first
  clamped below at zero); multiplies the two embeddings by the two row blocks of the fusion matrix, adds the products and
  the bias and clamps at zero; takes the product with the last weight column, adds the last bias, and ends in the logistic
  function. The block program computes this for the 2048 rows of a block at once; read at row p, each of its five
  payload terms depends only on row p of the row-blocked operands, and their composition is the head of that row.
-/
import proofs.«115143_j65317862637944_2_alg».proof.Proof.Gen.KernelIdeal.Frame
import proofs.«115143_j65317862637944_2_alg».proof.Proof.Spec
import proofs.«115143_j65317862637944_2_alg».proof.Proof.LibDotInnerHost
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HeadValue

open Cert.KernelIdeal Cert.Gcn Idealize.ShloMosaic Idealize.ShloMosaic.ValueIdx Idealize.ShloMosaic.DotInner

/-- The head of one batch row, given the row's own data: aggregated features `a`, node weight `d`, laboratory
    features `l`; the weight tables are shared by all rows. -/
def headRow (a : Fin 64 → EReal) (d : EReal) (b2 : Tab 1 64) (l : Fin 9 → EReal) (lw1 : Tab 9 32) (lb1 : Tab 1 32)
    (lw2 : Tab 32 32) (lb2 : Tab 1 32) (fd : Tab 64 64) (fl : Tab 32 64) (fb1 : Tab 1 64) (fw2 : Tab 64 1) (fb2 : Tab 1 1) : EReal :=
  Ideal.logistic ((∑ k : Fin 64, fusH (fun q => d * a q + b2 (ix2 0 q))
      (fun q => (∑ j : Fin 32, max ((∑ i : Fin 9, l i * lw1 (ix2 i j)) + lb1 (ix2 0 j)) 0 * lw2 (ix2 j q)) + lb2 (ix2 0 q))
      fd fl fb1 k * fw2 (ix2 k 0)) + fb2 (ix2 0 0))

/-- The head of batch row r of the whole tables is the head of that row's data. -/
theorem head_eq_headRow (agg : Tab 16384 64) (dis : Tab 16384 1) (b2 : Tab 1 64) (lab : Tab 16384 9) (lw1 : Tab 9 32)
    (lb1 : Tab 1 32) (lw2 : Tab 32 32) (lb2 : Tab 1 32) (fd : Tab 64 64) (fl : Tab 32 64) (fb1 : Tab 1 64) (fw2 : Tab 64 1)
    (fb2 : Tab 1 1) (r : Fin 16384) :
    head agg dis b2 lab lw1 lb1 lw2 lb2 fd fl fb1 fw2 fb2 r
      = headRow (fun k => agg (ix2 r k)) (dis (ix2 r 0)) b2 (fun q => lab (ix2 r q)) lw1 lb1 lw2 lb2 fd fl fb1 fw2 fb2 := rfl

/-! ## Layout steps at an entry -/

/-- A one-column block broadcast across 64 columns reads, at (p, q), the column's entry of row p. -/
theorem col_bcast (v : (⟨2, ![2048, 1]⟩ : Shape).Idx → EReal) (h : (⟨2, ![2048, 1]⟩ : Shape).Broadcasts ⟨2, ![2048, 64]⟩)
    (p : Fin 2048) (q : Fin 64) : broadcastTo ⟨2, ![2048, 64]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The five payload terms at an entry -/

/-- The node embedding of block row p: the row's weight times its aggregate, plus the second layer's bias. -/
theorem pay2_apply (v0 : Vec Ideal S2048x1 .f32) (v2 : Vec Ideal S2048x64 .f32) (v6 : Vec Ideal S1x64 .f32)
    (p : Fin 2048) (q : Fin 64) :
    Gen.k2_pay2 (F := Ideal) v0 v2 v6 (ix2 p q) = v0 (ix2 p 0) * v2 (ix2 p q) + v6 (ix2 0 q) := by
  unfold Gen.k2_pay2
  show broadcastTo S2048x64 (shapeCast S2048x1 v0 _) _ (ix2 p q) * shapeCast S2048x64 v2 _ (ix2 p q)
      + broadcastTo S2048x64 (shapeCast S1x64 v6 _) _ (ix2 p q) = _
  rw [shapeCast_self, shapeCast_self, shapeCast_self, col_bcast, broadcastTo_1b_ab_apply]

/-- A one-row block (cast to its own shape) broadcast down the rows reads, at (p, c), the row's entry at c. -/
theorem row_bcast {a b : ℕ} (v : (⟨2, ![1, b]⟩ : Shape).Idx → EReal) (hc : (⟨2, ![1, b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix2 (0 : Fin 1) c) := by
  rw [shapeCast_self]
  exact broadcastTo_1b_ab_apply v hb p c

/-- The zero word is the extended real 0. -/
theorem zero_word : (FloatOps.ofBits FTy.f32 0x00000000#32 : Ideal .f32) = 0 := Ideal.ofBits_zero_f32

/-- The laboratory network of block row p: the hidden layer (a product with the first weight table, its bias, clamped
    below at zero) against the second weight table, plus the second bias. -/
theorem pay3_apply (v11 : Vec Ideal S2048x9 .f32) (v13 : Vec Ideal S9x32 .f32) (v16 : Vec Ideal S1x32 .f32)
    (v23 : Vec Ideal S32x32 .f32) (v26 : Vec Ideal S1x32 .f32) (p : Fin 2048) (k : Fin 32) :
    Gen.k2_pay3 (F := Ideal) v11 v13 v16 v23 v26 (ix2 p k)
      = (∑ j : Fin 32, max ((∑ i : Fin 9, v11 (ix2 p i) * v13 (ix2 i j)) + v16 (ix2 0 j)) 0 * v23 (ix2 j k))
        + v26 (ix2 0 k) := by
  have hA : DotInner.Plain dot_S2048x9_S9x32_S2048x32_1_0_0_1_n_n :=
    plain_record dot_S2048x9_S9x32_S2048x32_1_0_0_1_n_n, S2048x9, S9x32
  have hB : DotInner.Plain dot_S2048x32_S32x32_S2048x32_1_0_0_1_n_n :=
    plain_record dot_S2048x32_S32x32_S2048x32_1_0_0_1_n_n, S2048x32, S32x32
  unfold Gen.k2_pay3
  simp only [truncf_apply, addf_apply, maximumf_apply, broadcast_apply, hB.matmul_zero, hA.matmul_zero, row_bcast,
    zero_word]

/-- The fusion matrix's first row block passes unchanged. -/
theorem pay4_eq (v31 : Vec Ideal S64x64 .f32) : Gen.k2_pay4 (F := Ideal) v31 = v31 := by
  unfold Gen.k2_pay4
  exact shapeCast_self v31 _

/-- The fusion matrix's second row block passes unchanged. -/
theorem pay5_eq (v34 : Vec Ideal S32x64 .f32) : Gen.k2_pay5 (F := Ideal) v34 = v34 := by
  unfold Gen.k2_pay5
  exact shapeCast_self v34 _

/-- The fusion layer and the output unit of block row p, from the row's two embeddings. -/
theorem pay1_apply (v10 : FVec Ideal S2048x64 .bf16) (v30 : FVec Ideal S2048x32 .bf16) (v33 : FVec Ideal S64x64 .bf16)
    (v35 : FVec Ideal S32x64 .f32) (v40 : Vec Ideal S1x64 .f32) (v47 : Vec Ideal S64x1 .f32) (v50 : Vec Ideal S1x1 .f32)
    (p : Fin 2048) :
    Gen.k2_pay1 (F := Ideal) v10 v30 v33 v35 v40 v47 v50 (ix2 p 0)
      = Ideal.logistic ((∑ k : Fin 64, max (((∑ q : Fin 64, v10 (ix2 p q) * v33 (ix2 q k))
            + ∑ q : Fin 32, v30 (ix2 p q) * v35 (ix2 q k)) + v40 (ix2 0 k)) 0 * v47 (ix2 k 0)) + v50 (ix2 0 0)) := by
  have hD : DotInner.Plain dot_S2048x64_S64x64_S2048x64_1_0_0_1_n_n :=
    plain_record dot_S2048x64_S64x64_S2048x64_1_0_0_1_n_n, S2048x64, S64x64
  have hL : DotInner.Plain dot_S2048x32_S32x64_S2048x64_1_0_0_1_n_n :=
    plain_record dot_S2048x32_S32x64_S2048x64_1_0_0_1_n_n, S2048x32, S32x64
  have hO : DotInner.Plain dot_S2048x64_S64x1_S2048x1_1_0_0_1_n_n :=
    plain_record dot_S2048x64_S64x1_S2048x1_1_0_0_1_n_n, S2048x64, S64x1
  unfold Gen.k2_pay1
  show Ideal.logistic _ = _
  simp only [truncf_apply, addf_apply, maximumf_apply, broadcast_apply, hO.matmul_zero, hD.matmul_zero, hL.matmul_zero,
    row_bcast, zero_word]

/-! ## The body's stored value at a row -/

/-- THE BODY AT BLOCK ROW p: the five payload terms composed are the head of the row's data — row p of the aggregate
    block `x0`, of the weight column `x1` and of the laboratory block `x3`; the other operands are whole tables. -/
theorem body_row (x0 : Vec Ideal S2048x64 .f32) (x1 : Vec Ideal S2048x1 .f32) (x2 : Vec Ideal S1x64 .f32)
    (x3 : Vec Ideal S2048x9 .f32) (x4 : Vec Ideal S9x32 .f32) (x5 : Vec Ideal S1x32 .f32) (x6 : Vec Ideal S32x32 .f32)
    (x7 : Vec Ideal S1x32 .f32) (x8 : Vec Ideal S64x64 .f32) (x9 : Vec Ideal S32x64 .f32) (x10 : Vec Ideal S1x64 .f32)
    (x11 : Vec Ideal S64x1 .f32) (x12 : Vec Ideal S1x1 .f32) (p : Fin 2048) :
    Gen.k2_pay1 (F := Ideal) (Gen.k2_pay2 x1 x0 x2) (Gen.k2_pay3 x3 x4 x5 x6 x7) (Gen.k2_pay4 x8) (Gen.k2_pay5 x9) x10 x11 x12
        (ix2 p 0)
      = headRow (fun k => x0 (ix2 p k)) (x1 (ix2 p 0)) x2 (fun q => x3 (ix2 p q)) x4 x5 x6 x7 x8 x9 x10 x11 x12 := by
  rw [pay1_apply, pay4_eq, pay5_eq]
  simp only [pay2_apply, pay3_apply]
  rfl

/-! ## The output block after the body, at a row -/

/-- The offsets ![0, 0] are zero on both axes. -/
theorem hz : (![0, 0] : Fin 2 → Nat) = fun _ => 0 := funext fun a => by fin_cases a <;> rfl

/-- THE OUTPUT BLOCK AT ROW p: the body's one store covers the block, its loads read whole blocks, so the block holds the
    composed payload terms: the head of row p's data. -/
theorem out_row (x0 : Vec Ideal S2048x64 .f32) (x1 : Vec Ideal S2048x1 .f32) (x2 : Vec Ideal S1x64 .f32)
    (x3 : Vec Ideal S2048x9 .f32) (x4 : Vec Ideal S9x32 .f32) (x5 : Vec Ideal S1x32 .f32) (x6 : Vec Ideal S32x32 .f32)
    (x7 : Vec Ideal S1x32 .f32) (x8 : Vec Ideal S64x64 .f32) (x9 : Vec Ideal S32x64 .f32) (x10 : Vec Ideal S1x64 .f32)
    (x11 : Vec Ideal S64x1 .f32) (x12 : Vec Ideal S1x1 .f32) (p : Fin 2048) :
    Gen.out2_13 (F := Ideal) x0 x1 x2 x3 x4 x5 x6 x7 x8 x9 x10 x11 x12 (ix2 p 0)
      = headRow (fun k => x0 (ix2 p k)) (x1 (ix2 p 0)) x2 (fun q => x3 (ix2 p q)) x4 x5 x6 x7 x8 x9 x10 x11 x12 := by
  unfold Gen.out2_13
  rw [View.canon_unit_zero hz]
  simp only [View.ld_unit_zero (S := S2048x64) hz, View.ld_unit_zero (S := S2048x1) hz, View.ld_unit_zero (S := S1x64) hz,
    View.ld_unit_zero (S := S2048x9) hz, View.ld_unit_zero (S := S9x32) hz, View.ld_unit_zero (S := S1x32) hz,
    View.ld_unit_zero (S := S32x32) hz, View.ld_unit_zero (S := S64x64) hz, View.ld_unit_zero (S := S32x64) hz,
    View.ld_unit_zero (S := S64x1) hz, View.ld_unit_zero (S := S1x1) hz]
  exact body_row x0 x1 x2 x3 x4 x5 x6 x7 x8 x9 x10 x11 x12 p

end Cert.KernelIdeal.HeadValue

end
-- ==== Proof.HeadValue.lean ====
/-
  The fused head's output column, as one function of the region's operand arrays.

  The third region runs over 8 grid points. At point t the output window and the three row-blocked operands (the gathered
  aggregate, the gathered node-weight column, the laboratory features) hold rows 2048·t … 2048·t + 2047 of their arrays;
  the ten weight and bias tables are staged whole at every point. Row p of the block the body leaves is the head of row p's
  data (the payload module), that is the head of batch row 2048·t + p of the arrays; so what point t writes back is block t
  of ONE function of the arrays. The 8 blocks tile the 16384 rows (row r lies in block r / 2048), hence after the region the
  output column holds that function everywhere: entry (r, 0) is the head of batch row r.
-/
import proofs.«115143_j65317862637944_2_alg».proof.Proof.Gen.KernelIdeal.Frame
import proofs.«115143_j65317862637944_2_alg».proof.Proof.Spec
import proofs.«115143_j65317862637944_2_alg».proof.Proof.HeadPayload
import Idealize.ShloMosaic.Lib.Pipeline.Value
import Idealize.ShloMosaic.Lib.ValueIdx

noncomputable section

open scoped BigOperators

namespace Cert.KernelIdeal.HeadValue

open Cert.KernelIdeal Cert.KernelIdeal.Gen Cert.Gcn Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- Region 2's output column as ONE function of the region's thirteen operand arrays as the region finds them: entry
    (r, 0) is the head of batch row r. -/
def headOut (c : Dev nD) : Tab 16384 1 := fun i =>
  head (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (V c (Pipeline.arrRef spec2 7)) (V c (Pipeline.arrRef spec2 8))
    (V c (Pipeline.arrRef spec2 9)) (V c (Pipeline.arrRef spec2 10)) (V c (Pipeline.arrRef spec2 11))
    (V c (Pipeline.arrRef spec2 12)) (i 0)

/-- The head of a row depends only on the row's data and the tables. -/
theorem headRow_congr {a a' : Fin 64 → EReal} {d d' : EReal} {b2 b2' : Tab 1 64} {l l' : Fin 9 → EReal} {lw1 lw1' : Tab 9 32}
    {lb1 lb1' : Tab 1 32} {lw2 lw2' : Tab 32 32} {lb2 lb2' : Tab 1 32} {fd fd' : Tab 64 64} {fl fl' : Tab 32 64}
    {fb1 fb1' : Tab 1 64} {fw2 fw2' : Tab 64 1} {fb2 fb2' : Tab 1 1}
    (h0 : a = a') (h1 : d = d') (h2 : b2 = b2') (h3 : l = l') (h4 : lw1 = lw1') (h5 : lb1 = lb1') (h6 : lw2 = lw2')
    (h7 : lb2 = lb2') (h8 : fd = fd') (h9 : fl = fl') (h10 : fb1 = fb1') (h11 : fw2 = fw2') (h12 : fb2 = fb2') :
    headRow a d b2 l lw1 lb1 lw2 lb2 fd fl fb1 fw2 fb2 = headRow a' d' b2' l' lw1' lb1' lw2' lb2' fd' fl' fb1' fw2' fb2' := by
  subst h0 h1 h2 h3 h4 h5 h6 h7 h8 h9 h10 h11 h12
  rfl

/-! ## The index maps over the grid -/

/-- The four row-blocked windows (the aggregate, the node-weight column, the laboratory features, the output) sit at
    block (t, 0) at grid point t. -/
theorem rows_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_3.index t (0 : Fin 2) = t.val ∧ win2_3.index t (1 : Fin 2) = 0
    ∧ win2_13.index t (0 : Fin 2) = t.val ∧ win2_13.index t (1 : Fin 2) = 0 :=
  (by decide +kernel : ∀ t : Fin grid2.N, _)

/-- The ten weight and bias tables sit at block (0, 0) at every grid point. -/
theorem whole_idx : ∀ t : Fin cfg2.N,
    (win2_2.index t (0 : Fin 2) = 0 ∧ win2_2.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0)
    ∧ (win2_12.index t (0 : Fin 2) = 0 ∧ win2_12.index t (1 : Fin 2) = 0) :=
  (by decide +kernel : ∀ t : Fin grid2.N, _)

/-! ## The input blocks as rows of their arrays

An element of a block sits in the array, on each axis, at block index × block size + its coordinate inside the block. -/

/-- Window 0 (the gathered aggregate) at grid point t is rows 2048·t … 2048·t + 2047 of its [16384, 64] array. -/
theorem blk0 (c : Dev nD) (t : Fin cfg2.N) (p : Fin 2048) (k : Fin 64) (r : Fin 16384) (hr : r.val = t.val * 2048 + p.val) :
    (iblk2 V c 0 t : Tab 2048 64) (ix2 p k) = (V c (Pipeline.arrRef spec2 0) : Tab 16384 64) (ix2 r k) := by
  obtain ⟨e0, e1, -⟩ := rows_idx t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 2048 + 1 * p.val = r.val; omega
  | ⟨1, _⟩ => show win2_0.index t (1 : Fin 2) * 64 + 1 * k.val = k.val; omega

/-- Window 1 (the gathered node-weight column) at grid point t is rows 2048·t … 2048·t + 2047 of its [16384, 1] array. -/
theorem blk1 (c : Dev nD) (t : Fin cfg2.N) (p : Fin 2048) (k : Fin 1) (r : Fin 16384) (hr : r.val = t.val * 2048 + p.val) :
    (iblk2 V c 1 t : Tab 2048 1) (ix2 p k) = (V c (Pipeline.arrRef spec2 1) : Tab 16384 1) (ix2 r k) := by
  obtain ⟨-, -, e0, e1, -⟩ := rows_idx t
  show V c (Pipeline.arrRef spec2 1) (((cfg2.win 1).blk t).view.emb (ix2 p k)) = _
  refine congrArg (V c (Pipeline.arrRef spec2 1)) (funext fun a => Fin.ext ?_)
  match a with
  | ⟨0, _⟩ => show win2_1.index t (0 : Fin 2) * 2048 + 1 * p.val = r.val; omega
  | ⟨1, _⟩ => show win2_1.index t (1 : Fin 2) * 1 + 1 * k.val = k.val; omega

/-- Window 3 (the laboratory features) at grid point t is rows 2048·t … 2048·t + 2047 of its [16384, 9] array. -/
theorem blk3 (c : Dev nD) (t : Fin cfg2.N) (p : Fin 2048) (k : Fin 9) (r : Fin 16384) (hr : r.val = t.val * 2048 + p.val) :
    (iblk2 V c 3 t : Tab 2048 9) (ix2 p k) = (V c (Pipeline.arrRef spec2 3) : Tab 16384 9) (ix2 r k) := by
  obtain ⟨-, -, -, -, e0, e1, -⟩ := rows_idx t
  show V c (Pipeline.arrRef spec2 3) (((cfg2.win 3).blk t).view.emb (ix2 p k)) = _
  refine congrArg (V c (Pipeline.arrRef spec2 3)) (funext fun a => Fin.ext ?_)
  match a with
  | ⟨0, _⟩ => show win2_3.index t (0 : Fin 2) * 2048 + 1 * p.val = r.val; omega
  | ⟨1, _⟩ => show win2_3.index t (1 : Fin 2) * 9 + 1 * k.val = k.val; omega

/-- Window 2 (the second layer's bias row) is one block, the whole [1, 64] table, at every grid point. -/
theorem blk2 (c : Dev nD) (t : Fin cfg2.N) :
    (iblk2 V c 2 t : Tab 1 64) = (V c (Pipeline.arrRef spec2 2) : Tab 1 64) := by
  obtain ⟨⟨e0, e1⟩, -⟩ := whole_idx t
  funext y
  show V c (Pipeline.arrRef spec2 2) (((cfg2.win 2).blk t).view.emb y) = V c (Pipeline.arrRef spec2 2) y
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Window 4 (the laboratory network's first weight table) is one block, the whole [9, 32] table, at every grid point. -/
theorem blk4 (c : Dev nD) (t : Fin cfg2.N) :
    (iblk2 V c 4 t : Tab 9 32) = (V c (Pipeline.arrRef spec2 4) : Tab 9 32) := by
  obtain ⟨-, ⟨e0, e1⟩, -⟩ := whole_idx t
  funext y
  show V c (Pipeline.arrRef spec2 4) (((cfg2.win 4).blk t).view.emb y) = V c (Pipeline.arrRef spec2 4) y
  refine congrArg (V c (Pipeline.arrRef spec2 4)) (funext fun a => Fin.ext ?_)
  match a with
  | ⟨0, _⟩ => show win2_4.index t (0 : Fin 2) * 9 + 1 * (y 0).val = (y 0).val; omega
  | ⟨1, _⟩ => show win2_4.index t (1 : Fin 2) * 32 + 1 * (y 1).val = (y 1).val; omega

/-- Window 5 (the laboratory network's first bias row) is one block, the whole [1, 32] table, at every grid point. -/
theorem blk5 (c : Dev nD) (t : Fin cfg2.N) :
    (iblk2 V c 5 t : Tab 1 32) = (V c (Pipeline.arrRef spec2 5) : Tab 1 32) := by
  obtain ⟨-, -, ⟨e0, e1⟩, -⟩ := whole_idx t
  funext y
  show V c (Pipeline.arrRef spec2 5) (((cfg2.win 5).blk t).view.emb y) = V c (Pipeline.arrRef spec2 5) y
  refine congrArg (V c (Pipeline.arrRef spec2 5)) (funext fun a => Fin.ext ?_)
  match a with
  | ⟨0, _⟩ => show win2_5.index t (0 : Fin 2) * 1 + 1 * (y 0).val = (y 0).val; omega
  | ⟨1, _⟩ => show win2_5.index t (1 : Fin 2) * 32 + 1 * (y 1).val = (y 1).val; omega

/-- Window 6 (the laboratory network's second weight table) is one block, the whole [32, 32] table, at every grid point. -/
theorem blk6 (c : Dev nD) (t : Fin cfg2.N) :
    (iblk2 V c 6 t : Tab 32 32) = (V c (Pipeline.arrRef spec2 6) : Tab 32 32) := by
  obtain ⟨-, -, -, ⟨e0, e1⟩, -⟩ := whole_idx t
  funext y
  show V c (Pipeline.arrRef spec2 6) (((cfg2.win 6).blk t).view.emb y) = V c (Pipeline.arrRef spec2 6) y
  refine congrArg (V c (Pipeline.arrRef spec2 6)) (funext fun a => Fin.ext ?_)
  match a with
  | ⟨0, _⟩ => show win2_6.index t (0 : Fin 2) * 32 + 1 * (y 0).val = (y 0).val; omega
  | ⟨1, _⟩ => show win2_6.index t (1 : Fin 2) * 32 + 1 * (y 1).val = (y 1).val; omega

/-- Window 7 (the laboratory network's second bias row) is one block, the whole [1, 32] table, at every grid point. -/
theorem blk7 (c : Dev nD) (t : Fin cfg2.N) :
    (iblk2 V c 7 t : Tab 1 32) = (V c (Pipeline.arrRef spec2 7) : Tab 1 32) := by
  obtain ⟨-, -, -, -, ⟨e0, e1⟩, -⟩ := whole_idx t
  funext y
  show V c (Pipeline.arrRef spec2 7) (((cfg2.win 7).blk t).view.emb y) = V c (Pipeline.arrRef spec2 7) y
  refine congrArg (V c (Pipeline.arrRef spec2 7)) (funext fun a => Fin.ext ?_)
  match a with
  | ⟨0, _⟩ => show win2_7.index t (0 : Fin 2) * 1 + 1 * (y 0).val = (y 0).val; omega
  | ⟨1, _⟩ => show win2_7.index t (1 : Fin 2) * 32 + 1 * (y 1).val = (y 1).val; omega

/-- Window 8 (the fusion matrix's first 64 rows) is one block, the whole [64, 64] table, at every grid point. -/
theorem blk8 (c : Dev nD) (t : Fin cfg2.N) :
    (iblk2 V c 8 t : Tab 64 64) = (V c (Pipeline.arrRef spec2 8) : Tab 64 64) := by
  obtain ⟨-, -, -, -, -, ⟨e0, e1⟩, -⟩ := whole_idx t
  funext y
  show V c (Pipeline.arrRef spec2 8) (((cfg2.win 8).blk t).view.emb y) = V c (Pipeline.arrRef spec2 8) y
  refine congrArg (V c (Pipeline.arrRef spec2 8)) (funext fun a => Fin.ext ?_)
  match a with
  | ⟨0, _⟩ => show win2_8.index t (0 : Fin 2) * 64 + 1 * (y 0).val = (y 0).val; omega
  | ⟨1, _⟩ => show win2_8.index t (1 : Fin 2) * 64 + 1 * (y 1).val = (y 1).val; omega

/-- Window 9 (the fusion matrix's last 32 rows) is one block, the whole [32, 64] table, at every grid point. -/
theorem blk9 (c : Dev nD) (t : Fin cfg2.N) :
    (iblk2 V c 9 t : Tab 32 64) = (V c (Pipeline.arrRef spec2 9) : Tab 32 64) := by
  obtain ⟨-, -, -, -, -, -, ⟨e0, e1⟩, -⟩ := whole_idx t
  funext y
  show V c (Pipeline.arrRef spec2 9) (((cfg2.win 9).blk t).view.emb y) = V c (Pipeline.arrRef spec2 9) y
  refine congrArg (V c (Pipeline.arrRef spec2 9)) (funext fun a => Fin.ext ?_)
  match a with
  | ⟨0, _⟩ => show win2_9.index t (0 : Fin 2) * 32 + 1 * (y 0).val = (y 0).val; omega
  | ⟨1, _⟩ => show win2_9.index t (1 : Fin 2) * 64 + 1 * (y 1).val = (y 1).val; omega

/-- Window 10 (the fusion bias row) is one block, the whole [1, 64] table, at every grid point. -/
theorem blk10 (c : Dev nD) (t : Fin cfg2.N) :
    (iblk2 V c 10 t : Tab 1 64) = (V c (Pipeline.arrRef spec2 10) : Tab 1 64) := by
  obtain ⟨-, -, -, -, -, -, -, ⟨e0, e1⟩, -⟩ := whole_idx t
  funext y
  show V c (Pipeline.arrRef spec2 10) (((cfg2.win 10).blk t).view.emb y) = V c (Pipeline.arrRef spec2 10) y
  refine congrArg (V c (Pipeline.arrRef spec2 10)) (funext fun a => Fin.ext ?_)
  match a with
  | ⟨0, _⟩ => show win2_10.index t (0 : Fin 2) * 1 + 1 * (y 0).val = (y 0).val; omega
  | ⟨1, _⟩ => show win2_10.index t (1 : Fin 2) * 64 + 1 * (y 1).val = (y 1).val; omega

/-- Window 11 (the output weight column) is one block, the whole [64, 1] table, at every grid point. -/
theorem blk11 (c : Dev nD) (t : Fin cfg2.N) :
    (iblk2 V c 11 t : Tab 64 1) = (V c (Pipeline.arrRef spec2 11) : Tab 64 1) := by
  obtain ⟨-, -, -, -, -, -, -, -, ⟨e0, e1⟩, -⟩ := whole_idx t
  funext y
  show V c (Pipeline.arrRef spec2 11) (((cfg2.win 11).blk t).view.emb y) = V c (Pipeline.arrRef spec2 11) y
  refine congrArg (V c (Pipeline.arrRef spec2 11)) (funext fun a => Fin.ext ?_)
  match a with
  | ⟨0, _⟩ => show win2_11.index t (0 : Fin 2) * 64 + 1 * (y 0).val = (y 0).val; omega
  | ⟨1, _⟩ => show win2_11.index t (1 : Fin 2) * 1 + 1 * (y 1).val = (y 1).val; omega

/-- Window 12 (the output bias) is one block, the whole [1, 1] table, at every grid point. -/
theorem blk12 (c : Dev nD) (t : Fin cfg2.N) :
    (iblk2 V c 12 t : Tab 1 1) = (V c (Pipeline.arrRef spec2 12) : Tab 1 1) := by
  obtain ⟨-, -, -, -, -, -, -, -, -, e0, e1⟩ := whole_idx t
  funext y
  show V c (Pipeline.arrRef spec2 12) (((cfg2.win 12).blk t).view.emb y) = V c (Pipeline.arrRef spec2 12) y
  refine congrArg (V c (Pipeline.arrRef spec2 12)) (funext fun a => Fin.ext ?_)
  match a with
  | ⟨0, _⟩ => show win2_12.index t (0 : Fin 2) * 1 + 1 * (y 0).val = (y 0).val; omega
  | ⟨1, _⟩ => show win2_12.index t (1 : Fin 2) * 1 + 1 * (y 1).val = (y 1).val; omega

/-- Row p of the output block at grid point t is row 2048·t + p of the output column. -/
theorem out_emb (t : Fin cfg2.N) (p : Fin 2048) (r : Fin 16384) (hr : r.val = t.val * 2048 + p.val) :
    ((cfg2.win 13).blk t).view.emb (ix2 p (0 : Fin 1)) = (ix2 r (0 : Fin 1) : (⟨2, ![16384, 1]⟩ : Shape).Idx) := by
  obtain ⟨-, -, -, -, -, -, e0, e1⟩ := rows_idx t
  funext a
  apply Fin.ext
  match a with
  | ⟨0, _⟩ => show win2_13.index t (0 : Fin 2) * 2048 + 1 * p.val = r.val; omega
  | ⟨1, _⟩ => show win2_13.index t (1 : Fin 2) * 1 + 1 * 0 = 0; omega

/-! ## What a grid point writes back -/

/-- Row p of what the body leaves at grid point t is the head of batch row r = 2048·t + p of the arrays. -/
theorem flushed_point (c : Dev nD) (t : Fin cfg2.N) (p : Fin 2048) (r : Fin 16384) (hr : r.val = t.val * 2048 + p.val) :
    out2_13 (F := Ideal) (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
        (ix2 p 0)
      = headOut V c (ix2 r 0) := by
  refine (out_row (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) (iblk2 V c 11 t) (iblk2 V c 12 t) p).trans ?_
  show _ = head (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (V c (Pipeline.arrRef spec2 7)) (V c (Pipeline.arrRef spec2 8))
    (V c (Pipeline.arrRef spec2 9)) (V c (Pipeline.arrRef spec2 10)) (V c (Pipeline.arrRef spec2 11))
    (V c (Pipeline.arrRef spec2 12)) r
  rw [head_eq_headRow]
  exact headRow_congr (funext fun k => blk0 V c t p k r hr) (blk1 V c t p 0 r hr) (blk2 V c t)
    (funext fun q => blk3 V c t p q r hr) (blk4 V c t) (blk5 V c t) (blk6 V c t) (blk7 V c t) (blk8 V c t) (blk9 V c t)
    (blk10 V c t) (blk11 V c t) (blk12 V c t)

/-- WHAT GRID POINT t WRITES BACK is block t of the head's column. -/
theorem flushed_eq (c : Dev nD) (t : Fin cfg2.N) :
    (dat2 V c).flushed 13 t = ((cfg2.win 13).blk t).view.read (Elt Ideal) (headOut V c) := by
  funext y
  refine (congrFun (after2_13 V c t) y).trans ?_
  obtain ⟨p, z, rfl⟩ : ∃ (p : Fin 2048) (z : Fin 1), y = ix2 p z := ⟨y 0, y 1, eq_ix2 y⟩
  obtain rfl : z = 0 := Subsingleton.elim _ _
  have hN : grid2.N = 8 := N_2
  have ht : t.val < 8 := hN ▸ t.isLt
  have hr : (⟨t.val * 2048 + p.val, by have := p.isLt; omega⟩ : Fin 16384).val = t.val * 2048 + p.val := rfl
  rw [View.read_apply, out_emb t p _ hr]
  exact flushed_point V c t p _ hr

/-! ## The blocks tile the column -/

/-- An index of the column is in grid point t's block iff each coordinate is in the block's range on its axis. -/
theorem mem_blk (t : Fin cfg2.N) (i : S16384x1.Idx) :
    i ∈ ((cfg2.win 13).blk t).view.set ↔ ∀ a : Fin 2, win2_13.index t a * S2048x1.size a ≤ (i a).val
      ∧ (i a).val < win2_13.index t a * S2048x1.size a + S2048x1.size a := by
  show i ∈ ((View.whole main_v62).slice (win2_13.rect t)).set ↔ _
  rw [View.set_slice_whole, Rect.mem_set_unit]
  exact Iff.rfl

/-- Row r of the column lies in the block of grid point r / 2048, which writes its block back. -/
theorem cover (i : S16384x1.Idx) :
    ∃ t : Fin cfg2.N, (cfg2.win 13).flush t = true ∧ i ∈ ((cfg2.win 13).blk t).view.set := by
  have hi0 : (i 0).val < 16384 := (i 0).isLt
  have hi1 : (i 1).val < 1 := (i 1).isLt
  have hN : grid2.N = 8 := N_2
  have hlt : (i 0).val / 2048 < cfg2.N := by show _ < grid2.N; omega
  obtain ⟨-, -, -, -, -, -, e0, e1⟩ := rows_idx ⟨(i 0).val / 2048, hlt⟩
  refine ⟨⟨(i 0).val / 2048, hlt⟩, flush2_13 _, ?_⟩
  rw [mem_blk]
  intro a
  match a with
  | ⟨0, _⟩ =>
    show win2_13.index ⟨(i 0).val / 2048, hlt⟩ (0 : Fin 2) * 2048 ≤ (i 0).val
      ∧ (i 0).val < win2_13.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win2_13.index ⟨(i 0).val / 2048, hlt⟩ (1 : Fin 2) * 1 ≤ (i 1).val
      ∧ (i 1).val < win2_13.index ⟨(i 0).val / 2048, hlt⟩ (1 : Fin 2) * 1 + 1
    omega

/-! ## The column after the region -/

/-- THE OUTPUT COLUMN after the region is the head's column of the operand arrays as the region found them. -/
theorem head_col (c : Dev nD) : (dat2 V c).arrAt 13 cfg2.N = headOut V c :=
  (dat2 V c).arrAt_eq_of_cover 13 (headOut V c) (fun t _ => flushed_eq V c t) cover

/-- ENTRY (r, 0) of the output column after the region is the head of batch row r. -/
theorem head_array (c : Dev nD) (r : Fin 16384) :
    ((dat2 V c).arrAt 13 cfg2.N : Tab 16384 1) (ix2 r 0)
      = head (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) (V c (Pipeline.arrRef spec2 7)) (V c (Pipeline.arrRef spec2 8))
          (V c (Pipeline.arrRef spec2 9)) (V c (Pipeline.arrRef spec2 10)) (V c (Pipeline.arrRef spec2 11))
          (V c (Pipeline.arrRef spec2 12)) r :=
  congrFun (head_col V c) (ix2 r 0)

end Cert.KernelIdeal.HeadValue

end
-- ==== Proof.KernelValue.lean ====
/-
  The idealized kernel's result, entry by entry, as the two-layer graph network's output.

  The program's three regions are joined by host-side message passing: the rows of a region's output array are gathered at
  the messages' source words and added, from zero, at their target words; before the last region the sums are read at the
  batch's node words. Read at an entry, one such round is the plain sum, over the messages arriving at a node, of the rows
  read for their sources. Region 0 leaves the linear map's rows scaled by the node weights; region 1 takes their sums,
  scales them by the node weight again, adds the bias, clamps at zero, multiplies by W2 and scales by the node weight;
  region 2 takes the sums of those rows at the batch's nodes, scales, adds the second bias and runs the head. So the
  result at batch entry b is the network's output in the arrangement that weights each source row before a sum and the
  sum after it, on the message graph and the node the launch memory describes.
-/
import proofs.«115143_j65317862637944_2_alg».proof.Proof.Gen.KernelIdeal.Frame
import proofs.«115143_j65317862637944_2_alg».proof.Proof.Spec
import proofs.«115143_j65317862637944_2_alg».proof.Proof.Network
import proofs.«115143_j65317862637944_2_alg».proof.Proof.LibIndexWords
import proofs.«115143_j65317862637944_2_alg».proof.Proof.LibDenseLayer
import proofs.«115143_j65317862637944_2_alg».proof.Proof.LibColumnFlatten
import Idealize.ShloMosaic.Lib.Pipeline.Value
import Idealize.ShloMosaic.Lib.ValueIdx
import Idealize.ShloMosaic.Lib.ValueLayout
import Idealize.ShloMosaic.PureOps.Ideal.Laws
import proofs.«115143_j65317862637944_2_alg».proof.Proof.LayerOneValue
import proofs.«115143_j65317862637944_2_alg».proof.Proof.LayerTwoValue
import proofs.«115143_j65317862637944_2_alg».proof.Proof.KernelArrays
import proofs.«115143_j65317862637944_2_alg».proof.Proof.HeadValue

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.IndexWords Cert.Gcn

/-! ## One round of message passing, at an entry -/

/-- Rows gathered at the messages' sources and added at their targets, from zero: entry (n, k) is the sum, over the
    messages arriving at n, of entry k of the row read for the message's source word. -/
theorem propagate_entry (h : FVec Ideal S100000x64 .f32) (r cl : IVec S3300000 32) (n : Fin 100000) (k : Fin 64) :
    Host.scatterAdd (F := Ideal) (φ := .f32) scatter_S100000x64_S3300000x1_S3300000x64_1_0_0_1
        (broadcastInDim S100000x64 ![] bcast_S_S100000x64 (constant (F := Ideal) S_ .f32 0x00000000#32))
        (broadcastInDim S3300000x1 ![0] bcast_S3300000_S3300000x1_0 cl)
        (Host.gather gather_S100000x64_S3300000x1_S3300000x64_1_0_n_n_0_1_164 h
          (broadcastInDim S3300000x1 ![0] bcast_S3300000_S3300000x1_0 r)) (ix2 n k)
      = 0 + ∑ e ∈ arriving 100000 cl n, h (ix2 (clampRow 100000 (by omega) (r (ix1 e))) k) := by
  rw [scatterAdd_rows_column _ rfl rfl rfl rfl, DenseLayer.zero_splat_apply]
  refine congrArg (0 + ·) (Finset.sum_congr rfl fun e _ => ?_)
  exact gather_rows_column (by omega) _ rfl rfl rfl rfl rfl rfl rfl h r _ e k

/-! ## The network's layers from the regions' entries -/

/-- Layer 1 before aggregation is the linear map's row scaled by the node's weight. -/
theorem pre1_eq_lin1 (emb : Tab 100000 32) (w1 : Tab 32 64) (dis : Tab 100000 1) (r : Fin 100000) (j : Fin 64) :
    pre1 emb w1 dis r j = lin1 emb w1 r j * dis (ix2 r (0 : Fin 1)) := rfl

/-- Layer 2 before aggregation, when the aggregated array is the plain sum of layer 1's pre-scaled rows: row r of layer
    1's output times W2, scaled by the node's weight. -/
theorem pre2_eq_x1Scaled (g : Graph) (emb : Tab 100000 32) (w1 : Tab 32 64) (b1 : Fin 64 → EReal) (w2 : Tab 64 64)
    (agg : Tab 100000 64) (dis : Tab 100000 1) (b1row : Tab 1 64)
    (hagg : ∀ n k, agg (ix2 n k) = convPlain g (fun r j => lin1 emb w1 r j * g.d r) n k)
    (hdis : ∀ n, dis (ix2 n (0 : Fin 1)) = g.d n) (hb : ∀ k, b1row (ix2 (0 : Fin 1) k) = b1 k)
    (r : Fin 100000) (j : Fin 64) :
    pre2 agg dis b1row w2 r j = (∑ q : Fin 64, x1Scaled g emb w1 b1 r q * w2 (ix2 q j)) * g.d r := by
  unfold pre2 x1Scaled
  rw [hdis]
  refine congrArg (· * g.d r) (Finset.sum_congr rfl fun q _ => ?_)
  rw [hagg, hb]

/-- The gathered node embedding, when the gathered aggregate is the plain sum of layer 2's pre-scaled rows at the node
    the batch entry names: layer 2's output at that node. -/
theorem drugE_eq_x2Scaled (g : Graph) (emb : Tab 100000 32) (w1 : Tab 32 64) (b1 : Fin 64 → EReal) (w2 : Tab 64 64)
    (b2 : Fin 64 → EReal) (node : Fin 16384 → Fin 100000)
    (agg : Tab 16384 64) (dis : Tab 16384 1) (b2row : Tab 1 64) (b : Fin 16384)
    (hagg : ∀ k, agg (ix2 b k)
      = convPlain g (fun r j => (∑ q : Fin 64, x1Scaled g emb w1 b1 r q * w2 (ix2 q j)) * g.d r) (node b) k)
    (hdis : dis (ix2 b (0 : Fin 1)) = g.d (node b)) (hb : ∀ k, b2row (ix2 (0 : Fin 1) k) = b2 k) (k : Fin 64) :
    drugE agg dis b2row b k = x2Scaled g emb w1 b1 w2 b2 (node b) k := by
  unfold drugE x2Scaled
  rw [hdis, hagg, hb]

/-- The head on gathered rows that are layer 2's output at the batch's nodes, with its parameter tables the bias rows and
    the two row blocks of the fusion matrix, is the network's output. -/
theorem head_eq_outOf (X2 : Fin 100000 → Fin 64 → EReal) (node : Fin 16384 → Fin 100000)
    (agg : Tab 16384 64) (dis : Tab 16384 1) (b2row : Tab 1 64)
    (a3 : Tab 16384 9) (a4 : Tab 9 32) (a5 : Tab 1 32) (a6 : Tab 32 32) (a7 : Tab 1 32) (a8 : Tab 64 64) (a9 : Tab 32 64)
    (a10 : Tab 1 64) (a11 : Tab 64 1) (a12 : Tab 1 1)
    (lab : Tab 16384 9) (lw1 : Tab 9 32) (lb1 : (⟨1, ![32]⟩ : Shape).Idx → EReal) (lw2 : Tab 32 32)
    (lb2 : (⟨1, ![32]⟩ : Shape).Idx → EReal) (fw1 : Tab 96 64) (fb1 : (⟨1, ![64]⟩ : Shape).Idx → EReal) (fw2 : Tab 64 1)
    (fb2 : (⟨1, ![1]⟩ : Shape).Idx → EReal) (b : Fin 16384)
    (h3 : a3 = lab) (h4 : a4 = lw1) (h5 : a5 = rowOf lb1) (h6 : a6 = lw2) (h7 : a7 = rowOf lb2) (h8 : a8 = topRows fw1)
    (h9 : a9 = botRows fw1) (h10 : a10 = rowOf fb1) (h11 : a11 = fw2)
    (hd : ∀ k, drugE agg dis b2row b k = X2 (node b) k)
    (hfb2 : a12 (ix2 (0 : Fin 1) (0 : Fin 1)) = fb2 (ix1 (0 : Fin 1))) :
    head agg dis b2row a3 a4 a5 a6 a7 a8 a9 a10 a11 a12 b
      = outOf X2 node lab lw1 lb1 lw2 lb2 fw1 fb1 fw2 fb2 b := by
  subst h3 h4 h5 h6 h7 h8 h9 h10 h11
  unfold head outOf
  rw [hfb2, show drugE agg dis b2row b = X2 (node b) from funext hd]

/-! ## The head's parameters as the region finds them -/

/-- A bias vector reshaped to one row is the one-row table of the vector. -/
theorem bias_row_eq {h : ℕ} (v : (⟨1, ![h]⟩ : Shape).Idx → EReal) (hc : (⟨1, ![h]⟩ : Shape).ShapeCasts ⟨2, ![1, h]⟩) :
    shapeCast ⟨2, ![1, h]⟩ v hc = rowOf v := by
  funext i
  obtain ⟨u, k, rfl⟩ : ∃ (u : Fin 1) (k : Fin h), i = ix2 u k := ⟨i 0, i 1, eq_ix2 i⟩
  rw [shapeCast_a_1a_apply]
  rfl

/-- The fusion matrix's first 64 rows, as a slice. -/
theorem top_rows_eq (fw1 : Tab 96 64) (hs : (⟨2, ![96, 64]⟩ : Shape).Slices ![0, 0] ⟨2, ![64, 64]⟩) :
    extractStridedSlice ⟨2, ![64, 64]⟩ ![0, 0] fw1 hs = topRows fw1 := by
  funext i
  obtain ⟨p, q, rfl⟩ : ∃ (p : Fin 64) (q : Fin 64), i = ix2 p q := ⟨i 0, i 1, eq_ix2 i⟩
  exact slice2_axis0_apply 0 fw1 hs p q ⟨p.val, by omega⟩ (Nat.zero_add _).symm

/-- The fusion matrix's last 32 rows, as a slice. -/
theorem bot_rows_eq (fw1 : Tab 96 64) (hs : (⟨2, ![96, 64]⟩ : Shape).Slices ![64, 0] ⟨2, ![32, 64]⟩) :
    extractStridedSlice ⟨2, ![32, 64]⟩ ![64, 0] fw1 hs = botRows fw1 := by
  funext i
  obtain ⟨p, q, rfl⟩ : ∃ (p : Fin 32) (q : Fin 64), i = ix2 p q := ⟨i 0, i 1, eq_ix2 i⟩
  exact slice2_axis0_apply 64 fw1 hs p q ⟨64 + p.val, by omega⟩ rfl

/-! ## The launch memory's arrays, typed -/

section
variable (m : (ℓ : Loc nD τ sig) → Buf (Elt Ideal) ℓ) (ρ : Dev nD → PrngReg)

/-- The batch's node numbers. -/
abbrev idsA (c : Dev nD) : IVec S16384 32 := m ((c : Thread nD τ).loc main_arg1)
/-- The batch's laboratory features. -/
abbrev labA (c : Dev nD) : FVec Ideal S16384x9 .f32 := m ((c : Thread nD τ).loc main_arg2)
/-- The node embedding table. -/
abbrev embA (c : Dev nD) : FVec Ideal S100000x32 .f32 := m ((c : Thread nD τ).loc main_arg3)
/-- Layer 1's weight matrix and bias, layer 2's weight matrix and bias. -/
abbrev w1A (c : Dev nD) : FVec Ideal S32x64 .f32 := m ((c : Thread nD τ).loc main_arg4)
abbrev b1A (c : Dev nD) : FVec Ideal S64 .f32 := m ((c : Thread nD τ).loc main_arg5)
abbrev w2A (c : Dev nD) : FVec Ideal S64x64 .f32 := m ((c : Thread nD τ).loc main_arg6)
abbrev b2A (c : Dev nD) : FVec Ideal S64 .f32 := m ((c : Thread nD τ).loc main_arg7)
/-- The laboratory network's two layers. -/
abbrev lw1A (c : Dev nD) : FVec Ideal S9x32 .f32 := m ((c : Thread nD τ).loc main_arg8)
abbrev lb1A (c : Dev nD) : FVec Ideal S32 .f32 := m ((c : Thread nD τ).loc main_arg9)
abbrev lw2A (c : Dev nD) : FVec Ideal S32x32 .f32 := m ((c : Thread nD τ).loc main_arg10)
abbrev lb2A (c : Dev nD) : FVec Ideal S32 .f32 := m ((c : Thread nD τ).loc main_arg11)
/-- The fusion network's two layers. -/
abbrev fw1A (c : Dev nD) : FVec Ideal S96x64 .f32 := m ((c : Thread nD τ).loc main_arg12)
abbrev fb1A (c : Dev nD) : FVec Ideal S64 .f32 := m ((c : Thread nD τ).loc main_arg13)
abbrev fw2A (c : Dev nD) : FVec Ideal S64x1 .f32 := m ((c : Thread nD τ).loc main_arg14)
abbrev fb2A (c : Dev nD) : FVec Ideal S1 .f32 := m ((c : Thread nD τ).loc main_arg15)

/-! ## The graph the launch memory describes -/

/-- The message graph: the messages arriving at node n are those a scatter at the target words delivers to row n; a
    message's source and target rows are the rows a gather reads for its (moved) words; a node's weight is its entry of
    the weight column. -/
def gK (c : Dev nD) : Graph where
  S := fun n => arriving 100000 (KRun.colW m c) n
  src := fun e => clampRow 100000 (by omega) (KRun.nrmE (KRun.rowW m c) (ix1 e))
  tgt := fun e => clampRow 100000 (by omega) (KRun.nrmE (KRun.colW m c) (ix1 e))
  d := fun n => KRun.disCol m c (ix2 n (0 : Fin 1))

/-- The node a batch entry names: the row a gather reads for its (moved) word. -/
def nodeK (c : Dev nD) (b : Fin 16384) : Fin 100000 := clampRow 100000 (by omega) (KRun.nrmB (idsA m c) (ix1 b))

/-- A node's weight in that graph is its entry of the weight column. -/
theorem gK_d (c : Dev nD) (n : Fin 100000) : (gK m c).d n = KRun.disCol m c (ix2 n (0 : Fin 1)) := by
  simp only [gK]

/-- The messages arriving at a node in that graph. -/
theorem gK_S (c : Dev nD) (n : Fin 100000) : (gK m c).S n = arriving 100000 (KRun.colW m c) n := by
  simp only [gK]

/-- A message's source row in that graph. -/
theorem gK_src (c : Dev nD) (e : Fin 3300000) :
    (gK m c).src e = clampRow 100000 (by omega) (KRun.nrmE (KRun.rowW m c) (ix1 e)) := by
  simp only [gK]

attribute [local irreducible] KRun.disCol KRun.rowW KRun.colW KRun.degW KRun.nrmE KRun.nrmB

/-! ## The regions' arrays, bottom up -/

/-- Region 0's output array: the linear map's rows, each scaled by its node's weight. -/
theorem region0_entry (c : Dev nD) (r : Fin 100000) (j : Fin 64) :
    ((dat0 (V3 m ρ) c).arrAt 3 cfg0.N : S100000x64.Idx → EReal) (ix2 r j)
      = lin1 (embA m c) (w1A m c) r j * (gK m c).d r := by
  rw [LayerValue.layer1_array (V3 m ρ) c r j, KRun.entry0_0, KRun.entry0_1, KRun.entry0_2, gK_d]
  exact pre1_eq_lin1 _ _ _ r j

/-- Region 1's aggregated input: the plain sum of region 0's rows over the messages arriving at a node. -/
theorem agg1_entry (c : Dev nD) (n : Fin 100000) (k : Fin 64) :
    (V5 m ρ c (Pipeline.arrRef spec1 0) : S100000x64.Idx → EReal) (ix2 n k)
      = convPlain (gK m c) (fun r j => lin1 (embA m c) (w1A m c) r j * (gK m c).d r) n k := by
  rw [KRun.entry1_0]
  unfold KRun.propagate
  rw [propagate_entry]
  unfold convPlain
  simp only [gK_S, gK_src]
  refine congrArg (0 + ·) (Finset.sum_congr rfl fun e _ => ?_)
  exact region0_entry m ρ c _ k

/-- Region 1's output array: layer 1's output times W2, each row scaled by its node's weight. -/
theorem region1_entry (c : Dev nD) (r : Fin 100000) (j : Fin 64) :
    ((dat1 (V5 m ρ) c).arrAt 4 cfg1.N : S100000x64.Idx → EReal) (ix2 r j)
      = (∑ q : Fin 64, x1Scaled (gK m c) (embA m c) (w1A m c) (fun k => b1A m c (ix1 k)) r q * w2A m c (ix2 q j))
          * (gK m c).d r := by
  rw [LayerValue.layer2_array (V5 m ρ) c r j, KRun.entry1_3]
  refine pre2_eq_x1Scaled (gK m c) (embA m c) (w1A m c) (fun k => b1A m c (ix1 k)) (w2A m c) _ _ _
    (agg1_entry m ρ c) (fun n => ?_) (fun k => ?_) r j
  · rw [KRun.entry1_1]; exact (gK_d m c n).symm
  · rw [KRun.entry1_2]; exact shapeCast_a_1a_apply _ _ _ _

/-- Region 2's gathered aggregate: the plain sum of region 1's rows over the messages arriving at the entry's node. -/
theorem agg2_entry (c : Dev nD) (b : Fin 16384) (k : Fin 64) :
    (V7 m ρ c (Pipeline.arrRef spec2 0) : S16384x64.Idx → EReal) (ix2 b k)
      = convPlain (gK m c)
          (fun r j => (∑ q : Fin 64, x1Scaled (gK m c) (embA m c) (w1A m c) (fun k => b1A m c (ix1 k)) r q * w2A m c (ix2 q j))
            * (gK m c).d r) (nodeK m c b) k := by
  rw [KRun.entry2_0, gather_rows_column (by omega) _ rfl rfl rfl rfl rfl rfl rfl]
  unfold KRun.propagate nodeK
  rw [propagate_entry]
  unfold convPlain
  simp only [gK_S, gK_src]
  refine congrArg (0 + ·) (Finset.sum_congr rfl fun e _ => ?_)
  exact region1_entry m ρ c _ k

/-- Region 2's gathered node weights: the weight of the entry's node. -/
theorem dis2_entry (c : Dev nD) (b : Fin 16384) :
    (V7 m ρ c (Pipeline.arrRef spec2 1) : S16384x1.Idx → EReal) (ix2 b (0 : Fin 1)) = (gK m c).d (nodeK m c b) := by
  rw [KRun.entry2_1, gather_rows_column (by omega) _ rfl rfl rfl rfl rfl rfl rfl, gK_d]
  unfold nodeK
  rfl

/-! ## The result -/

/-- The result vector is region 2's output column. -/
theorem result_entry (c : Dev nD) (b : Fin 16384) :
    (W9 m ρ c (Proc.devRef .tc main_v63) : S16384.Idx → EReal) (ix1 b)
      = ((dat2 (V7 m ρ) c).arrAt 13 cfg2.N : S16384x1.Idx → EReal) (ix2 b (0 : Fin 1)) := by
  rw [KRun.result]
  exact LayoutFlatten.shapeCast_a1_a_apply _ _ b

/-- Region 2's second bias row, entry k. -/
theorem b2_row_entry (c : Dev nD) (k : Fin 64) :
    (V7 m ρ c (Pipeline.arrRef spec2 2) : Tab 1 64) (ix2 (0 : Fin 1) k) = b2A m c (ix1 k) :=
  (congrFun (KRun.entry2_2 m ρ c) (ix2 (0 : Fin 1) k)).trans (shapeCast_a_1a_apply (b2A m c) _ _ k)

/-- Region 2's last bias, its one entry. -/
theorem fb2_entry (c : Dev nD) :
    (V7 m ρ c (Pipeline.arrRef spec2 12) : Tab 1 1) (ix2 (0 : Fin 1) (0 : Fin 1)) = fb2A m c (ix1 (0 : Fin 1)) :=
  (congrFun (KRun.entry2_12 m ρ c) (ix2 (0 : Fin 1) (0 : Fin 1))).trans (shapeCast_a_1a_apply (fb2A m c) _ _ _)

/-- The gathered node embedding of batch entry b is layer 2's output at the entry's node. -/
theorem drug_entry (c : Dev nD) (b : Fin 16384) (k : Fin 64) :
    drugE (V7 m ρ c (Pipeline.arrRef spec2 0)) (V7 m ρ c (Pipeline.arrRef spec2 1)) (V7 m ρ c (Pipeline.arrRef spec2 2)) b k
      = x2Scaled (gK m c) (embA m c) (w1A m c) (fun k => b1A m c (ix1 k)) (w2A m c) (fun k => b2A m c (ix1 k))
          (nodeK m c b) k :=
  drugE_eq_x2Scaled (gK m c) (embA m c) (w1A m c) (fun k => b1A m c (ix1 k)) (w2A m c) (fun k => b2A m c (ix1 k))
    (nodeK m c) _ _ _ b (agg2_entry m ρ c b) (dis2_entry m ρ c b) (b2_row_entry m ρ c) k

/-- The program's result at batch entry b: the network's output, in the arrangement that scales the source rows before
    each sum and the sum after it, on the graph and the node the launch memory describes. -/
theorem kernel_value (c : Dev nD) (b : Fin 16384) :
    (W9 m ρ c (Proc.devRef .tc main_v63) : S16384.Idx → EReal) (ix1 b)
      = outOf (x2Scaled (gK m c) (embA m c) (w1A m c) (fun k => b1A m c (ix1 k)) (w2A m c) (fun k => b2A m c (ix1 k)))
          (nodeK m c) (labA m c) (lw1A m c) (lb1A m c) (lw2A m c) (lb2A m c) (fw1A m c) (fb1A m c) (fw2A m c) (fb2A m c) b := by
  refine (result_entry m ρ c b).trans ((HeadValue.head_array (V7 m ρ) c b).trans ?_)
  exact head_eq_outOf
    (x2Scaled (gK m c) (embA m c) (w1A m c) (fun k => b1A m c (ix1 k)) (w2A m c) (fun k => b2A m c (ix1 k))) (nodeK m c)
    _ _ _ _ _ _ _ _ _ _ _ _ _
    (labA m c) (lw1A m c) (lb1A m c) (lw2A m c) (lb2A m c) (fw1A m c) (fb1A m c) (fw2A m c) (fb2A m c) b
    (KRun.entry2_3 m ρ c) (KRun.entry2_4 m ρ c) ((KRun.entry2_5 m ρ c).trans (bias_row_eq (lb1A m c) _))
    (KRun.entry2_6 m ρ c) ((KRun.entry2_7 m ρ c).trans (bias_row_eq (lb2A m c) _))
    ((KRun.entry2_8 m ρ c).trans (top_rows_eq (fw1A m c) _)) ((KRun.entry2_9 m ρ c).trans (bot_rows_eq (fw1A m c) _))
    ((KRun.entry2_10 m ρ c).trans (bias_row_eq (fb1A m c) _)) (KRun.entry2_11 m ρ c)
    (drug_entry m ρ c b) (fb2_entry m ρ c)

end

end Cert.KernelIdeal.KernelValue

end
-- ==== Proof.LibSumBlocks.lean ====
/-
  A sum over an index range laid out as consecutive blocks is the sum of the blocks' sums, in any commutative additive
  monoid: over a + b + c indices, the first a, the next b (shifted by a), the last c (shifted by a + b); and the same for
  two blocks. This is what joins one product against a matrix of stacked row-blocks to the sum of the products against each block.
-/
import Mathlib.Algebra.BigOperators.Fin

open scoped BigOperators

namespace Idealize.ShloMosaic.SumBlocks

variable {β : Type*} [AddCommMonoid β]

/-- Two consecutive blocks. -/
theorem sum_two (a b : ℕ) (g : Fin (a + b) → β) :
    ∑ k, g k = (∑ j : Fin a, g ⟨j.val, by omega⟩) + ∑ j : Fin b, g ⟨a + j.val, by omega⟩ := by
  rw [Fin.sum_univ_add]; rfl

/-- Three consecutive blocks. -/
theorem sum_three (a b c : ℕ) (g : Fin (a + b + c) → β) :
    ∑ k, g k = ((∑ j : Fin a, g ⟨j.val, by omega⟩) + ∑ j : Fin b, g ⟨a + j.val, by omega⟩)
      + ∑ j : Fin c, g ⟨a + b + j.val, by omega⟩ := by
  rw [Fin.sum_univ_add, Fin.sum_univ_add]; rfl

end Idealize.ShloMosaic.SumBlocks
-- ==== Proof.RefValue.lean ====
/-
  The reference's stages read at an index.

  Message e carries, to the node its target word addresses, the source node's feature row times the message's weight;
  S n below is the set of messages arriving at node n, src e the row a gather reads for message e's source word, tgt e
  the row a gather reads for its target word, d n node n's weight. Every stage is read at one index as a formula over
  these and the argument arrays.
-/
import proofs.«115143_j65317862637944_2_alg».proof.Proof.RefStages
import proofs.«115143_j65317862637944_2_alg».proof.Proof.Spec
import proofs.«115143_j65317862637944_2_alg».proof.Proof.LibDenseLayer
import proofs.«115143_j65317862637944_2_alg».proof.Proof.LibIndexWords
import proofs.«115143_j65317862637944_2_alg».proof.Proof.LibColumnFlatten
import proofs.«115143_j65317862637944_2_alg».proof.Proof.LibSumBlocks
import Idealize.ShloMosaic.Lib.ValueLayout

set_option maxRecDepth 65536

noncomputable section

open scoped BigOperators

namespace Cert.ReferenceIdeal.RefValue

open Cert.ReferenceIdeal Cert.ReferenceIdeal.Gen Cert.ReferenceIdeal.RefRun Idealize.ShloMosaic Idealize.ShloMosaic.TcCoe Idealize.ShloMosaic.ValueIdx
open Idealize.ShloMosaic.DotInner Idealize.ShloMosaic.DenseLayer Cert.SegmentSum Cert.IndexWords

variable (m : Mem) (c : Dev nD)

/-! ## The argument arrays, typed -/
abbrev idsA : IVec S16384 32 := m ((c.tc : Thread nD τ).loc main_arg1)
abbrev labA : FVec Ideal S16384x9 .f32 := m ((c.tc : Thread nD τ).loc main_arg2)
abbrev embA : FVec Ideal S100000x32 .f32 := m ((c.tc : Thread nD τ).loc main_arg3)
abbrev w1A : FVec Ideal S32x64 .f32 := m ((c.tc : Thread nD τ).loc main_arg4)
abbrev b1A : FVec Ideal S64 .f32 := m ((c.tc : Thread nD τ).loc main_arg5)
abbrev w2A : FVec Ideal S64x64 .f32 := m ((c.tc : Thread nD τ).loc main_arg6)
abbrev b2A : FVec Ideal S64 .f32 := m ((c.tc : Thread nD τ).loc main_arg7)
abbrev lw1A : FVec Ideal S9x32 .f32 := m ((c.tc : Thread nD τ).loc main_arg8)
abbrev lb1A : FVec Ideal S32 .f32 := m ((c.tc : Thread nD τ).loc main_arg9)
abbrev lw2A : FVec Ideal S32x32 .f32 := m ((c.tc : Thread nD τ).loc main_arg10)
abbrev lb2A : FVec Ideal S32 .f32 := m ((c.tc : Thread nD τ).loc main_arg11)
abbrev fw1A : FVec Ideal S96x64 .f32 := m ((c.tc : Thread nD τ).loc main_arg12)
abbrev fb1A : FVec Ideal S64 .f32 := m ((c.tc : Thread nD τ).loc main_arg13)
abbrev fw2A : FVec Ideal S64x1 .f32 := m ((c.tc : Thread nD τ).loc main_arg14)
abbrev fb2A : FVec Ideal S1 .f32 := m ((c.tc : Thread nD τ).loc main_arg15)

/-- The messages arriving at node n. -/
def S (n : Fin 100000) : Finset (Fin 3300000) := arriving 100000 (colW m c) n
/-- The row a gather reads for message e's source. -/
def src (e : Fin 3300000) : Fin 100000 := clampRow 100000 (by omega) (nrm (rowW m c) (ix1 e))
/-- The row a gather reads for message e's target. -/
def tgt (e : Fin 3300000) : Fin 100000 := clampRow 100000 (by omega) (nrm (colW m c) (ix1 e))
/-- Node n's weight. -/
def d (n : Fin 100000) : EReal := dis m c (ix1 n)
/-- The row a gather reads for batch entry b. -/
def node (b : Fin 16384) : Fin 100000 := clampRow 100000 (by omega) (nrmB (idsA m c) (ix1 b))

/-- A message arriving at node n has target row n. -/
theorem tgt_of_mem (n : Fin 100000) (e : Fin 3300000) (he : e ∈ S m c n) : tgt m c e = n := by
  unfold S arriving at he
  have ht : rowTarget 100000 (colW m c (ix1 e)) = some n := (Finset.mem_filter.mp he).2
  have hn : nrm (colW m c) (ix1 e) = Scalar.select (IntOp.cmpi .slt (colW m c (ix1 e)) 0#32)
      (IntOp.addi (colW m c (ix1 e)) 100000#32) (colW m c (ix1 e)) := by
    unfold nrm
    rw [select_apply]
    show Scalar.select (IntOp.cmpi .slt (colW m c (ix1 e)) (broadcastInDim S3300000 ![] bcast_S_S3300000 (constantI S_ 32 0#32) (ix1 e)))
      (IntOp.addi (colW m c (ix1 e)) (broadcastInDim S3300000 ![] bcast_S_S3300000 (constantI S_ 32 100000#32) (ix1 e))) _ = _
    rw [splat_apply, splat_apply]
    rfl
  unfold tgt
  rw [hn]
  exact clampRow_normalized_of_target (by omega) 100000#32 _ n ht

/-- Every node weight is a nonnegative real number. -/
theorem d_nonneg_ne_top (n : Fin 100000) : 0 ≤ d m c n ∧ d m c n ≠ ⊤ := by
  have e : d m c n = Scalar.select (cmpf (F := Ideal) .ogt (deg m c) (broadcastInDim S100000 ![] bcast_S_S100000 (constant S_ .f32 0x00000000#32)) (ix1 n))
      (Ideal.rsqrt (max (deg m c (ix1 n)) (Ideal.ofBits .f32 0x3F800000#32))) (Ideal.ofBits .f32 0x00000000#32) := by
    unfold d dis
    rw [select_apply]
    refine congr (congrArg (Scalar.select _) ?_) ?_
    · have hr : ∀ (x : FVec Ideal S100000 .f32) (i : S100000.Idx), Host.rsqrt x i = Ideal.rsqrt (x i) := fun _ _ => rfl
      rw [hr, maximumf_apply, splat_apply, constant_apply]
    · rw [splat_apply]
      rfl
  rw [e]
  exact weight_nonneg_ne_top _ _

/-- A message's weight: its source's node weight times its target's. -/
theorem norm_apply (e : Fin 3300000) : RefRun.norm m c (ix1 e) = d m c (src m c e) * d m c (tgt m c e) := by
  unfold RefRun.norm
  rw [mulf_apply]
  rw [gather_table_column (by omega : 0 < 100000) gather_S100000_S3300000x1_S3300000_n_0_n_n_0_1_1 rfl rfl rfl rfl rfl rfl rfl,
    gather_table_column (by omega : 0 < 100000) gather_S100000_S3300000x1_S3300000_n_0_n_n_0_1_1 rfl rfl rfl rfl rfl rfl rfl]
  rfl

/-- The aggregation of a node table, at (n, j). -/
theorem agg_apply (h : FVec Ideal S100000x64 .f32) (n : Fin 100000) (j : Fin 64) :
    agg m c h (ix2 n j) = 0 + ∑ e ∈ S m c n, h (ix2 (src m c e) j) * (d m c (src m c e) * d m c (tgt m c e)) := by
  unfold agg
  rw [scatterAdd_rows_column scatter_S100000x64_S3300000x1_S3300000x64_1_0_0_1 rfl rfl rfl rfl, zero_splat_apply]
  refine congrArg _ (Finset.sum_congr rfl fun e _ => ?_)
  rw [mulf_apply, gather_rows_column (by omega : 0 < 100000) gather_S100000x64_S3300000x1_S3300000x64_1_0_n_n_0_1_164 rfl rfl rfl rfl rfl rfl rfl,
    rows_apply, column_apply, norm_apply]
  rfl

theorem h1_apply (r : Fin 100000) (j : Fin 64) :
    h1 m c (ix2 r j) = ∑ k : Fin 32, embA m c (ix2 r k) * w1A m c (ix2 k j) := by
  have hD : Plain dot_S100000x32_S32x64_S100000x64_1_0_0_1_n_n := plain_record dot_S100000x32_S32x64_S100000x64_1_0_0_1_n_n, S100000x32, S32x64
  exact hD.dotGeneral none (embA m c) (w1A m c) r j

theorem x1_apply (n : Fin 100000) (k : Fin 64) :
    x1 m c (ix2 n k) = max (agg m c (h1 m c) (ix2 n k) + b1A m c (ix1 k)) 0 := by
  unfold x1
  rw [maximumf_apply, addf_apply, bias_apply (b1A m c), zero_splat_apply]

theorem h2_apply (r : Fin 100000) (j : Fin 64) :
    h2 m c (ix2 r j) = ∑ k : Fin 64, x1 m c (ix2 r k) * w2A m c (ix2 k j) := by
  have hD : Plain dot_S100000x64_S64x64_S100000x64_1_0_0_1_n_n := plain_record dot_S100000x64_S64x64_S100000x64_1_0_0_1_n_n, S100000x64, S64x64
  exact hD.dotGeneral none (x1 m c) (w2A m c) r j

theorem x2_apply (n : Fin 100000) (k : Fin 64) :
    x2 m c (ix2 n k) = agg m c (h2 m c) (ix2 n k) + b2A m c (ix1 k) := by
  unfold x2
  rw [addf_apply, bias_apply (b2A m c)]

theorem drug_apply (b : Fin 16384) (k : Fin 64) : drug m c (ix2 b k) = x2 m c (ix2 (node m c b) k) := by
  unfold drug
  rw [gather_rows_column (by omega : 0 < 100000) gather_S100000x64_S16384x1_S16384x64_1_0_n_n_0_1_164 rfl rfl rfl rfl rfl rfl rfl]
  rfl

theorem labh_apply (b : Fin 16384) (k : Fin 32) :
    labh m c (ix2 b k) = max ((∑ q : Fin 9, labA m c (ix2 b q) * lw1A m c (ix2 q k)) + lb1A m c (ix1 k)) 0 := by
  have hD : Plain dot_S16384x9_S9x32_S16384x32_1_0_0_1_n_n := plain_record dot_S16384x9_S9x32_S16384x32_1_0_0_1_n_n, S16384x9, S9x32
  unfold labh
  rw [maximumf_apply, dense_apply hD (labA m c) (lw1A m c) (lb1A m c), zero_splat_apply]

theorem labe_apply (b : Fin 16384) (k : Fin 32) :
    labe m c (ix2 b k) = (∑ q : Fin 32, labh m c (ix2 b q) * lw2A m c (ix2 q k)) + lb2A m c (ix1 k) := by
  have hD : Plain dot_S16384x32_S32x32_S16384x32_1_0_0_1_n_n := plain_record dot_S16384x32_S32x32_S16384x32_1_0_0_1_n_n, S16384x32, S32x32
  unfold labe
  rw [dense_apply hD (labh m c) (lw2A m c) (lb2A m c)]

/-- The concatenation reads the node embedding on its first 64 columns … -/
theorem cat_left (b : Fin 16384) (q : Fin 64) : cat m c (ix2 b (⟨q.val, by omega⟩ : Fin 96)) = drug m c (ix2 b q) := by
  unfold cat
  exact concatenate_pair_apply_left (1 : Fin S16384x96.rank) (drug m c) (labe m c) concatenates_S16384x64_S16384x32_S16384x96_d1
    (ix2 b (⟨q.val, by omega⟩ : Fin 96)) rfl (ix2 b q) (fun a => by
      match a with
      | ⟨0, _⟩ => rfl
      | ⟨1, _⟩ => rfl)

/-- … and the laboratory embedding on its last 32. -/
theorem cat_right (b : Fin 16384) (q : Fin 32) : cat m c (ix2 b (⟨64 + q.val, by omega⟩ : Fin 96)) = labe m c (ix2 b q) := by
  unfold cat
  exact concatenate_pair_apply_right (1 : Fin S16384x96.rank) (drug m c) (labe m c) concatenates_S16384x64_S16384x32_S16384x96_d1
    (ix2 b (⟨64 + q.val, by omega⟩ : Fin 96)) rfl rfl (ix2 b q) (fun a ha => by
      match a, ha with
      | ⟨0, _⟩, _ => rfl
      | ⟨1, _⟩, ha => exact absurd rfl ha) (by show q.val + 64 = 64 + q.val; omega)

theorem fh_apply (b : Fin 16384) (k : Fin 64) :
    fh m c (ix2 b k) = max (((∑ q : Fin 64, drug m c (ix2 b q) * fw1A m c (ix2 (⟨q.val, by omega⟩ : Fin 96) k))
      + ∑ q : Fin 32, labe m c (ix2 b q) * fw1A m c (ix2 (⟨64 + q.val, by omega⟩ : Fin 96) k)) + fb1A m c (ix1 k)) 0 := by
  have hD : Plain dot_S16384x96_S96x64_S16384x64_1_0_0_1_n_n := plain_record dot_S16384x96_S96x64_S16384x64_1_0_0_1_n_n, S16384x96, S96x64
  unfold fh
  rw [maximumf_apply, dense_apply hD (cat m c) (fw1A m c) (fb1A m c), zero_splat_apply,
    Idealize.ShloMosaic.SumBlocks.sum_two 64 32 (fun q : Fin (64 + 32) => cat m c (ix2 b q) * fw1A m c (ix2 q k))]
  simp only [cat_left, cat_right]

theorem logits_apply (b : Fin 16384) :
    logits m c (ix2 b 0) = (∑ k : Fin 64, fh m c (ix2 b k) * fw2A m c (ix2 k 0)) + fb2A m c (ix1 0) := by
  have hD : Plain dot_S16384x64_S64x1_S16384x1_1_0_0_1_n_n := plain_record dot_S16384x64_S64x1_S16384x1_1_0_0_1_n_n, S16384x64, S64x1
  unfold logits
  rw [dense_apply hD (fh m c) (fw2A m c) (fb2A m c)]

/-- The result at batch entry b: the logistic function of its logit. -/
theorem res_apply (b : Fin 16384) :
    (res m c : S16384.Idx → EReal) (ix1 b) = Ideal.logistic (logits m c (ix2 b 0)) := by
  unfold res
  refine (Cert.LayoutFlatten.shapeCast_a1_a_apply (a := 16384) _ shapeCasts_S16384x1_S16384 b).trans ?_
  have hdiv : ∀ (x y : FVec Ideal S16384x1 .f32) (i : S16384x1.Idx), Host.divf x y i = Ideal.div (x i) (y i) := fun _ _ _ => rfl
  have hexp : ∀ (x : FVec Ideal S16384x1 .f32) (i : S16384x1.Idx), Host.exp x i = Ideal.exp (x i) := fun _ _ => rfl
  have hneg : ∀ (x : FVec Ideal S16384x1 .f32) (i : S16384x1.Idx), Host.negf x i = - (x i) := fun _ _ => rfl
  rw [hdiv, addf_apply, hexp, hneg, splat_apply, constant_apply, ofBits_one_f32]
  rfl

end Cert.ReferenceIdeal.RefValue

end
-- ==== Proof.RefModel.lean ====
/-
  The reference's result is the network's output in the first arrangement (each message weighted by its source's and its
  target's node weights), over the graph its index words describe.
-/
import proofs.«115143_j65317862637944_2_alg».proof.Proof.RefValue
import proofs.«115143_j65317862637944_2_alg».proof.Proof.Network

set_option maxRecDepth 65536

noncomputable section

open scoped BigOperators

namespace Cert.ReferenceIdeal.RefValue

open Cert.ReferenceIdeal Cert.ReferenceIdeal.Gen Cert.ReferenceIdeal.RefRun Idealize.ShloMosaic Idealize.ShloMosaic.TcCoe Idealize.ShloMosaic.ValueIdx
open Cert.Gcn

variable (m : Mem) (c : Dev nD)

attribute [local irreducible] S src tgt d node Cert.IndexWords.arriving Cert.IndexWords.clampRow

/-- The graph the reference's index words describe. -/
def gR : Graph := { S := S m c, src := src m c, tgt := tgt m c, d := d m c }

/-- Its node weights are nonnegative reals and its messages arrive where their targets say. -/
theorem gR_good : (gR m c).Good where
  d_nonneg n := (d_nonneg_ne_top m c n).1
  d_ne_top n := (d_nonneg_ne_top m c n).2
  tgt_of_mem n e he := tgt_of_mem m c n e he

theorem x1_eq (n : Fin 100000) (k : Fin 64) :
    x1 m c (ix2 n k) = x1Each (gR m c) (embA m c) (w1A m c) (fun k => b1A m c (ix1 k)) n k := by
  rw [x1_apply, agg_apply]
  unfold x1Each convEach lin1
  simp only [h1_apply]
  rfl

theorem x2_eq (n : Fin 100000) (k : Fin 64) :
    x2 m c (ix2 n k) = x2Each (gR m c) (embA m c) (w1A m c) (fun k => b1A m c (ix1 k)) (w2A m c) (fun k => b2A m c (ix1 k)) n k := by
  rw [x2_apply, agg_apply]
  unfold x2Each convEach
  simp only [h2_apply, x1_eq]
  rfl

theorem labe_eq (b : Fin 16384) (k : Fin 32) :
    labe m c (ix2 b k) = labE (labA m c) (lw1A m c) (rowOf (lb1A m c)) (lw2A m c) (rowOf (lb2A m c)) b k := by
  rw [labe_apply]
  unfold labE labH
  simp only [labh_apply]
  rfl

/-- The reference's result at batch entry b. -/
theorem res_eq (b : Fin 16384) :
    (res m c : S16384.Idx → EReal) (ix1 b)
      = outOf (x2Each (gR m c) (embA m c) (w1A m c) (fun k => b1A m c (ix1 k)) (w2A m c) (fun k => b2A m c (ix1 k))) (node m c)
          (labA m c) (lw1A m c) (lb1A m c) (lw2A m c) (lb2A m c) (fw1A m c) (fb1A m c) (fw2A m c) (fb2A m c) b := by
  rw [res_apply, logits_apply]
  unfold outOf
  have hk : ∀ k : Fin 64, fh m c (ix2 b k)
      = fusH (x2Each (gR m c) (embA m c) (w1A m c) (fun k => b1A m c (ix1 k)) (w2A m c) (fun k => b2A m c (ix1 k)) (node m c b))
          (labE (labA m c) (lw1A m c) (rowOf (lb1A m c)) (lw2A m c) (rowOf (lb2A m c)) b)
          (topRows (fw1A m c)) (botRows (fw1A m c)) (rowOf (fb1A m c)) k := by
    intro k
    rw [fh_apply]
    unfold fusH
    simp only [drug_apply, x2_eq, labe_eq]
    rfl
  simp only [hk]

end Cert.ReferenceIdeal.RefValue

end
-- ==== Proof.Agree.lean ====
/- The kernel's and the reference's index words and node weights are the same functions of the argument arrays: the
   message sources and targets (the two rows of the edge index, each followed by every node once), the word
   normalisation before a gather (a negative word moved up by the table's height), the node weights (the inverse
   square root of the degree where it is positive, zero elsewhere) and the batch's normalised node ids. Each side
   spells them as the same composition of the same operations over the same shapes, so once the argument arrays
   are identified the two terms coincide; the kernel keeps the node weights as a column, read at (n, 0). -/
import proofs.«115143_j65317862637944_2_alg».proof.Proof.KernelArrays
import proofs.«115143_j65317862637944_2_alg».proof.Proof.RefStages
import Idealize.ShloMosaic.Lib.ValueIdx
import Idealize.ShloMosaic.Lib.Pipeline.Value

set_option maxRecDepth 65536

noncomputable section

namespace Cert.Agree

open Idealize.ShloMosaic Idealize.ShloMosaic.TcCoe Idealize.ShloMosaic.ValueIdx
open Idealize.SL Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The message targets are the same words on both sides. -/
theorem colW_agree
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.RefRun.colW m' c = Cert.KernelIdeal.KRun.colW m c := by
  unfold Cert.ReferenceIdeal.RefRun.colW Cert.KernelIdeal.KRun.colW
  rw [h0]

/-- The message sources are the same words on both sides. -/
theorem rowW_agree
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.RefRun.rowW m' c = Cert.KernelIdeal.KRun.rowW m c := by
  unfold Cert.ReferenceIdeal.RefRun.rowW Cert.KernelIdeal.KRun.rowW
  rw [h0]

/-- The normalisation of a message's index word is the same function on both sides. -/
theorem nrm_agree (w : IVec Cert.KernelIdeal.S3300000 32) :
    Cert.ReferenceIdeal.RefRun.nrm w = Cert.KernelIdeal.KRun.nrmE w := rfl

/-- The normalisation of a batch entry's node id is the same function on both sides. -/
theorem nrmB_agree (w : IVec Cert.KernelIdeal.S16384 32) :
    Cert.ReferenceIdeal.RefRun.nrmB w = Cert.KernelIdeal.KRun.nrmB w := rfl

/-- The degrees are the same on both sides. -/
theorem deg_agree
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.RefRun.deg m' c = Cert.KernelIdeal.KRun.degW m c := by
  unfold Cert.ReferenceIdeal.RefRun.deg Cert.KernelIdeal.KRun.degW
  rw [colW_agree m m' c h0]
  rfl

/-- A column made of a vector reads at (n, 0) the vector's entry n. -/
theorem column_apply {α : Type} (x : Cert.KernelIdeal.S100000.Idx → α)
    (h : Cert.KernelIdeal.S100000.ShapeCasts Cert.KernelIdeal.S100000x1) (n : Fin 100000) :
    shapeCast Cert.KernelIdeal.S100000x1 x h (ix2 n (0 : Fin 1)) = x (ix1 n) := by
  refine shapeCast_apply x _ (ix2 n (0 : Fin 1)) (ix1 n) ?_
  rw [Shape.rowMajor_val_one, Shape.rowMajor_val_two]
  show n.val = n.val * 1 + 0
  omega

/-- The node weights: the reference's vector at n is the kernel's column at (n, 0). -/
theorem dis_agree
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (n : Fin 100000) :
    Cert.ReferenceIdeal.RefRun.dis m' c (ix1 n) = Cert.KernelIdeal.KRun.disCol m c (ix2 n (0 : Fin 1)) := by
  unfold Cert.KernelIdeal.KRun.disCol
  rw [column_apply]
  unfold Cert.ReferenceIdeal.RefRun.dis
  rw [deg_agree m m' c h0]
  rfl

/-- The batch's normalised node ids are the same words on both sides. -/
theorem ids_agree
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (b : Fin 16384) :
    Cert.ReferenceIdeal.RefRun.nrmB (m' ((c.tc : Thread Cert.ReferenceIdeal.nD Cert.ReferenceIdeal.τ).loc Cert.ReferenceIdeal.main_arg1)) (ix1 b)
      = Cert.KernelIdeal.KRun.nrmB (m ((c.tc : Thread Cert.KernelIdeal.nD Cert.KernelIdeal.τ).loc Cert.KernelIdeal.main_arg1)) (ix1 b) := by
  rw [h1]
  rfl

end Cert.Agree

end
-- ==== Proof.Final.lean ====
/-
  The two programs compute one function.

  From launch memories that agree on the sixteen argument arrays, the kernel program's result is the network's output in
  the arrangement that scales source rows before each aggregation and the sum after it, the reference's is the output in the
  arrangement that weights every message by both node weights; both are stated over the message graph the index
  arrays describe, which is the same graph on both sides (the same words, the same node weights), and the two
  arrangements agree on it because its node weights are nonnegative real numbers.
-/
import proofs.«115143_j65317862637944_2_alg».proof.Proof.KernelValue
import proofs.«115143_j65317862637944_2_alg».proof.Proof.RefModel
import proofs.«115143_j65317862637944_2_alg».proof.Proof.Agree
import proofs.«115143_j65317862637944_2_alg».proof.Proof.Network

set_option maxRecDepth 65536

noncomputable section

namespace Cert.Final

open Idealize.ShloMosaic Idealize.ShloMosaic.TcCoe Idealize.ShloMosaic.ValueIdx Idealize.SL.Sem Cert.Gcn Cert.IndexWords

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two programs read one message graph off memories that agree on edge_index. -/
theorem graph_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.RefValue.gR m' c = Cert.KernelIdeal.KernelValue.gK m c := by
  have hS : Cert.ReferenceIdeal.RefValue.S m' c = fun n => arriving 100000 (Cert.KernelIdeal.KRun.colW m c) n := by
    funext n
    unfold Cert.ReferenceIdeal.RefValue.S
    rw [Cert.Agree.colW_agree m m' c h0]
  have hsrc : Cert.ReferenceIdeal.RefValue.src m' c = fun e => clampRow 100000 (by omega) (Cert.KernelIdeal.KRun.nrmE (Cert.KernelIdeal.KRun.rowW m c) (ix1 e)) := by
    funext e
    unfold Cert.ReferenceIdeal.RefValue.src
    rw [Cert.Agree.rowW_agree m m' c h0, Cert.Agree.nrm_agree]
  have htgt : Cert.ReferenceIdeal.RefValue.tgt m' c = fun e => clampRow 100000 (by omega) (Cert.KernelIdeal.KRun.nrmE (Cert.KernelIdeal.KRun.colW m c) (ix1 e)) := by
    funext e
    unfold Cert.ReferenceIdeal.RefValue.tgt
    rw [Cert.Agree.colW_agree m m' c h0, Cert.Agree.nrm_agree]
  have hd : Cert.ReferenceIdeal.RefValue.d m' c = fun n => Cert.KernelIdeal.KRun.disCol m c (ix2 n (0 : Fin 1)) := by
    funext n
    unfold Cert.ReferenceIdeal.RefValue.d
    exact Cert.Agree.dis_agree m m' c h0 n
  unfold Cert.ReferenceIdeal.RefValue.gR Cert.KernelIdeal.KernelValue.gK
  rw [hS, hsrc, htgt, hd]

/-- … and one node per batch entry off memories that agree on drug_ids. -/
theorem node_agree (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RefValue.node m' c = Cert.KernelIdeal.KernelValue.nodeK m c := by
  funext b
  unfold Cert.ReferenceIdeal.RefValue.node Cert.KernelIdeal.KernelValue.nodeK
  exact congrArg (clampRow 100000 (by omega)) (Cert.Agree.ids_agree m m' c h1 b)

/-- The reference's result array is the kernel program's. -/
theorem result_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    (Cert.ReferenceIdeal.RefRun.res m' c : (⟨1, ![16384]⟩ : Shape).Idx → EReal)
      = Cert.KernelIdeal.Gen.W9 m ρ c (Proc.devRef .tc Cert.KernelIdeal.main_v63) := by
  funext i
  obtain ⟨b, rfl⟩ : ∃ b : Fin 16384, i = ix1 b := ⟨i 0, eq_ix1 i⟩
  have hgood : (Cert.KernelIdeal.KernelValue.gK m c).Good := graph_agree m m' c h0 ▸ Cert.ReferenceIdeal.RefValue.gR_good m' c
  have e2 : Cert.ReferenceIdeal.RefValue.labA m' c = Cert.KernelIdeal.KernelValue.labA m c := h2
  have e3 : Cert.ReferenceIdeal.RefValue.embA m' c = Cert.KernelIdeal.KernelValue.embA m c := h3
  have e4 : Cert.ReferenceIdeal.RefValue.w1A m' c = Cert.KernelIdeal.KernelValue.w1A m c := h4
  have e5 : Cert.ReferenceIdeal.RefValue.b1A m' c = Cert.KernelIdeal.KernelValue.b1A m c := h5
  have e6 : Cert.ReferenceIdeal.RefValue.w2A m' c = Cert.KernelIdeal.KernelValue.w2A m c := h6
  have e7 : Cert.ReferenceIdeal.RefValue.b2A m' c = Cert.KernelIdeal.KernelValue.b2A m c := h7
  have e8 : Cert.ReferenceIdeal.RefValue.lw1A m' c = Cert.KernelIdeal.KernelValue.lw1A m c := h8
  have e9 : Cert.ReferenceIdeal.RefValue.lb1A m' c = Cert.KernelIdeal.KernelValue.lb1A m c := h9
  have e10 : Cert.ReferenceIdeal.RefValue.lw2A m' c = Cert.KernelIdeal.KernelValue.lw2A m c := h10
  have e11 : Cert.ReferenceIdeal.RefValue.lb2A m' c = Cert.KernelIdeal.KernelValue.lb2A m c := h11
  have e12 : Cert.ReferenceIdeal.RefValue.fw1A m' c = Cert.KernelIdeal.KernelValue.fw1A m c := h12
  have e13 : Cert.ReferenceIdeal.RefValue.fb1A m' c = Cert.KernelIdeal.KernelValue.fb1A m c := h13
  have e14 : Cert.ReferenceIdeal.RefValue.fw2A m' c = Cert.KernelIdeal.KernelValue.fw2A m c := h14
  have e15 : Cert.ReferenceIdeal.RefValue.fb2A m' c = Cert.KernelIdeal.KernelValue.fb2A m c := h15
  refine (Cert.ReferenceIdeal.RefValue.res_eq m' c b).trans (Eq.trans ?_ (Cert.KernelIdeal.KernelValue.kernel_value m ρ c b).symm)
  rw [graph_agree m m' c h0, node_agree m m' c h1, e2, e3, e4, e5, e6, e7, e8, e9, e10, e11, e12, e13, e14, e15,
    x2Scaled_eq (Cert.KernelIdeal.KernelValue.gK m c) _ _ _ _ _ hgood]

end Cert.Final

end
-- ==== Proof.lean ====
/-
  The certificate: a two-layer graph convolution network with an MLP head, as three tiled kernels with the graph
  aggregation between them, against its plain reference.

  Both programs run, fault-free, and leave their sixteen argument arrays as launched: the two kernel programs by their
  region-by-region frame, the reference because it is a sequence of host operations. The idealized kernel is the printed
  kernel read at the extended reals (nothing was rewritten). And the two idealized programs end with equal results: the
  kernel scales each node's features by the node's weight (the inverse square root of its degree) before a layer's
  aggregation and the aggregated sum by the target's weight after it; the reference multiplies every message by the
  product of its two endpoints' weights. A node's weight is a nonnegative real number whatever the inputs, so it moves
  across the finite sum, and every message that arrives at a node has that node as its target, which makes the two
  arrangements one function, entry by entry; the fusion layer's product with the concatenated embeddings is the sum of
  the products with the fusion matrix's two row blocks; the logistic function is 1 / (1 + exp (−x)) on both sides.
-/
import proofs.«115143_j65317862637944_2_alg».proof.Defs
import proofs.«115143_j65317862637944_2_alg».proof.Proof.Gen.Kernel
import proofs.«115143_j65317862637944_2_alg».proof.Proof.Gen.Kernel.Skeleton
import proofs.«115143_j65317862637944_2_alg».proof.Proof.Gen.Kernel.Launch
import proofs.«115143_j65317862637944_2_alg».proof.Proof.Gen.Kernel.Points
import proofs.«115143_j65317862637944_2_alg».proof.Proof.Gen.Kernel.Frame
import proofs.«115143_j65317862637944_2_alg».proof.Proof.Gen.KernelIdeal
import proofs.«115143_j65317862637944_2_alg».proof.Proof.Gen.KernelIdeal.Skeleton
import proofs.«115143_j65317862637944_2_alg».proof.Proof.Gen.KernelIdeal.Launch
import proofs.«115143_j65317862637944_2_alg».proof.Proof.Gen.KernelIdeal.Points
import proofs.«115143_j65317862637944_2_alg».proof.Proof.Gen.KernelIdeal.Frame
import proofs.«115143_j65317862637944_2_alg».proof.Proof.Gen.ReferenceIdeal
import proofs.«115143_j65317862637944_2_alg».proof.Proof.Gen.Pre_finite_inputs
import proofs.«115143_j65317862637944_2_alg».proof.Proof.KernelRun
import proofs.«115143_j65317862637944_2_alg».proof.Proof.RefRun
import proofs.«115143_j65317862637944_2_alg».proof.Proof.Final
import Idealize.ShloMosaic.Adequacy
import Idealize.ShloMosaic.Init

noncomputable section

namespace Cert.Proof

open Idealize.ShloMosaic Idealize.SL.Sem

/-- The kernel program runs and keeps its arguments. -/
theorem frame_kernel : Cert.frame_Kernel :=
  fun m ρ _ => Cert.Kernel.Gen.frame m ρ

/-- So does its reading at the extended reals. -/
theorem frame_kernel_ideal : Cert.frame_KernelIdeal :=
  fun m ρ _ => Cert.KernelIdeal.Gen.frame m ρ

/-- The reference runs and keeps its arguments: its run, with the result dropped. -/
theorem frame_reference : Cert.frame_ReferenceIdeal :=
  fun m ρ _ => (θ_run Cert.ReferenceIdeal.defs _ _).mono (fun _ h c => (h c).2) (Cert.ReferenceIdeal.RefRun.run m ρ)

/-- From memories agreeing on the arguments both programs end with the same result array. -/
theorem algebraic :
    Cert.algebraic_KernelIdeal_ReferenceIdeal := by
  intro m ρ m' ρ' _ hagree
  refine ⟨fun c => Cert.KernelIdeal.Gen.W9 m ρ c (Proc.devRef .tc Cert.KernelIdeal.main_v63),
    Cert.KernelIdeal.KRun.run_result m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11, h12, h13, h14, h15⟩ := hagree c
  exact Cert.Final.result_agree m ρ m' c h0 h1 h2 h3 h4 h5 h6 h7 h8 h9 h10 h11 h12 h13 h14 h15

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
